-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S8x4096x4096 : Shape := ⟨3, ![8, 4096, 4096]⟩
abbrev S128x128 : Shape := ⟨2, ![128, 128]⟩
abbrev S128 : Shape := ⟨1, ![128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x4096x128 .f32) (main_arg1 : FVec F S8x4096x4096 .f32) (main_arg2 : FVec F S128x128 .f32) (main_arg3 : FVec F S128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x4096x128 : Shape := ⟨3, ![8, 4096, 128]⟩
abbrev S8x4096x4096 : Shape := ⟨3, ![8, 4096, 4096]⟩
abbrev S128x128 : Shape := ⟨2, ![128, 128]⟩
abbrev S128 : Shape := ⟨1, ![128]⟩
abbrev S8x4096 : Shape := ⟨2, ![8, 4096]⟩
abbrev S8x128x1024 : Shape := ⟨3, ![8, 128, 1024]⟩
abbrev S8x128x128 : Shape := ⟨3, ![8, 128, 128]⟩
abbrev S8x128 : Shape := ⟨2, ![8, 128]⟩
abbrev S1024x128 : Shape := ⟨2, ![1024, 128]⟩
abbrev S1x1x128 : Shape := ⟨3, ![1, 1, 128]⟩
abbrev S8x128x1 : Shape := ⟨3, ![8, 128, 1]⟩
abbrev S8x256x1024 : Shape := ⟨3, ![8, 256, 1024]⟩
abbrev S8x256 : Shape := ⟨2, ![8, 256]⟩
abbrev S8x256x128 : Shape := ⟨3, ![8, 256, 128]⟩
abbrev S8x1024x128 : Shape := ⟨3, ![8, 1024, 128]⟩
abbrev S8x256x1 : Shape := ⟨3, ![8, 256, 1]⟩

abbrev nBuf : Space → Nat
  | .hbm => 7
  | .vmem => 19
  | .smem => 0
  | _ => 0

abbrev bufTy : (tb : Table) → Fin (tcTables nBuf tb) → BufTy
  | .hbm, ⟨0, _⟩ => ⟨S8x4096x128, .f32⟩
  | .hbm, ⟨1, _⟩ => ⟨S8x4096x4096, .f32⟩
  | .hbm, ⟨2, _⟩ => ⟨S128x128, .f32⟩
  | .hbm, ⟨3, _⟩ => ⟨S128, .f32⟩
  | .hbm, ⟨4, _⟩ => ⟨S8x4096, .f32⟩
  | .hbm, ⟨5, _⟩ => ⟨S8x4096x128, .bf16⟩
  | .hbm, ⟨6, _⟩ => ⟨S8x4096x128, .f32⟩
  | .local _ .vmem, ⟨0, _⟩ => ⟨S8x128x1024, .f32⟩
  | .local _ .vmem, ⟨1, _⟩ => ⟨S8x128x1024, .f32⟩
  | .local _ .vmem, ⟨2, _⟩ => ⟨S8x128x128, .f32⟩
  | .local _ .vmem, ⟨3, _⟩ => ⟨S8x128x128, .f32⟩
  | .local _ .vmem, ⟨4, _⟩ => ⟨S128x128, .f32⟩
  | .local _ .vmem, ⟨5, _⟩ => ⟨S128, .f32⟩
  | .local _ .vmem, ⟨6, _⟩ => ⟨S8x128, .f32⟩
  | .local _ .vmem, ⟨7, _⟩ => ⟨S8x128, .f32⟩
  | .local _ .vmem, ⟨8, _⟩ => ⟨S8x128x128, .bf16⟩
  | .local _ .vmem, ⟨9, _⟩ => ⟨S8x128x128, .bf16⟩
  | .local _ .vmem, ⟨10, _⟩ => ⟨S8x128, .f32⟩
  | .local _ .vmem, ⟨11, _⟩ => ⟨S8x256x1024, .f32⟩
  | .local _ .vmem, ⟨12, _⟩ => ⟨S8x256x1024, .f32⟩
  | .local _ .vmem, ⟨13, _⟩ => ⟨S8x4096x128, .bf16⟩
  | .local _ .vmem, ⟨14, _⟩ => ⟨S8x256, .f32⟩
  | .local _ .vmem, ⟨15, _⟩ => ⟨S8x256, .f32⟩
  | .local _ .vmem, ⟨16, _⟩ => ⟨S8x256x128, .f32⟩
  | .local _ .vmem, ⟨17, _⟩ => ⟨S8x256x128, .f32⟩
  | .local _ .vmem, ⟨18, _⟩ => ⟨S8x256x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![16, 4], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 3 → Nat :=
  let c0_3 : Index := 0#32
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_4 : Index := 0#32
  ![0, v7.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_11 : BitVec 32 := 0#32
  let v18 : BitVec 1 := Scalar.cmpi .ne v17 c0_i32_11
  v18

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x1024_S8x128x1024_0_0_0 : ∀ a, (![0, 0, 0] : Fin 3 → Nat) a + S8x128x1024.size a ≤ S8x128x1024.size a
  h_S8x128x1024 : 0 < S8x128x1024.numel
  reduces_S8x128x1024_S8x128 : S8x128x1024.Reduces [2] S8x128
  inb_S8x128x128_S8x128x128_0_0_0 : ∀ a, (![0, 0, 0] : Fin 3 → Nat) a + S8x128x128.size a ≤ S8x128x128.size a
  h_S8x128x128 : 0 < S8x128x128.numel
  bitsLt_bf16_f32 : FTy.bits .bf16 < FTy.bits .f32
  shapeCasts_S8x128x128_S1024x128 : S8x128x128.ShapeCasts S1024x128
  inb_S128x128_S128x128_0_0 : ∀ a, (![0, 0] : Fin 2 → Nat) a + S128x128.size a ≤ S128x128.size a
  h_S128x128 : 0 < S128x128.numel
  shapeCasts_S1024x128_S8x128x128 : S1024x128.ShapeCasts S8x128x128
  inb_S128_S128_0 : ∀ a, (![0] : Fin 1 → Nat) a + S128.size a ≤ S128.size a
  h_S128 : 0 < S128.numel
  shapeCasts_S128_S1x1x128 : S128.ShapeCasts S1x1x128
  broadcasts_S1x1x128_S8x128x128 : S1x1x128.Broadcasts S8x128x128
  shapeCasts_S8x128_S8x128x1 : S8x128.ShapeCasts S8x128x1
  broadcasts_S8x128x1_S8x128x128 : S8x128x1.Broadcasts S8x128x128
  packedbf16_S8x128x128_S8x128x128_0_0_0 : (Rect.unit (s := S8x128x128) ![0, 0, 0] S8x128x128.size inb_S8x128x128_S8x128x128_0_0_0).PackedRows (EltTy.packing .bf16)
  inb_S8x256x128_S8x256x128_0_0_0 : ∀ a, (![0, 0, 0] : Fin 3 → Nat) a + S8x256x128.size a ≤ S8x256x128.size a
  h_S8x256x128 : 0 < S8x256x128.numel
  shapeCasts_S8x256x128_S8x256x128 : S8x256x128.ShapeCasts S8x256x128
  inb_S8x256x1024_S8x256x1024_0_0_0 : ∀ a, (![0, 0, 0] : Fin 3 → Nat) a + S8x256x1024.size a ≤ S8x256x1024.size a
  h_S8x256x1024 : 0 < S8x256x1024.numel
  h_S8x1024x128 : 0 < S8x1024x128.numel
  shapeCasts_S8x1024x128_S8x1024x128 : S8x1024x128.ShapeCasts S8x1024x128
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x256x1 : S8x256.ShapeCasts S8x256x1
  broadcasts_S8x256x1_S8x256x128 : S8x256x1.Broadcasts S8x256x128
  reduces_S8x256x128_S8x256 : S8x256x128.Reduces [2] S8x256
  dot_S1024x128_S128x128_S1024x128_1_1_0_0_n_n_wf : DotDims.WF S1024x128 S128x128 S1024x128 [1] [1] [0] [0] [] []
  dot_S8x256x1024_S8x1024x128_S8x256x128_2_1_1_2_0_0_wf : DotDims.WF S8x256x1024 S8x1024x128 S8x256x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S8x4096x4096.size a
  hwx0_0 : ∀ i : grid0.Coords, EltTy.bits .f32 = 32 ∨ (Rect.block (s := S8x4096x4096) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S8x4096x128.size a
  hwx0_1 : ∀ i : grid0.Coords, EltTy.bits .f32 = 32 ∨ (Rect.block (s := S8x4096x128) S8x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x4096.size a
  hwx0_4 : ∀ i : grid0.Coords, EltTy.bits .f32 = 32 ∨ (Rect.block (s := S8x4096) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128x128.size a ≤ S8x4096x128.size a
  hwx0_5 : ∀ i : grid0.Coords, EltTy.bits .bf16 = 32 ∨ (Rect.block (s := S8x4096x128) S8x128x128.size (cc0_transform_5 i) (hinb0_5 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S8x1024x128.size a ≤ S8x4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1024.size a ≤ S8x4096x4096.size a
  hwx1_0 : ∀ i : grid1.Coords, EltTy.bits .f32 = 32 ∨ (Rect.block (s := S8x4096x4096) S8x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x4096x128.size a ≤ S8x4096x128.size a
  hwx1_1 : ∀ i : grid1.Coords, EltTy.bits .bf16 = 32 ∨ (Rect.block (s := S8x4096x128) S8x4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S8x4096.size a
  hwx1_2 : ∀ i : grid1.Coords, EltTy.bits .f32 = 32 ∨ (Rect.block (s := S8x4096) S8x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x128.size a ≤ S8x4096x128.size a
  hwx1_3 : ∀ i : grid1.Coords, EltTy.bits .f32 = 32 ∨ (Rect.block (s := S8x4096x128) S8x256x128.size (cc1_transform_3 i) (hinb1_3 i)).WholeWords (EltTy.packing .f32)

variable [Facts₀]

def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf
def dot_S8x256x1024_S8x1024x128_S8x256x128_2_1_1_2_0_0 : DotDims S8x256x1024 S8x1024x128 S8x256x128 where
  lhsContracting := [2]
  rhsContracting := [1]
  lhsNonContracting := [1]
  rhsNonContracting := [2]
  lhsBatch := [0]
  rhsBatch := [0]
  wf := dot_S8x256x1024_S8x1024x128_S8x256x128_2_1_1_2_0_0_wf

abbrev win0_0 : Pipeline.Window sig grid0 :=
  Pipeline.Window.ofSpec (Memref.whole main_arg1) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S8x128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg1) S8x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8x4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S8x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S8x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S8x4096x4096 : Shape := ⟨3, ![8, 4096, 4096]⟩
abbrev S128x128 : Shape := ⟨2, ![128, 128]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S1x1x128 : Shape := ⟨3, ![1, 1, 128]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x4096, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S8x4096, .f32⟩
  | .hbm, ⟨6, _⟩ => ⟨S_, .f32⟩
  | .hbm, ⟨7, _⟩ => ⟨S8x4096, .f32⟩
  | .hbm, ⟨8, _⟩ => ⟨S8x4096, .i1⟩
  | .hbm, ⟨9, _⟩ => ⟨S8x4096, .f32⟩
  | .hbm, ⟨10, _⟩ => ⟨S_, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S8x4096x1, .f32⟩
  | .hbm, ⟨15, _⟩ => ⟨S8x4096x4096, .f32⟩
  | .hbm, ⟨16, _⟩ => ⟨S8x4096x4096, .f32⟩
  | .hbm, ⟨17, _⟩ => ⟨S8x1x4096, .f32⟩
  | .hbm, ⟨18, _⟩ => ⟨S8x4096x4096, .f32⟩
  | .hbm, ⟨19, _⟩ => ⟨S8x4096x4096, .f32⟩
  | .hbm, ⟨20, _⟩ => ⟨S8x4096x128, .f32⟩
  | .hbm, ⟨21, _⟩ => ⟨S1x1x128, .f32⟩
  | .hbm, ⟨22, _⟩ => ⟨S8x4096x128, .f32⟩
  | .hbm, ⟨23, _⟩ => ⟨S8x4096x128, .f32⟩
  | .hbm, ⟨24, _⟩ => ⟨S_, .f32⟩
  | .hbm, ⟨25, _⟩ => ⟨S8x4096x128, .f32⟩
  | .hbm, ⟨26, _⟩ => ⟨S8x4096x128, .i1⟩
  | .hbm, ⟨27, _⟩ => ⟨S_, .f32⟩
  | .hbm, ⟨28, _⟩ => ⟨S8x4096x128, .f32⟩
  | .hbm, ⟨29, _⟩ => ⟨S8x4096x128, .f32⟩
  | .hbm, ⟨30, _⟩ => ⟨S8x4096x128, .f32⟩
  | .hbm, ⟨31, _⟩ => ⟨S8x4096x128, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x128, .f32⟩
  | .hbm, ⟨39, _⟩ => ⟨S8x4096x128, .f32⟩
  | .hbm, ⟨40, _⟩ => ⟨S8x4096x128, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x128, .f32⟩
  | .hbm, ⟨48, _⟩ => ⟨S8x4096x128, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x128, .f32⟩
  | .hbm, ⟨54, _⟩ => ⟨S8x4096x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  bcast_S128_S1x1x128_2 : S128.BroadcastsInDim S1x1x128 (![2] : Fin 1 → Fin S1x1x128.rank)
  bcast_S1x1x128_S8x4096x128_0_1_2 : S1x1x128.BroadcastsInDim S8x4096x128 (![0, 1, 2] : Fin 3 → Fin S8x4096x128.rank)
  bcast_S_S8x4096x128 : S_.BroadcastsInDim S8x4096x128 (![] : Fin 0 → Fin S8x4096x128.rank)
  reducesTo_S8x4096x128_S8x4096_d2 : S8x4096x128.ReducesTo [2] S8x4096
  bcast_S_S8x4096x1 : S_.BroadcastsInDim S8x4096x1 (![] : Fin 0 → Fin S8x4096x1.rank)
  bcast_S8x4096x1_S8x4096x128_0_1_2 : S8x4096x1.BroadcastsInDim S8x4096x128 (![0, 1, 2] : Fin 3 → Fin S8x4096x128.rank)
  dot_S8x4096x128_S128x128_S8x4096x128_2_1_01_0_n_n_wf : DotDims.WF S8x4096x128 S128x128 S8x4096x128 [2] [1] [0, 1] [0] [] []
  dot_S8x4096x4096_S8x4096x128_S8x4096x128_2_1_1_2_0_0_wf : DotDims.WF S8x4096x4096 S8x4096x128 S8x4096x128 [2] [1] [1] [2] [0] [0]

variable [Facts₀]

def dot_S8x4096x128_S128x128_S8x4096x128_2_1_01_0_n_n : DotDims S8x4096x128 S128x128 S8x4096x128 where
  lhsContracting := [2]
  rhsContracting := [1]
  lhsNonContracting := [0, 1]
  rhsNonContracting := [0]
  lhsBatch := []
  rhsBatch := []
  wf := dot_S8x4096x128_S128x128_S8x4096x128_2_1_01_0_n_n_wf
def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf

class Facts : Prop extends Facts₀ where

variable [Facts]
-- ==== Proof.KR0Base.lean ====
/-
  The first call (degree sums, inverse square roots, the scaled linear layer) on its grid of 32 row tiles by 4 column
  steps, seen from a parametric valuation `V` of the buffers at its entry: each window's block at a point, the fact
  that an input's staging buffer holds that block at every point whether or not it is fetched there, the two branch
  conditions of the body as arithmetic on the point's number (the column step is the number modulo 4: the accumulator
  is reset at step 0 and the two outputs are stored at step 3 only), where the two outputs are idle, and the memrefs
  the body is called with. The accumulator is a scratch buffer the body carries from one point to the next.
-/
import proofs.«177266_j89043261980850_2_alg».proof.Proof.Gen.Kernel.Launch
import proofs.«177266_j89043261980850_2_alg».proof.Proof.Gen.Kernel.Skeleton
import proofs.«177266_j89043261980850_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, fetched there or not (where it is not fetched
    the block's index has not moved), for any proof data over `V`'s arrays whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional (reset the accumulator): the column step is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (finish the tile): the column step is the last, 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last column step the two outputs are idle and not written back; at it they are live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

/-- One staging buffer of each output window, through which its contents are stated. -/
abbrev VO0_4 : View sig .tc .vmem S8x128 .f32 := (Memref.whole cc0_stg4_0 : Memref sig .tc .vmem S8x128 .f32).view
abbrev VO0_5 : View sig .tc .vmem S8x128x128 .bf16 := (Memref.whole cc0_stg5_0 : Memref sig .tc .vmem S8x128x128 .bf16).view
abbrev ms0_0 (t : Fin cfg0.N) : Memref sig .tc .vmem S8x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128x128 .bf16 := win0_5.stage (cfg0.slots t 5)
abbrev hs0_5 (t : Fin cfg0.N) : (ms0_5 t).IsWhole := hstage0_5 ((cfg0.slots t 5).cast nbuf0_5)
/-- The accumulator: a whole scoped buffer of the kernel's own, carried between points. -/
abbrev scM0_0 : Memref sig .tc .vmem S8x128 .f32 := Memref.whole cc0_scratch0
abbrev VS0_0 : View sig .tc .vmem S8x128 .f32 := scM0_0.view

/-- The invariant that forgets the accumulator's contents, with the accumulator split off the other scoped buffers. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

end Cert.Kernel.Hand

end
-- ==== Proof.KR0RunA.lean ====
/-
  The first call's body at a point of column step 0, run whole: the accumulator, found at anything, is reset to zero and
  the row sums of the point's block of the adjacency are added to it; the two outputs are not touched. What the run
  leaves in the accumulator is recorded as the list of its stores (the witness the symbolic run finds).
-/
import proofs.«177266_j89043261980850_2_alg».proof.Proof.KR0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
noncomputable def kernelRun0_A (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : cond0_0 i) (hc1 : ¬cond0_1 i)
    (x0 : Vec F S8x128x1024 .f32) (x1 : Vec F S8x128x128 .f32) (x2 : Vec F S128x128 .f32) (x3 : Vec F S128 .f32) :
    { LS0 : List (View.Piece (Elt F) S8x128 .f32) //
      ∀ (xi4 : Vec F S8x128 .f32) (xi5 : Vec F S8x128x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__fused_degree_linear_kernel i arg2 harg2 arg3 harg3 arg4 harg4 arg5 harg5 arg6 harg6 arg7 harg7 arg8 harg8) K } := by
  refine ⟨?_, fun xi4 xi5 E K => ?run⟩
  case run =>
    simp only [cc0__fused_degree_linear_kernel_eq_skeleton]; unfold cc0__fused_degree_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KR0RunB.lean ====
/-
  The first call's body at a point of column step 1 or 2, run whole: the accumulator, found at what the point before
  left, gains the row sums of the point's block of the adjacency; the two outputs are not touched.
-/
import proofs.«177266_j89043261980850_2_alg».proof.Proof.KR0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
noncomputable def kernelRun0_B (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : ¬cond0_1 i)
    (x0 : Vec F S8x128x1024 .f32) (x1 : Vec F S8x128x128 .f32) (x2 : Vec F S128x128 .f32) (x3 : Vec F S128 .f32) (xs0 : Vec F S8x128 .f32) :
    { LS0 : List (View.Piece (Elt F) S8x128 .f32) //
      ∀ (xi4 : Vec F S8x128 .f32) (xi5 : Vec F S8x128x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__fused_degree_linear_kernel i arg2 harg2 arg3 harg3 arg4 harg4 arg5 harg5 arg6 harg6 arg7 harg7 arg8 harg8) K } := by
  refine ⟨?_, fun xi4 xi5 E K => ?run⟩
  case run =>
    simp only [cc0__fused_degree_linear_kernel_eq_skeleton]; unfold cc0__fused_degree_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KR0RunC.lean ====
/-
  The first call's body at a point of the last column step, run whole: the accumulator, found at what the point before
  left, gains the last block's row sums; from the finished degrees the inverse square roots are stored into the first
  output and the scaled, rectified linear layer of the tile's features into the second. What the run leaves in the two
  outputs and in the accumulator is recorded as the lists of its stores.
-/
import proofs.«177266_j89043261980850_2_alg».proof.Proof.KR0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
noncomputable def kernelRun0_C (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i)
    (x0 : Vec F S8x128x1024 .f32) (x1 : Vec F S8x128x128 .f32) (x2 : Vec F S128x128 .f32) (x3 : Vec F S128 .f32) (xs0 : Vec F S8x128 .f32) :
    Σ' (L4 : List (View.Piece (Elt F) S8x128 .f32)) (L5 : List (View.Piece (Elt F) S8x128x128 .bf16)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__fused_degree_linear_kernel i arg2 harg2 arg3 harg3 arg4 harg4 arg5 harg5 arg6 harg6 arg7 harg7 arg8 harg8) K } := by
  refine ⟨?_, ?_, ?_, fun E K => ?run⟩
  case run =>
    simp only [cc0__fused_degree_linear_kernel_eq_skeleton]; unfold cc0__fused_degree_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Hand

end
-- ==== Proof.KR0Frame.lean ====
/-
  The first call's proof data. What each of the three kinds of point leaves in the accumulator and in the two outputs is read
  back from the stores its run found; `outsAt0` follows the accumulator point by point (a point of column step 0
  starts afresh, every other point continues from what the point before left); the invariant between points holds the
  accumulator at exactly that content, so that the body at the next point can be run from it; the body's obligation at
  every point is then the run of its kind of point. Before the first point and after the last the invariant is the one
  that forgets the accumulator.
-/
import proofs.«177266_j89043261980850_2_alg».proof.Proof.KR0RunA
import proofs.«177266_j89043261980850_2_alg».proof.Proof.KR0RunB
import proofs.«177266_j89043261980850_2_alg».proof.Proof.KR0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each kind of point leaves -/

/-- The accumulator's stores cover it, in each kind of point. -/
theorem scover0_A (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : cond0_0 i) (hc1 : ¬cond0_1 i) (x0 : Vec F S8x128x1024 .f32) (x1 : Vec F S8x128x128 .f32) (x2 : Vec F S128x128 .f32) (x3 : Vec F S128 .f32) (y : S8x128.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S8x128.size (by sl_kernel_rfl) y
theorem scover0_B (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : ¬cond0_1 i) (x0 : Vec F S8x128x1024 .f32) (x1 : Vec F S8x128x128 .f32) (x2 : Vec F S128x128 .f32) (x3 : Vec F S128 .f32) (xs0 : Vec F S8x128 .f32) (y : S8x128.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  View.cover_of_tiledL (kernelRun0_B c i arg2 harg2 arg3 harg3 arg4 harg4 arg5 harg5 arg6 harg6 arg7 harg7 arg8 harg8 hc0 hc1 x0 x1 x2 x3 xs0).1 S8x128.size (by sl_kernel_rfl) y
theorem scover0_C (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) (y : S8x128.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg2 harg2 arg3 harg3 arg4 harg4 arg5 harg5 arg6 harg6 arg7 harg7 arg8 harg8 hc0 hc1 x0 x1 x2 x3 xs0).2.2.1 S8x128.size (by sl_kernel_rfl) y
/-- At the last column step the stores into output window 4 cover its block. -/
theorem cover0_C_4 (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) (y : S8x128.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  View.cover_of_tiledL (kernelRun0_C c i arg2 harg2 arg3 harg3 arg4 harg4 arg5 harg5 arg6 harg6 arg7 harg7 arg8 harg8 hc0 hc1 x0 x1 x2 x3 xs0).1 S8x128.size (by sl_kernel_rfl) y
/-- At the last column step the stores into output window 5 cover its block. -/
theorem cover0_C_5 (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) (y : S8x128x128.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  View.cover_of_tiledL (kernelRun0_C c i arg2 harg2 arg3 harg3 arg4 harg4 arg5 harg5 arg6 harg6 arg7 harg7 arg8 harg8 hc0 hc1 x0 x1 x2 x3 xs0).2.1 S8x128x128.size (by sl_kernel_rfl) y

/-- What each kind of point leaves in the accumulator: its stores read back. -/
def sout0_A (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : cond0_0 i) (hc1 : ¬cond0_1 i) (x0 : Vec F S8x128x1024 .f32) (x1 : Vec F S8x128x128 .f32) (x2 : Vec F S128x128 .f32) (x3 : Vec F S128 .f32) : Vec F S8x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)
def sout0_B (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : ¬cond0_1 i) (x0 : Vec F S8x128x1024 .f32) (x1 : Vec F S8x128x128 .f32) (x2 : Vec F S128x128 .f32) (x3 : Vec F S128 .f32) (xs0 : Vec F S8x128 .f32) : Vec F S8x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0).1)
def sout0_C (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) : Vec F S8x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0).2.2.1)
/-- What a point of the last column step leaves in output window 4's staging buffer: its stores read back. -/
def out0_C_4 (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) : Vec F S8x128 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0).1)
/-- Off the last column step output window 4 is idle: a placeholder nothing consults. -/
def idle0_4 : Vec F S8x128 .f32 := VO0_4.read (Elt F) VO0_4.junk
/-- What a point of the last column step leaves in output window 5's staging buffer: its stores read back. -/
def out0_C_5 (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) : Vec F S8x128x128 .bf16 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 xs0).2.1)
/-- Off the last column step output window 5 is idle: a placeholder nothing consults. -/
def idle0_5 : Vec F S8x128x128 .bf16 := VO0_5.read (Elt F) VO0_5.junk

/-! ## The accumulation, point by point -/

/-- What the output windows' staging buffers and the accumulator hold after the body at position `n` (the outputs in window
    order, then the accumulator). -/
def outsAt0 (c : Dev nD) : (n : ℕ) → n < cfg0.N → Vec F S8x128 .f32 × Vec F S8x128x128 .bf16 × Vec F S8x128 .f32
  | 0, hn => (idle0_4, idle0_5, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      (idle0_4, idle0_5, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)
      else
        (idle0_4, idle0_5, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)

/-- At a point of column step 0: afresh. -/
theorem outsAt0_A (c : Dev nD) (t : Fin cfg0.N) (h0 : t.val % 4 = 0) (h1 : ¬t.val % 4 = 3) :
    outsAt0 V c t.val t.isLt = (idle0_4, idle0_5, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans rfl

/-- At a point of column step 1 or 2: over what the point before left. -/
theorem outsAt0_B (c : Dev nD) (t : Fin cfg0.N) (h0 : ¬t.val % 4 = 0) (h1 : ¬t.val % 4 = 3) :
    outsAt0 V c t.val t.isLt = (idle0_4, idle0_5, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

/-- At a point of the last column step: over what the point before left. -/
theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant between points -/

/-- Before position `n`: before the first point the accumulator is at anything; afterwards it is at what the point before
    left in it. The other scoped buffers and the generator register ride along untouched. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

/-! ## The proof data -/

/-- The arrays as the call finds them; after the body at a point each input's buffer at its block and each output's at
    `outsAt0`'s component; the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at a point of column step 0. -/
theorem sound_body0_A (c : Dev nD) (t : Fin cfg0.N) (h0 : t.val % 4 = 0) (h1 : ¬t.val % 4 = 3) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [Dat.leavesExact_idle (dat0 V c) 4 t (idleAt0_4 t (fun h => h1 ((hcond0_1 t).mp h))) (noFlush0_4 t (fun h => h1 ((hcond0_1 t).mp h)))]
  rw [Dat.leavesExact_idle (dat0 V c) 5 t (idleAt0_5 t (fun h => h1 ((hcond0_1 t).mp h))) (noFlush0_5 t (fun h => h1 ((hcond0_1 t).mp h)))]
  rw [outsAt0_A V c t h0 h1]
  unfold sout0_A; (try dsimp only)
  by_cases hz : t.val = 0
  · rw [PhiS0_castSucc V c t, PhiS0_zero V c _ _ hz, PhiA0_eq]
    iintro ⟨⟨⟨HS0, HR0, HR1, HR2, HR3, HR4, HR5, HR6, HR7⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 HR0 HR1 HR2 HR3 HR4 HR5 HR6 HR7 Hg]
    · isplitl [HS0 HR0 HR1 HR2 HR3 HR4 HR5 HR6 HR7]
      · isplitl [HS0]
        · unfold owns; iexists _; isplitr
          swap; · iexact HS0
          ipureintro; exact View.read_writes_of_cover _ _ _ _ _ (scover0_A c _ _ _ _ _ _ _ _ _ _ _ _ _ _ _ _ _ _ _ _ _)
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        iexact HR7
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS0_castSucc V c t, PhiS0_pos V c _ _ hz]
    iintro ⟨⟨⟨HS0, HR0, HR1, HR2, HR3, HR4, HR5, HR6, HR7⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    iintro ⟨H0, H1, H2, H3, H4, H5, ⟨%es0, HS0⟩⟩
    isplitl [HS0 HR0 HR1 HR2 HR3 HR4 HR5 HR6 HR7 Hg]
    · isplitl [HS0 HR0 HR1 HR2 HR3 HR4 HR5 HR6 HR7]
      · isplitl [HS0]
        · unfold owns; iexists _; isplitr
          swap; · iexact HS0
          ipureintro; exact View.read_writes_of_cover _ _ _ _ _ (scover0_A c _ _ _ _ _ _ _ _ _ _ _ _ _ _ _ _ _ _ _ _ _)
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        iexact HR7
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 4800000 in
/-- The body at a point of column step 1 or 2. -/
theorem sound_body0_B (c : Dev nD) (t : Fin cfg0.N) (h0 : ¬t.val % 4 = 0) (h1 : ¬t.val % 4 = 3) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [Dat.leavesExact_idle (dat0 V c) 4 t (idleAt0_4 t (fun h => h1 ((hcond0_1 t).mp h))) (noFlush0_4 t (fun h => h1 ((hcond0_1 t).mp h)))]
  rw [Dat.leavesExact_idle (dat0 V c) 5 t (idleAt0_5 t (fun h => h1 ((hcond0_1 t).mp h))) (noFlush0_5 t (fun h => h1 ((hcond0_1 t).mp h)))]
  rw [outsAt0_B V c t h0 h1]
  unfold sout0_B; (try dsimp only)
  have hz : t.val ≠ 0 := fun e => h0 (by rw [e])
  · rw [PhiS0_castSucc V c t, PhiS0_pos V c _ _ hz]
    iintro ⟨⟨⟨HS0, HR0, HR1, HR2, HR3, HR4, HR5, HR6, HR7⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 HR0 HR1 HR2 HR3 HR4 HR5 HR6 HR7 Hg]
    · isplitl [HS0 HR0 HR1 HR2 HR3 HR4 HR5 HR6 HR7]
      · isplitl [HS0]
        · unfold owns; iexists _; isplitr
          swap; · iexact HS0
          ipureintro; exact View.read_writes_of_cover _ _ _ _ _ (scover0_B c _ _ _ _ _ _ _ _ _ _ _ _ _ _ _ _ _ _ _ _ _ _)
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        iexact HR7
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 4800000 in
/-- The body at a point of the last column step. -/
theorem sound_body0_C (c : Dev nD) (t : Fin cfg0.N) (h0 : ¬t.val % 4 = 0) (h1 : t.val % 4 = 3) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t ((hcond0_1 t).mpr h1)], after0_4]
  rw [show (dat0 V c).leavesExact 5 t = owns (c : Thread nD τ) (ms0_5 t) fullShare ((dat0 V c).after 5 t) from by
    unfold Dat.leavesExact; rw [liveAt0_5 t ((hcond0_1 t).mpr h1)], after0_5]
  rw [outsAt0_C V c t h0 h1]
  unfold out0_C_4 out0_C_5 sout0_C; (try dsimp only)
  have hz : t.val ≠ 0 := fun e => h0 (by rw [e])
  · rw [PhiS0_castSucc V c t, PhiS0_pos V c _ _ hz]
    iintro ⟨⟨⟨HS0, HR0, HR1, HR2, HR3, HR4, HR5, HR6, HR7⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) _).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, ⟨%es0, HS0⟩⟩
    isplitl [HS0 HR0 HR1 HR2 HR3 HR4 HR5 HR6 HR7 Hg]
    · isplitl [HS0 HR0 HR1 HR2 HR3 HR4 HR5 HR6 HR7]
      · isplitl [HS0]
        · unfold owns; iexists _; isplitr
          swap; · iexact HS0
          ipureintro; exact View.read_writes_of_cover _ _ _ _ _ (scover0_C c _ _ _ _ _ _ _ _ _ _ _ _ _ _ _ _ _ _ _ _ _ _)
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        iexact HR7
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_C_4 c _ _ _ _ _ _ _ _ _ _ _ _ _ _ _ _ _ _ _ _ _ _)
    unfold owns; iexists _; isplitr
    swap; · iexact H5
    ipureintro; exact View.read_writes_of_cover _ _ _ _ _ (cover0_C_5 c _ _ _ _ _ _ _ _ _ _ _ _ _ _ _ _ _ _ _ _ _ _)

/-- The body at any point: its column step decides which run applies. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 4 = 0
  · exact sound_body0_A V c t h0 (by omega)
  · by_cases h1 : t.val % 4 = 3
    · exact sound_body0_C V c t h0 h1
    · exact sound_body0_B V c t h0 h1

/-- The body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the one that forgets the accumulator. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives that one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR0, HR1, HR2, HR3, HR4, HR5, HR6, HR7⟩, Hg⟩
  isplitl [HS0 HR0 HR1 HR2 HR3 HR4 HR5 HR6 HR7]
  · isplitl [HS0]; · iexists _; iexact HS0
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  iexact Hg

theorem hout0 (c : Dev nD) : (dat0 V c).Φ (Fin.last cfg0.N) ⊢ Pipeline.ΦA spec0 c :=
  Phi_out0 V c _ (by rw [Fin.val_last]; have : cfg0.N = 128 := N_0; omega)

end Cert.Kernel.Hand

end
-- ==== Proof.KR1Base.lean ====
/-
  The second call (the product of the adjacency with the scaled features, accumulated over 4 column steps, then the row
  scale and the layer normalisation) on its grid of 16 row tiles by 4 column steps, seen from a parametric valuation
  `V` of the buffers at its entry: each window's block at a point, that an input's staging buffer holds that block at
  every point, the two branch conditions as arithmetic on the point's number (the accumulator is reset at column step 0;
  the output is stored at step 3 only), where the output is idle, and the memrefs the body is called with.
-/
import proofs.«177266_j89043261980850_2_alg».proof.Proof.Gen.Kernel.Launch
import proofs.«177266_j89043261980850_2_alg».proof.Proof.Gen.Kernel.Skeleton
import proofs.«177266_j89043261980850_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional (reset the accumulator): the column step is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (finish the tile): the column step is the last, 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last column step the output is idle and not written back; at it, it is live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S8x256x128 .f32 := (Memref.whole cc1_stg3_0 : Memref sig .tc .vmem S8x256x128 .f32).view
abbrev ms1_0 (t : Fin cfg1.N) : Memref sig .tc .vmem S8x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x256x128 .f32 := win1_3.stage (cfg1.slots t 3)
abbrev hs1_3 (t : Fin cfg1.N) : (ms1_3 t).IsWhole := hstage1_3 ((cfg1.slots t 3).cast nbuf1_3)
/-- The accumulator: a whole scoped buffer of the kernel's own, carried between points. -/
abbrev scM1_0 : Memref sig .tc .vmem S8x256x128 .f32 := Memref.whole cc1_scratch0
abbrev VS1_0 : View sig .tc .vmem S8x256x128 .f32 := scM1_0.view

/-- The invariant that forgets the accumulator's contents, with the accumulator split off the other scoped buffers. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KR1RunA.lean ====
/-
  The second call's body at a point of column step 0, run whole: the accumulator, found at anything, is reset to zero and
  the product of the point's block of the adjacency with the matching 1024 rows of the scaled features is added to it;
  the output is not touched. What the run leaves in the accumulator is recorded as the list of its stores.
-/
import proofs.«177266_j89043261980850_2_alg».proof.Proof.KR1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
noncomputable def kernelRun1_A (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : cond1_0 i) (hc1 : ¬cond1_1 i)
    (x0 : Vec F S8x256x1024 .f32) (x1 : Vec F S8x4096x128 .bf16) (x2 : Vec F S8x256 .f32) :
    { LS0 : List (View.Piece (Elt F) S8x256x128 .f32) //
      ∀ (xi3 : Vec F S8x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__bmm_ln_kernel i arg2 harg2 arg3 harg3 arg4 harg4 arg5 harg5 arg6 harg6) K } := by
  refine ⟨?_, fun xi3 E K => ?run⟩
  case run =>
    simp only [cc1__bmm_ln_kernel_eq_skeleton]; unfold cc1__bmm_ln_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KR1RunB.lean ====
/-
  The second call's body at a point of column step 1 or 2, run whole: the accumulator, found at what the point before
  left, gains the product of the point's block of the adjacency with the matching rows of the scaled features; the
  output is not touched.
-/
import proofs.«177266_j89043261980850_2_alg».proof.Proof.KR1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
noncomputable def kernelRun1_B (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : ¬cond1_1 i)
    (x0 : Vec F S8x256x1024 .f32) (x1 : Vec F S8x4096x128 .bf16) (x2 : Vec F S8x256 .f32) (xs0 : Vec F S8x256x128 .f32) :
    { LS0 : List (View.Piece (Elt F) S8x256x128 .f32) //
      ∀ (xi3 : Vec F S8x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__bmm_ln_kernel i arg2 harg2 arg3 harg3 arg4 harg4 arg5 harg5 arg6 harg6) K } := by
  refine ⟨?_, fun xi3 E K => ?run⟩
  case run =>
    simp only [cc1__bmm_ln_kernel_eq_skeleton]; unfold cc1__bmm_ln_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KR1RunC.lean ====
/-
  The second call's body at a point of the last column step, run whole: the accumulator, found at what the point before
  left, gains the last partial product; the finished sums are scaled row by row, normalised along the feature axis and
  stored into the output. What the run leaves in the output and in the accumulator is recorded as the lists of its stores.
-/
import proofs.«177266_j89043261980850_2_alg».proof.Proof.KR1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
noncomputable def kernelRun1_C (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : cond1_1 i)
    (x0 : Vec F S8x256x1024 .f32) (x1 : Vec F S8x4096x128 .bf16) (x2 : Vec F S8x256 .f32) (xs0 : Vec F S8x256x128 .f32) :
    Σ' (L3 : List (View.Piece (Elt F) S8x256x128 .f32)), { LS0 : List (View.Piece (Elt F) S8x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__bmm_ln_kernel i arg2 harg2 arg3 harg3 arg4 harg4 arg5 harg5 arg6 harg6) K } := by
  refine ⟨?_, ?_, fun E K => ?run⟩
  case run =>
    simp only [cc1__bmm_ln_kernel_eq_skeleton]; unfold cc1__bmm_ln_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KR1Frame.lean ====
/-
  The second call's proof data. What each of the three kinds of point leaves in the accumulator and in the output is read
  back from the stores its run found; `outsAt1` follows the accumulator point by point (a point of column step 0
  starts afresh, every other point continues from what the point before left); the invariant between points holds the
  accumulator at exactly that content, so that the body at the next point can be run from it; the body's obligation at
  every point is then the run of its kind of point. Before the first point and after the last the invariant is the one
  that forgets the accumulator.
-/
import proofs.«177266_j89043261980850_2_alg».proof.Proof.KR1RunA
import proofs.«177266_j89043261980850_2_alg».proof.Proof.KR1RunB
import proofs.«177266_j89043261980850_2_alg».proof.Proof.KR1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each kind of point leaves -/

/-- The accumulator's stores cover it, in each kind of point. -/
theorem scover1_A (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : cond1_0 i) (hc1 : ¬cond1_1 i) (x0 : Vec F S8x256x1024 .f32) (x1 : Vec F S8x4096x128 .bf16) (x2 : Vec F S8x256 .f32) (y : S8x256x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S8x256x128.size (by sl_kernel_rfl) y
theorem scover1_B (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : ¬cond1_1 i) (x0 : Vec F S8x256x1024 .f32) (x1 : Vec F S8x4096x128 .bf16) (x2 : Vec F S8x256 .f32) (xs0 : Vec F S8x256x128 .f32) (y : S8x256x128.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S8x256x128.size (by sl_kernel_rfl) y
theorem scover1_C (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : cond1_1 i) (x0 : Vec F S8x256x1024 .f32) (x1 : Vec F S8x4096x128 .bf16) (x2 : Vec F S8x256 .f32) (xs0 : Vec F S8x256x128 .f32) (y : S8x256x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S8x256x128.size (by sl_kernel_rfl) y
/-- At the last column step the stores into output window 3 cover its block. -/
theorem cover1_C_3 (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : cond1_1 i) (x0 : Vec F S8x256x1024 .f32) (x1 : Vec F S8x4096x128 .bf16) (x2 : Vec F S8x256 .f32) (xs0 : Vec F S8x256x128 .f32) (y : S8x256x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S8x256x128.size (by sl_kernel_rfl) y

/-- What each kind of point leaves in the accumulator: its stores read back. -/
def sout1_A (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : cond1_0 i) (hc1 : ¬cond1_1 i) (x0 : Vec F S8x256x1024 .f32) (x1 : Vec F S8x4096x128 .bf16) (x2 : Vec F S8x256 .f32) : Vec F S8x256x128 .f32 :=
  VS1_0.read (Elt F) (VS1_0.writes (Elt F) VS1_0.junk (kernelRun1_A c i arg2 harg2 arg3 harg3 arg4 harg4 arg5 harg5 arg6 harg6 hc0 hc1 x0 x1 x2).1)
def sout1_B (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : ¬cond1_1 i) (x0 : Vec F S8x256x1024 .f32) (x1 : Vec F S8x4096x128 .bf16) (x2 : Vec F S8x256 .f32) (xs0 : Vec F S8x256x128 .f32) : Vec F S8x256x128 .f32 :=
  VS1_0.read (Elt F) (VS1_0.writes (Elt F) VS1_0.junk (kernelRun1_B c i arg2 harg2 arg3 harg3 arg4 harg4 arg5 harg5 arg6 harg6 hc0 hc1 x0 x1 x2 xs0).1)
def sout1_C (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : cond1_1 i) (x0 : Vec F S8x256x1024 .f32) (x1 : Vec F S8x4096x128 .bf16) (x2 : Vec F S8x256 .f32) (xs0 : Vec F S8x256x128 .f32) : Vec F S8x256x128 .f32 :=
  VS1_0.read (Elt F) (VS1_0.writes (Elt F) VS1_0.junk (kernelRun1_C c i arg2 harg2 arg3 harg3 arg4 harg4 arg5 harg5 arg6 harg6 hc0 hc1 x0 x1 x2 xs0).2.1)
/-- What a point of the last column step leaves in output window 3's staging buffer: its stores read back. -/
def out1_C_3 (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : cond1_1 i) (x0 : Vec F S8x256x1024 .f32) (x1 : Vec F S8x4096x128 .bf16) (x2 : Vec F S8x256 .f32) (xs0 : Vec F S8x256x128 .f32) : Vec F S8x256x128 .f32 :=
  VO1_3.read (Elt F) (VO1_3.writes (Elt F) VO1_3.junk (kernelRun1_C c i arg2 harg2 arg3 harg3 arg4 harg4 arg5 harg5 arg6 harg6 hc0 hc1 x0 x1 x2 xs0).1)
/-- Off the last column step output window 3 is idle: a placeholder nothing consults. -/
def idle1_3 : Vec F S8x256x128 .f32 := VO1_3.read (Elt F) VO1_3.junk

/-! ## The accumulation, point by point -/

/-- What the output windows' staging buffers and the accumulator hold after the body at position `n` (the outputs in window
    order, then the accumulator). -/
def outsAt1 (c : Dev nD) : (n : ℕ) → n < cfg1.N → Vec F S8x256x128 .f32 × Vec F S8x256x128 .f32
  | 0, hn => (idle1_3, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      (idle1_3, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idle1_3, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point of column step 0: afresh. -/
theorem outsAt1_A (c : Dev nD) (t : Fin cfg1.N) (h0 : t.val % 4 = 0) (h1 : ¬t.val % 4 = 3) :
    outsAt1 V c t.val t.isLt = (idle1_3, sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At a point of column step 1 or 2: over what the point before left. -/
theorem outsAt1_B (c : Dev nD) (t : Fin cfg1.N) (h0 : ¬t.val % 4 = 0) (h1 : ¬t.val % 4 = 3) :
    outsAt1 V c t.val t.isLt = (idle1_3, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point of the last column step: over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before position `n`: before the first point the accumulator is at anything; afterwards it is at what the point before
    left in it. The other scoped buffers and the generator register ride along untouched. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The arrays as the call finds them; after the body at a point each input's buffer at its block and each output's at
    `outsAt1`'s component; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at a point of column step 0. -/
theorem sound_body1_A (c : Dev nD) (t : Fin cfg1.N) (h0 : t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h1 ((hcond1_1 t).mp h))) (noFlush1_3 t (fun h => h1 ((hcond1_1 t).mp h)))]
  rw [outsAt1_A V c t h0 h1]
  unfold sout1_A; (try dsimp only)
  by_cases hz : t.val = 0
  · rw [PhiS1_castSucc V c t, PhiS1_zero V c _ _ hz, PhiA1_eq]
    iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 HR0 HR1 HR2 HR3 HR4 HR5 HR6 HR7 HR8 HR9 HR10 Hg]
    · isplitl [HS0 HR0 HR1 HR2 HR3 HR4 HR5 HR6 HR7 HR8 HR9 HR10]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        unfold owns; iexists _; isplitr
        swap; · iexact HS0
        ipureintro; exact View.read_writes_of_cover _ _ _ _ _ (scover1_A c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · rw [PhiS1_castSucc V c t, PhiS1_pos V c _ _ hz]
    iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
    isplitl [H0]; · iexact H0
    isplitl [H1]; · iexact H1
    isplitl [H2]; · iexact H2
    isplitl [H3]; · iexact H3
    isplitl [HS0]; · iexists _; iexact HS0
    iintro ⟨H0, H1, H2, H3, ⟨%es0, HS0⟩⟩
    isplitl [HS0 HR0 HR1 HR2 HR3 HR4 HR5 HR6 HR7 HR8 HR9 HR10 Hg]
    · isplitl [HS0 HR0 HR1 HR2 HR3 HR4 HR5 HR6 HR7 HR8 HR9 HR10]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        unfold owns; iexists _; isplitr
        swap; · iexact HS0
        ipureintro; exact View.read_writes_of_cover _ _ _ _ _ (scover1_A c _ _ _ _ _ _ _ _ _ _ _ _ _ _ _ _)
      iexact Hg
    isplitl [Ho]; · iexact Ho
    isplitl [H0]; · iexact H0
    isplitl [H1]; · iexact H1
    isplitl [H2]; · iexact H2
    iexists _; iexact H3

set_option maxHeartbeats 4800000 in
/-- The body at a point of column step 1 or 2. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h1 ((hcond1_1 t).mp h))) (noFlush1_3 t (fun h => h1 ((hcond1_1 t).mp h)))]
  rw [outsAt1_B V c t h0 h1]
  unfold sout1_B; (try dsimp only)
  have hz : t.val ≠ 0 := fun e => h0 (by rw [e])
  · rw [PhiS1_castSucc V c t, PhiS1_pos V c _ _ hz]
    iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 HR0 HR1 HR2 HR3 HR4 HR5 HR6 HR7 HR8 HR9 HR10 Hg]
    · isplitl [HS0 HR0 HR1 HR2 HR3 HR4 HR5 HR6 HR7 HR8 HR9 HR10]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        unfold owns; iexists _; isplitr
        swap; · iexact HS0
        ipureintro; exact View.read_writes_of_cover _ _ _ _ _ (scover1_B c _ _ _ _ _ _ _ _ _ _ _ _ _ _ _ _ _)
      iexact Hg
    isplitl [Ho]; · iexact Ho
    isplitl [H0]; · iexact H0
    isplitl [H1]; · iexact H1
    isplitl [H2]; · iexact H2
    iexists _; iexact H3

set_option maxHeartbeats 4800000 in
/-- The body at a point of the last column step. -/
theorem sound_body1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t ((hcond1_1 t).mpr h1)], after1_3]
  rw [outsAt1_C V c t h0 h1]
  unfold out1_C_3 sout1_C; (try dsimp only)
  have hz : t.val ≠ 0 := fun e => h0 (by rw [e])
  · rw [PhiS1_castSucc V c t, PhiS1_pos V c _ _ hz]
    iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩⟩
    iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR0 HR1 HR2 HR3 HR4 HR5 HR6 HR7 HR8 HR9 HR10 Hg]
    · isplitl [HS0 HR0 HR1 HR2 HR3 HR4 HR5 HR6 HR7 HR8 HR9 HR10]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        unfold owns; iexists _; isplitr
        swap; · iexact HS0
        ipureintro; exact View.read_writes_of_cover _ _ _ _ _ (scover1_C c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)

/-- The body at any point: its column step decides which run applies. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · exact sound_body1_A V c t h0 (by omega)
  · by_cases h1 : t.val % 4 = 3
    · exact sound_body1_C V c t h0 h1
    · exact sound_body1_B V c t h0 h1

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the one that forgets the accumulator. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HS0⟩, Hg⟩
  isplitl [HS0 HR0 HR1 HR2 HR3 HR4 HR5 HR6 HR7 HR8 HR9 HR10]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.KMain.lean ====
/-
  The whole program: two calls one after the other, no host operation around them. The unscoped buffers' contents are
  followed through the two boundaries — at launch; after the first call, whose two result arrays hold what its
  write-backs leave and every other buffer what it held; after the second call likewise — and the program's run is the
  two calls' runs chained. At the end each argument array reads back, through that fold, as it was launched (no call
  writes an argument), and the result array is the second call's output array after its last point.
-/
import proofs.«177266_j89043261980850_2_alg».proof.Proof.KR0Frame
import proofs.«177266_j89043261980850_2_alg».proof.Proof.KR1Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at the three boundaries -/

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first call: its arrays at what it leaves, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second call: its arrays at what it leaves, every other buffer as before. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched; the result is the second call's output array -/

/-- The adjacency is an input window of both calls. -/
theorem W1_main_arg1 (c : Dev nD) : W1 m ρ c (Proc.devRef .tc main_arg1) = m ((c : Thread nD τ).loc main_arg1) :=
  (W1_arr m ρ c 0).trans (((dat0 (V0 m ρ) c).arrAt_in 0 rfl _).trans (A_eq0 (V0 m ρ) c 0))
theorem W2_main_arg1 (c : Dev nD) : W2 m ρ c (Proc.devRef .tc main_arg1) = m ((c : Thread nD τ).loc main_arg1) :=
  ((W2_arr m ρ c 0).trans (((dat1 (V1 m ρ) c).arrAt_in 0 rfl _).trans (A_eq1 (V1 m ρ) c 0))).trans (W1_main_arg1 m ρ c)
/-- The features, the weights and the bias are input windows of the first call and bypass the second. -/
theorem W2_main_arg0 (c : Dev nD) : W2 m ρ c (Proc.devRef .tc main_arg0) = m ((c : Thread nD τ).loc main_arg0) :=
  (W2_of_ne m ρ c main_arg0 (by decide)).trans ((W1_arr m ρ c 1).trans (((dat0 (V0 m ρ) c).arrAt_in 1 rfl _).trans (A_eq0 (V0 m ρ) c 1)))
theorem W2_main_arg2 (c : Dev nD) : W2 m ρ c (Proc.devRef .tc main_arg2) = m ((c : Thread nD τ).loc main_arg2) :=
  (W2_of_ne m ρ c main_arg2 (by decide)).trans ((W1_arr m ρ c 2).trans (((dat0 (V0 m ρ) c).arrAt_in 2 rfl _).trans (A_eq0 (V0 m ρ) c 2)))
theorem W2_main_arg3 (c : Dev nD) : W2 m ρ c (Proc.devRef .tc main_arg3) = m ((c : Thread nD τ).loc main_arg3) :=
  (W2_of_ne m ρ c main_arg3 (by decide)).trans ((W1_arr m ρ c 3).trans (((dat0 (V0 m ρ) c).arrAt_in 3 rfl _).trans (A_eq0 (V0 m ρ) c 3)))
/-- The result array is the second call's output window's array. -/
theorem W2_main_v1 (c : Dev nD) : W2 m ρ c (Proc.devRef .tc main_v1) = (dat1 (V1 m ρ) c).arrAt 3 cfg1.N :=
  W2_arr m ρ c 3

/-! ## The proof data family and the thread state -/

abbrev admH : (p : Fin 2) → (pcfgs (F := F) p).Adm := fun p => (cfgs p).toPCfg_adm
/-- Both calls' proof data, each at its entry contents. -/
def pdats : (p : Fin 2) → (c : Dev nD) → Dat τ (Elt F) Unit ℕ (Pipeline.UD sig nD τ) ℕ (Pipeline.pin (pcfgs (F := F)) admH p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the core's generator register at some state and its dues, none. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The two calls as segments -/

set_option backward.isDefEq.respectTransparency.types false in
/-- The first call over the thread state: entered from every unscoped buffer at the contents before it, left at the contents
    after it. Its arrays are split out of the unscoped buffers and put back at their final contents; the generator register
    and the scoped buffers go into the invariant that forgets the accumulator and come back out of it; nothing is owed;
    the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at the contents before it, left at the contents
    after it. Its arrays are split out of the unscoped buffers and put back at their final contents; the generator register
    and the scoped buffers go into the invariant that forgets the accumulator and come back out of it; nothing is owed;
    the kernel has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1 m ρ) c)
    unfold Pipeline.ΦA
    iintro ⟨Hp, -, Hr⟩
    isplitl [Hr]; · iexact Hr
    iexact Hp
  hout c := by
    rw [Pipeline.ownSems0_none]
    refine BIBase.Entails.trans (hout1 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program's run -/

abbrev segs : List (Pipeline.Seg (pcfgs (F := F)) admH (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and the
    final state has the result array at the second call's final output array and the four argument arrays as launched. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) admH (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- The frame claim's statement, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.KIR0Base.lean ====
/-
  The first call (degree sums, inverse square roots, the scaled linear layer) on its grid of 32 row tiles by 4 column
  steps, seen from a parametric valuation `V` of the buffers at its entry: each window's block at a point, the fact
  that an input's staging buffer holds that block at every point whether or not it is fetched there, the two branch
  conditions of the body as arithmetic on the point's number (the column step is the number modulo 4: the accumulator
  is reset at step 0 and the two outputs are stored at step 3 only), where the two outputs are idle, and the memrefs
  the body is called with. The accumulator is a scratch buffer the body carries from one point to the next.
-/
import proofs.«177266_j89043261980850_2_alg».proof.Proof.Gen.KernelIdeal.Launch
import proofs.«177266_j89043261980850_2_alg».proof.Proof.Gen.KernelIdeal.Skeleton
import proofs.«177266_j89043261980850_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, fetched there or not (where it is not fetched
    the block's index has not moved), for any proof data over `V`'s arrays whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional (reset the accumulator): the column step is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (finish the tile): the column step is the last, 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last column step the two outputs are idle and not written back; at it they are live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

/-- One staging buffer of each output window, through which its contents are stated. -/
abbrev VO0_4 : View sig .tc .vmem S8x128 .f32 := (Memref.whole cc0_stg4_0 : Memref sig .tc .vmem S8x128 .f32).view
abbrev VO0_5 : View sig .tc .vmem S8x128x128 .bf16 := (Memref.whole cc0_stg5_0 : Memref sig .tc .vmem S8x128x128 .bf16).view
abbrev ms0_0 (t : Fin cfg0.N) : Memref sig .tc .vmem S8x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128x128 .bf16 := win0_5.stage (cfg0.slots t 5)
abbrev hs0_5 (t : Fin cfg0.N) : (ms0_5 t).IsWhole := hstage0_5 ((cfg0.slots t 5).cast nbuf0_5)
/-- The accumulator: a whole scoped buffer of the kernel's own, carried between points. -/
abbrev scM0_0 : Memref sig .tc .vmem S8x128 .f32 := Memref.whole cc0_scratch0
abbrev VS0_0 : View sig .tc .vmem S8x128 .f32 := scM0_0.view

/-- The invariant that forgets the accumulator's contents, with the accumulator split off the other scoped buffers. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

end Cert.KernelIdeal.Hand

end
-- ==== Proof.KIR0RunA.lean ====
/-
  The first call's body at a point of column step 0, run whole: the accumulator, found at anything, is reset to zero and
  the row sums of the point's block of the adjacency are added to it; the two outputs are not touched. What the run
  leaves in the accumulator is recorded as the list of its stores (the witness the symbolic run finds).
-/
import proofs.«177266_j89043261980850_2_alg».proof.Proof.KIR0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
noncomputable def kernelRun0_A (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : cond0_0 i) (hc1 : ¬cond0_1 i)
    (x0 : Vec F S8x128x1024 .f32) (x1 : Vec F S8x128x128 .f32) (x2 : Vec F S128x128 .f32) (x3 : Vec F S128 .f32) :
    { LS0 : List (View.Piece (Elt F) S8x128 .f32) //
      ∀ (xi4 : Vec F S8x128 .f32) (xi5 : Vec F S8x128x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__fused_degree_linear_kernel i arg2 harg2 arg3 harg3 arg4 harg4 arg5 harg5 arg6 harg6 arg7 harg7 arg8 harg8) K } := by
  refine ⟨?_, fun xi4 xi5 E K => ?run⟩
  case run =>
    simp only [cc0__fused_degree_linear_kernel_eq_skeleton]; unfold cc0__fused_degree_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KIR0RunB.lean ====
/-
  The first call's body at a point of column step 1 or 2, run whole: the accumulator, found at what the point before
  left, gains the row sums of the point's block of the adjacency; the two outputs are not touched.
-/
import proofs.«177266_j89043261980850_2_alg».proof.Proof.KIR0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
noncomputable def kernelRun0_B (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : ¬cond0_1 i)
    (x0 : Vec F S8x128x1024 .f32) (x1 : Vec F S8x128x128 .f32) (x2 : Vec F S128x128 .f32) (x3 : Vec F S128 .f32) (xs0 : Vec F S8x128 .f32) :
    { LS0 : List (View.Piece (Elt F) S8x128 .f32) //
      ∀ (xi4 : Vec F S8x128 .f32) (xi5 : Vec F S8x128x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__fused_degree_linear_kernel i arg2 harg2 arg3 harg3 arg4 harg4 arg5 harg5 arg6 harg6 arg7 harg7 arg8 harg8) K } := by
  refine ⟨?_, fun xi4 xi5 E K => ?run⟩
  case run =>
    simp only [cc0__fused_degree_linear_kernel_eq_skeleton]; unfold cc0__fused_degree_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KIR0RunC.lean ====
/-
  The first call's body at a point of the last column step, run whole: the accumulator, found at what the point before
  left, gains the last block's row sums; from the finished degrees the inverse square roots are stored into the first
  output and the scaled, rectified linear layer of the tile's features into the second. What the run leaves in the two
  outputs and in the accumulator is recorded as the lists of its stores.
-/
import proofs.«177266_j89043261980850_2_alg».proof.Proof.KIR0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
noncomputable def kernelRun0_C (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i)
    (x0 : Vec F S8x128x1024 .f32) (x1 : Vec F S8x128x128 .f32) (x2 : Vec F S128x128 .f32) (x3 : Vec F S128 .f32) (xs0 : Vec F S8x128 .f32) :
    Σ' (L4 : List (View.Piece (Elt F) S8x128 .f32)) (L5 : List (View.Piece (Elt F) S8x128x128 .bf16)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__fused_degree_linear_kernel i arg2 harg2 arg3 harg3 arg4 harg4 arg5 harg5 arg6 harg6 arg7 harg7 arg8 harg8) K } := by
  refine ⟨?_, ?_, ?_, fun E K => ?run⟩
  case run =>
    simp only [cc0__fused_degree_linear_kernel_eq_skeleton]; unfold cc0__fused_degree_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Hand

end
-- ==== Proof.KIR0Frame.lean ====
/-
  The first call's proof data. What each of the three kinds of point leaves in the accumulator and in the two outputs is read
  back from the stores its run found; `outsAt0` follows the accumulator point by point (a point of column step 0
  starts afresh, every other point continues from what the point before left); the invariant between points holds the
  accumulator at exactly that content, so that the body at the next point can be run from it; the body's obligation at
  every point is then the run of its kind of point. Before the first point and after the last the invariant is the one
  that forgets the accumulator.
-/
import proofs.«177266_j89043261980850_2_alg».proof.Proof.KIR0RunA
import proofs.«177266_j89043261980850_2_alg».proof.Proof.KIR0RunB
import proofs.«177266_j89043261980850_2_alg».proof.Proof.KIR0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each kind of point leaves -/

/-- The accumulator's stores cover it, in each kind of point. -/
theorem scover0_A (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : cond0_0 i) (hc1 : ¬cond0_1 i) (x0 : Vec F S8x128x1024 .f32) (x1 : Vec F S8x128x128 .f32) (x2 : Vec F S128x128 .f32) (x3 : Vec F S128 .f32) (y : S8x128.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S8x128.size (by sl_kernel_rfl) y
theorem scover0_B (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : ¬cond0_1 i) (x0 : Vec F S8x128x1024 .f32) (x1 : Vec F S8x128x128 .f32) (x2 : Vec F S128x128 .f32) (x3 : Vec F S128 .f32) (xs0 : Vec F S8x128 .f32) (y : S8x128.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  View.cover_of_tiledL (kernelRun0_B c i arg2 harg2 arg3 harg3 arg4 harg4 arg5 harg5 arg6 harg6 arg7 harg7 arg8 harg8 hc0 hc1 x0 x1 x2 x3 xs0).1 S8x128.size (by sl_kernel_rfl) y
theorem scover0_C (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) (y : S8x128.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg2 harg2 arg3 harg3 arg4 harg4 arg5 harg5 arg6 harg6 arg7 harg7 arg8 harg8 hc0 hc1 x0 x1 x2 x3 xs0).2.2.1 S8x128.size (by sl_kernel_rfl) y
/-- At the last column step the stores into output window 4 cover its block. -/
theorem cover0_C_4 (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) (y : S8x128.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  View.cover_of_tiledL (kernelRun0_C c i arg2 harg2 arg3 harg3 arg4 harg4 arg5 harg5 arg6 harg6 arg7 harg7 arg8 harg8 hc0 hc1 x0 x1 x2 x3 xs0).1 S8x128.size (by sl_kernel_rfl) y
/-- At the last column step the stores into output window 5 cover its block. -/
theorem cover0_C_5 (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) (y : S8x128x128.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  View.cover_of_tiledL (kernelRun0_C c i arg2 harg2 arg3 harg3 arg4 harg4 arg5 harg5 arg6 harg6 arg7 harg7 arg8 harg8 hc0 hc1 x0 x1 x2 x3 xs0).2.1 S8x128x128.size (by sl_kernel_rfl) y

/-- What each kind of point leaves in the accumulator: its stores read back. -/
def sout0_A (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : cond0_0 i) (hc1 : ¬cond0_1 i) (x0 : Vec F S8x128x1024 .f32) (x1 : Vec F S8x128x128 .f32) (x2 : Vec F S128x128 .f32) (x3 : Vec F S128 .f32) : Vec F S8x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)
def sout0_B (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : ¬cond0_1 i) (x0 : Vec F S8x128x1024 .f32) (x1 : Vec F S8x128x128 .f32) (x2 : Vec F S128x128 .f32) (x3 : Vec F S128 .f32) (xs0 : Vec F S8x128 .f32) : Vec F S8x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0).1)
def sout0_C (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) : Vec F S8x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0).2.2.1)
/-- What a point of the last column step leaves in output window 4's staging buffer: its stores read back. -/
def out0_C_4 (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) : Vec F S8x128 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0).1)
/-- Off the last column step output window 4 is idle: a placeholder nothing consults. -/
def idle0_4 : Vec F S8x128 .f32 := VO0_4.read (Elt F) VO0_4.junk
/-- What a point of the last column step leaves in output window 5's staging buffer: its stores read back. -/
def out0_C_5 (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) : Vec F S8x128x128 .bf16 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 xs0).2.1)
/-- Off the last column step output window 5 is idle: a placeholder nothing consults. -/
def idle0_5 : Vec F S8x128x128 .bf16 := VO0_5.read (Elt F) VO0_5.junk

/-! ## The accumulation, point by point -/

/-- What the output windows' staging buffers and the accumulator hold after the body at position `n` (the outputs in window
    order, then the accumulator). -/
def outsAt0 (c : Dev nD) : (n : ℕ) → n < cfg0.N → Vec F S8x128 .f32 × Vec F S8x128x128 .bf16 × Vec F S8x128 .f32
  | 0, hn => (idle0_4, idle0_5, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      (idle0_4, idle0_5, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)
      else
        (idle0_4, idle0_5, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)

/-- At a point of column step 0: afresh. -/
theorem outsAt0_A (c : Dev nD) (t : Fin cfg0.N) (h0 : t.val % 4 = 0) (h1 : ¬t.val % 4 = 3) :
    outsAt0 V c t.val t.isLt = (idle0_4, idle0_5, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans rfl

/-- At a point of column step 1 or 2: over what the point before left. -/
theorem outsAt0_B (c : Dev nD) (t : Fin cfg0.N) (h0 : ¬t.val % 4 = 0) (h1 : ¬t.val % 4 = 3) :
    outsAt0 V c t.val t.isLt = (idle0_4, idle0_5, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

/-- At a point of the last column step: over what the point before left. -/
theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant between points -/

/-- Before position `n`: before the first point the accumulator is at anything; afterwards it is at what the point before
    left in it. The other scoped buffers and the generator register ride along untouched. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

/-! ## The proof data -/

/-- The arrays as the call finds them; after the body at a point each input's buffer at its block and each output's at
    `outsAt0`'s component; the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at a point of column step 0. -/
theorem sound_body0_A (c : Dev nD) (t : Fin cfg0.N) (h0 : t.val % 4 = 0) (h1 : ¬t.val % 4 = 3) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [Dat.leavesExact_idle (dat0 V c) 4 t (idleAt0_4 t (fun h => h1 ((hcond0_1 t).mp h))) (noFlush0_4 t (fun h => h1 ((hcond0_1 t).mp h)))]
  rw [Dat.leavesExact_idle (dat0 V c) 5 t (idleAt0_5 t (fun h => h1 ((hcond0_1 t).mp h))) (noFlush0_5 t (fun h => h1 ((hcond0_1 t).mp h)))]
  rw [outsAt0_A V c t h0 h1]
  unfold sout0_A; (try dsimp only)
  by_cases hz : t.val = 0
  · rw [PhiS0_castSucc V c t, PhiS0_zero V c _ _ hz, PhiA0_eq]
    iintro ⟨⟨⟨HS0, HR0, HR1, HR2, HR3, HR4, HR5, HR6, HR7⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 HR0 HR1 HR2 HR3 HR4 HR5 HR6 HR7 Hg]
    · isplitl [HS0 HR0 HR1 HR2 HR3 HR4 HR5 HR6 HR7]
      · isplitl [HS0]
        · unfold owns; iexists _; isplitr
          swap; · iexact HS0
          ipureintro; exact View.read_writes_of_cover _ _ _ _ _ (scover0_A c _ _ _ _ _ _ _ _ _ _ _ _ _ _ _ _ _ _ _ _ _)
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        iexact HR7
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS0_castSucc V c t, PhiS0_pos V c _ _ hz]
    iintro ⟨⟨⟨HS0, HR0, HR1, HR2, HR3, HR4, HR5, HR6, HR7⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    iintro ⟨H0, H1, H2, H3, H4, H5, ⟨%es0, HS0⟩⟩
    isplitl [HS0 HR0 HR1 HR2 HR3 HR4 HR5 HR6 HR7 Hg]
    · isplitl [HS0 HR0 HR1 HR2 HR3 HR4 HR5 HR6 HR7]
      · isplitl [HS0]
        · unfold owns; iexists _; isplitr
          swap; · iexact HS0
          ipureintro; exact View.read_writes_of_cover _ _ _ _ _ (scover0_A c _ _ _ _ _ _ _ _ _ _ _ _ _ _ _ _ _ _ _ _ _)
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        iexact HR7
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 4800000 in
/-- The body at a point of column step 1 or 2. -/
theorem sound_body0_B (c : Dev nD) (t : Fin cfg0.N) (h0 : ¬t.val % 4 = 0) (h1 : ¬t.val % 4 = 3) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [Dat.leavesExact_idle (dat0 V c) 4 t (idleAt0_4 t (fun h => h1 ((hcond0_1 t).mp h))) (noFlush0_4 t (fun h => h1 ((hcond0_1 t).mp h)))]
  rw [Dat.leavesExact_idle (dat0 V c) 5 t (idleAt0_5 t (fun h => h1 ((hcond0_1 t).mp h))) (noFlush0_5 t (fun h => h1 ((hcond0_1 t).mp h)))]
  rw [outsAt0_B V c t h0 h1]
  unfold sout0_B; (try dsimp only)
  have hz : t.val ≠ 0 := fun e => h0 (by rw [e])
  · rw [PhiS0_castSucc V c t, PhiS0_pos V c _ _ hz]
    iintro ⟨⟨⟨HS0, HR0, HR1, HR2, HR3, HR4, HR5, HR6, HR7⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 HR0 HR1 HR2 HR3 HR4 HR5 HR6 HR7 Hg]
    · isplitl [HS0 HR0 HR1 HR2 HR3 HR4 HR5 HR6 HR7]
      · isplitl [HS0]
        · unfold owns; iexists _; isplitr
          swap; · iexact HS0
          ipureintro; exact View.read_writes_of_cover _ _ _ _ _ (scover0_B c _ _ _ _ _ _ _ _ _ _ _ _ _ _ _ _ _ _ _ _ _ _)
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        iexact HR7
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 4800000 in
/-- The body at a point of the last column step. -/
theorem sound_body0_C (c : Dev nD) (t : Fin cfg0.N) (h0 : ¬t.val % 4 = 0) (h1 : t.val % 4 = 3) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t ((hcond0_1 t).mpr h1)], after0_4]
  rw [show (dat0 V c).leavesExact 5 t = owns (c : Thread nD τ) (ms0_5 t) fullShare ((dat0 V c).after 5 t) from by
    unfold Dat.leavesExact; rw [liveAt0_5 t ((hcond0_1 t).mpr h1)], after0_5]
  rw [outsAt0_C V c t h0 h1]
  unfold out0_C_4 out0_C_5 sout0_C; (try dsimp only)
  have hz : t.val ≠ 0 := fun e => h0 (by rw [e])
  · rw [PhiS0_castSucc V c t, PhiS0_pos V c _ _ hz]
    iintro ⟨⟨⟨HS0, HR0, HR1, HR2, HR3, HR4, HR5, HR6, HR7⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) _).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, ⟨%es0, HS0⟩⟩
    isplitl [HS0 HR0 HR1 HR2 HR3 HR4 HR5 HR6 HR7 Hg]
    · isplitl [HS0 HR0 HR1 HR2 HR3 HR4 HR5 HR6 HR7]
      · isplitl [HS0]
        · unfold owns; iexists _; isplitr
          swap; · iexact HS0
          ipureintro; exact View.read_writes_of_cover _ _ _ _ _ (scover0_C c _ _ _ _ _ _ _ _ _ _ _ _ _ _ _ _ _ _ _ _ _ _)
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        iexact HR7
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_C_4 c _ _ _ _ _ _ _ _ _ _ _ _ _ _ _ _ _ _ _ _ _ _)
    unfold owns; iexists _; isplitr
    swap; · iexact H5
    ipureintro; exact View.read_writes_of_cover _ _ _ _ _ (cover0_C_5 c _ _ _ _ _ _ _ _ _ _ _ _ _ _ _ _ _ _ _ _ _ _)

/-- The body at any point: its column step decides which run applies. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 4 = 0
  · exact sound_body0_A V c t h0 (by omega)
  · by_cases h1 : t.val % 4 = 3
    · exact sound_body0_C V c t h0 h1
    · exact sound_body0_B V c t h0 h1

/-- The body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the one that forgets the accumulator. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives that one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR0, HR1, HR2, HR3, HR4, HR5, HR6, HR7⟩, Hg⟩
  isplitl [HS0 HR0 HR1 HR2 HR3 HR4 HR5 HR6 HR7]
  · isplitl [HS0]; · iexists _; iexact HS0
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  iexact Hg

theorem hout0 (c : Dev nD) : (dat0 V c).Φ (Fin.last cfg0.N) ⊢ Pipeline.ΦA spec0 c :=
  Phi_out0 V c _ (by rw [Fin.val_last]; have : cfg0.N = 128 := N_0; omega)

end Cert.KernelIdeal.Hand

end
-- ==== Proof.KIR1Base.lean ====
/-
  The second call (the product of the adjacency with the scaled features, accumulated over 4 column steps, then the row
  scale and the layer normalisation) on its grid of 16 row tiles by 4 column steps, seen from a parametric valuation
  `V` of the buffers at its entry: each window's block at a point, that an input's staging buffer holds that block at
  every point, the two branch conditions as arithmetic on the point's number (the accumulator is reset at column step 0;
  the output is stored at step 3 only), where the output is idle, and the memrefs the body is called with.
-/
import proofs.«177266_j89043261980850_2_alg».proof.Proof.Gen.KernelIdeal.Launch
import proofs.«177266_j89043261980850_2_alg».proof.Proof.Gen.KernelIdeal.Skeleton
import proofs.«177266_j89043261980850_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional (reset the accumulator): the column step is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (finish the tile): the column step is the last, 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last column step the output is idle and not written back; at it, it is live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S8x256x128 .f32 := (Memref.whole cc1_stg3_0 : Memref sig .tc .vmem S8x256x128 .f32).view
abbrev ms1_0 (t : Fin cfg1.N) : Memref sig .tc .vmem S8x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x256x128 .f32 := win1_3.stage (cfg1.slots t 3)
abbrev hs1_3 (t : Fin cfg1.N) : (ms1_3 t).IsWhole := hstage1_3 ((cfg1.slots t 3).cast nbuf1_3)
/-- The accumulator: a whole scoped buffer of the kernel's own, carried between points. -/
abbrev scM1_0 : Memref sig .tc .vmem S8x256x128 .f32 := Memref.whole cc1_scratch0
abbrev VS1_0 : View sig .tc .vmem S8x256x128 .f32 := scM1_0.view

/-- The invariant that forgets the accumulator's contents, with the accumulator split off the other scoped buffers. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KIR1RunA.lean ====
/-
  The second call's body at a point of column step 0, run whole: the accumulator, found at anything, is reset to zero and
  the product of the point's block of the adjacency with the matching 1024 rows of the scaled features is added to it;
  the output is not touched. What the run leaves in the accumulator is recorded as the list of its stores.
-/
import proofs.«177266_j89043261980850_2_alg».proof.Proof.KIR1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
noncomputable def kernelRun1_A (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : cond1_0 i) (hc1 : ¬cond1_1 i)
    (x0 : Vec F S8x256x1024 .f32) (x1 : Vec F S8x4096x128 .bf16) (x2 : Vec F S8x256 .f32) :
    { LS0 : List (View.Piece (Elt F) S8x256x128 .f32) //
      ∀ (xi3 : Vec F S8x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__bmm_ln_kernel i arg2 harg2 arg3 harg3 arg4 harg4 arg5 harg5 arg6 harg6) K } := by
  refine ⟨?_, fun xi3 E K => ?run⟩
  case run =>
    simp only [cc1__bmm_ln_kernel_eq_skeleton]; unfold cc1__bmm_ln_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIR1RunB.lean ====
/-
  The second call's body at a point of column step 1 or 2, run whole: the accumulator, found at what the point before
  left, gains the product of the point's block of the adjacency with the matching rows of the scaled features; the
  output is not touched.
-/
import proofs.«177266_j89043261980850_2_alg».proof.Proof.KIR1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
noncomputable def kernelRun1_B (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : ¬cond1_1 i)
    (x0 : Vec F S8x256x1024 .f32) (x1 : Vec F S8x4096x128 .bf16) (x2 : Vec F S8x256 .f32) (xs0 : Vec F S8x256x128 .f32) :
    { LS0 : List (View.Piece (Elt F) S8x256x128 .f32) //
      ∀ (xi3 : Vec F S8x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__bmm_ln_kernel i arg2 harg2 arg3 harg3 arg4 harg4 arg5 harg5 arg6 harg6) K } := by
  refine ⟨?_, fun xi3 E K => ?run⟩
  case run =>
    simp only [cc1__bmm_ln_kernel_eq_skeleton]; unfold cc1__bmm_ln_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIR1RunC.lean ====
/-
  The second call's body at a point of the last column step, run whole: the accumulator, found at what the point before
  left, gains the last partial product; the finished sums are scaled row by row, normalised along the feature axis and
  stored into the output. What the run leaves in the output and in the accumulator is recorded as the lists of its stores.
-/
import proofs.«177266_j89043261980850_2_alg».proof.Proof.KIR1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
noncomputable def kernelRun1_C (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : cond1_1 i)
    (x0 : Vec F S8x256x1024 .f32) (x1 : Vec F S8x4096x128 .bf16) (x2 : Vec F S8x256 .f32) (xs0 : Vec F S8x256x128 .f32) :
    Σ' (L3 : List (View.Piece (Elt F) S8x256x128 .f32)), { LS0 : List (View.Piece (Elt F) S8x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__bmm_ln_kernel i arg2 harg2 arg3 harg3 arg4 harg4 arg5 harg5 arg6 harg6) K } := by
  refine ⟨?_, ?_, fun E K => ?run⟩
  case run =>
    simp only [cc1__bmm_ln_kernel_eq_skeleton]; unfold cc1__bmm_ln_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KIR1Frame.lean ====
/-
  The second call's proof data. What each of the three kinds of point leaves in the accumulator and in the output is read
  back from the stores its run found; `outsAt1` follows the accumulator point by point (a point of column step 0
  starts afresh, every other point continues from what the point before left); the invariant between points holds the
  accumulator at exactly that content, so that the body at the next point can be run from it; the body's obligation at
  every point is then the run of its kind of point. Before the first point and after the last the invariant is the one
  that forgets the accumulator.
-/
import proofs.«177266_j89043261980850_2_alg».proof.Proof.KIR1RunA
import proofs.«177266_j89043261980850_2_alg».proof.Proof.KIR1RunB
import proofs.«177266_j89043261980850_2_alg».proof.Proof.KIR1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each kind of point leaves -/

/-- The accumulator's stores cover it, in each kind of point. -/
theorem scover1_A (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : cond1_0 i) (hc1 : ¬cond1_1 i) (x0 : Vec F S8x256x1024 .f32) (x1 : Vec F S8x4096x128 .bf16) (x2 : Vec F S8x256 .f32) (y : S8x256x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S8x256x128.size (by sl_kernel_rfl) y
theorem scover1_B (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : ¬cond1_1 i) (x0 : Vec F S8x256x1024 .f32) (x1 : Vec F S8x4096x128 .bf16) (x2 : Vec F S8x256 .f32) (xs0 : Vec F S8x256x128 .f32) (y : S8x256x128.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S8x256x128.size (by sl_kernel_rfl) y
theorem scover1_C (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : cond1_1 i) (x0 : Vec F S8x256x1024 .f32) (x1 : Vec F S8x4096x128 .bf16) (x2 : Vec F S8x256 .f32) (xs0 : Vec F S8x256x128 .f32) (y : S8x256x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S8x256x128.size (by sl_kernel_rfl) y
/-- At the last column step the stores into output window 3 cover its block. -/
theorem cover1_C_3 (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : cond1_1 i) (x0 : Vec F S8x256x1024 .f32) (x1 : Vec F S8x4096x128 .bf16) (x2 : Vec F S8x256 .f32) (xs0 : Vec F S8x256x128 .f32) (y : S8x256x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S8x256x128.size (by sl_kernel_rfl) y

/-- What each kind of point leaves in the accumulator: its stores read back. -/
def sout1_A (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : cond1_0 i) (hc1 : ¬cond1_1 i) (x0 : Vec F S8x256x1024 .f32) (x1 : Vec F S8x4096x128 .bf16) (x2 : Vec F S8x256 .f32) : Vec F S8x256x128 .f32 :=
  VS1_0.read (Elt F) (VS1_0.writes (Elt F) VS1_0.junk (kernelRun1_A c i arg2 harg2 arg3 harg3 arg4 harg4 arg5 harg5 arg6 harg6 hc0 hc1 x0 x1 x2).1)
def sout1_B (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : ¬cond1_1 i) (x0 : Vec F S8x256x1024 .f32) (x1 : Vec F S8x4096x128 .bf16) (x2 : Vec F S8x256 .f32) (xs0 : Vec F S8x256x128 .f32) : Vec F S8x256x128 .f32 :=
  VS1_0.read (Elt F) (VS1_0.writes (Elt F) VS1_0.junk (kernelRun1_B c i arg2 harg2 arg3 harg3 arg4 harg4 arg5 harg5 arg6 harg6 hc0 hc1 x0 x1 x2 xs0).1)
def sout1_C (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : cond1_1 i) (x0 : Vec F S8x256x1024 .f32) (x1 : Vec F S8x4096x128 .bf16) (x2 : Vec F S8x256 .f32) (xs0 : Vec F S8x256x128 .f32) : Vec F S8x256x128 .f32 :=
  VS1_0.read (Elt F) (VS1_0.writes (Elt F) VS1_0.junk (kernelRun1_C c i arg2 harg2 arg3 harg3 arg4 harg4 arg5 harg5 arg6 harg6 hc0 hc1 x0 x1 x2 xs0).2.1)
/-- What a point of the last column step leaves in output window 3's staging buffer: its stores read back. -/
def out1_C_3 (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : cond1_1 i) (x0 : Vec F S8x256x1024 .f32) (x1 : Vec F S8x4096x128 .bf16) (x2 : Vec F S8x256 .f32) (xs0 : Vec F S8x256x128 .f32) : Vec F S8x256x128 .f32 :=
  VO1_3.read (Elt F) (VO1_3.writes (Elt F) VO1_3.junk (kernelRun1_C c i arg2 harg2 arg3 harg3 arg4 harg4 arg5 harg5 arg6 harg6 hc0 hc1 x0 x1 x2 xs0).1)
/-- Off the last column step output window 3 is idle: a placeholder nothing consults. -/
def idle1_3 : Vec F S8x256x128 .f32 := VO1_3.read (Elt F) VO1_3.junk

/-! ## The accumulation, point by point -/

/-- What the output windows' staging buffers and the accumulator hold after the body at position `n` (the outputs in window
    order, then the accumulator). -/
def outsAt1 (c : Dev nD) : (n : ℕ) → n < cfg1.N → Vec F S8x256x128 .f32 × Vec F S8x256x128 .f32
  | 0, hn => (idle1_3, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      (idle1_3, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idle1_3, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point of column step 0: afresh. -/
theorem outsAt1_A (c : Dev nD) (t : Fin cfg1.N) (h0 : t.val % 4 = 0) (h1 : ¬t.val % 4 = 3) :
    outsAt1 V c t.val t.isLt = (idle1_3, sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At a point of column step 1 or 2: over what the point before left. -/
theorem outsAt1_B (c : Dev nD) (t : Fin cfg1.N) (h0 : ¬t.val % 4 = 0) (h1 : ¬t.val % 4 = 3) :
    outsAt1 V c t.val t.isLt = (idle1_3, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point of the last column step: over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- Before position `n`: before the first point the accumulator is at anything; afterwards it is at what the point before
    left in it. The other scoped buffers and the generator register ride along untouched. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The arrays as the call finds them; after the body at a point each input's buffer at its block and each output's at
    `outsAt1`'s component; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at a point of column step 0. -/
theorem sound_body1_A (c : Dev nD) (t : Fin cfg1.N) (h0 : t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h1 ((hcond1_1 t).mp h))) (noFlush1_3 t (fun h => h1 ((hcond1_1 t).mp h)))]
  rw [outsAt1_A V c t h0 h1]
  unfold sout1_A; (try dsimp only)
  by_cases hz : t.val = 0
  · rw [PhiS1_castSucc V c t, PhiS1_zero V c _ _ hz, PhiA1_eq]
    iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 HR0 HR1 HR2 HR3 HR4 HR5 HR6 HR7 HR8 HR9 HR10 Hg]
    · isplitl [HS0 HR0 HR1 HR2 HR3 HR4 HR5 HR6 HR7 HR8 HR9 HR10]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        unfold owns; iexists _; isplitr
        swap; · iexact HS0
        ipureintro; exact View.read_writes_of_cover _ _ _ _ _ (scover1_A c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · rw [PhiS1_castSucc V c t, PhiS1_pos V c _ _ hz]
    iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
    isplitl [H0]; · iexact H0
    isplitl [H1]; · iexact H1
    isplitl [H2]; · iexact H2
    isplitl [H3]; · iexact H3
    isplitl [HS0]; · iexists _; iexact HS0
    iintro ⟨H0, H1, H2, H3, ⟨%es0, HS0⟩⟩
    isplitl [HS0 HR0 HR1 HR2 HR3 HR4 HR5 HR6 HR7 HR8 HR9 HR10 Hg]
    · isplitl [HS0 HR0 HR1 HR2 HR3 HR4 HR5 HR6 HR7 HR8 HR9 HR10]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        unfold owns; iexists _; isplitr
        swap; · iexact HS0
        ipureintro; exact View.read_writes_of_cover _ _ _ _ _ (scover1_A c _ _ _ _ _ _ _ _ _ _ _ _ _ _ _ _)
      iexact Hg
    isplitl [Ho]; · iexact Ho
    isplitl [H0]; · iexact H0
    isplitl [H1]; · iexact H1
    isplitl [H2]; · iexact H2
    iexists _; iexact H3

set_option maxHeartbeats 4800000 in
/-- The body at a point of column step 1 or 2. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h1 ((hcond1_1 t).mp h))) (noFlush1_3 t (fun h => h1 ((hcond1_1 t).mp h)))]
  rw [outsAt1_B V c t h0 h1]
  unfold sout1_B; (try dsimp only)
  have hz : t.val ≠ 0 := fun e => h0 (by rw [e])
  · rw [PhiS1_castSucc V c t, PhiS1_pos V c _ _ hz]
    iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 HR0 HR1 HR2 HR3 HR4 HR5 HR6 HR7 HR8 HR9 HR10 Hg]
    · isplitl [HS0 HR0 HR1 HR2 HR3 HR4 HR5 HR6 HR7 HR8 HR9 HR10]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        unfold owns; iexists _; isplitr
        swap; · iexact HS0
        ipureintro; exact View.read_writes_of_cover _ _ _ _ _ (scover1_B c _ _ _ _ _ _ _ _ _ _ _ _ _ _ _ _ _)
      iexact Hg
    isplitl [Ho]; · iexact Ho
    isplitl [H0]; · iexact H0
    isplitl [H1]; · iexact H1
    isplitl [H2]; · iexact H2
    iexists _; iexact H3

set_option maxHeartbeats 4800000 in
/-- The body at a point of the last column step. -/
theorem sound_body1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t ((hcond1_1 t).mpr h1)], after1_3]
  rw [outsAt1_C V c t h0 h1]
  unfold out1_C_3 sout1_C; (try dsimp only)
  have hz : t.val ≠ 0 := fun e => h0 (by rw [e])
  · rw [PhiS1_castSucc V c t, PhiS1_pos V c _ _ hz]
    iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩⟩
    iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR0 HR1 HR2 HR3 HR4 HR5 HR6 HR7 HR8 HR9 HR10 Hg]
    · isplitl [HS0 HR0 HR1 HR2 HR3 HR4 HR5 HR6 HR7 HR8 HR9 HR10]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        unfold owns; iexists _; isplitr
        swap; · iexact HS0
        ipureintro; exact View.read_writes_of_cover _ _ _ _ _ (scover1_C c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)

/-- The body at any point: its column step decides which run applies. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · exact sound_body1_A V c t h0 (by omega)
  · by_cases h1 : t.val % 4 = 3
    · exact sound_body1_C V c t h0 h1
    · exact sound_body1_B V c t h0 h1

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the one that forgets the accumulator. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HS0⟩, Hg⟩
  isplitl [HS0 HR0 HR1 HR2 HR3 HR4 HR5 HR6 HR7 HR8 HR9 HR10]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KIMain.lean ====
/-
  The whole program: two calls one after the other, no host operation around them. The unscoped buffers' contents are
  followed through the two boundaries — at launch; after the first call, whose two result arrays hold what its
  write-backs leave and every other buffer what it held; after the second call likewise — and the program's run is the
  two calls' runs chained. At the end each argument array reads back, through that fold, as it was launched (no call
  writes an argument), and the result array is the second call's output array after its last point.
-/
import proofs.«177266_j89043261980850_2_alg».proof.Proof.KIR0Frame
import proofs.«177266_j89043261980850_2_alg».proof.Proof.KIR1Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at the three boundaries -/

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first call: its arrays at what it leaves, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second call: its arrays at what it leaves, every other buffer as before. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched; the result is the second call's output array -/

/-- The adjacency is an input window of both calls. -/
theorem W1_main_arg1 (c : Dev nD) : W1 m ρ c (Proc.devRef .tc main_arg1) = m ((c : Thread nD τ).loc main_arg1) :=
  (W1_arr m ρ c 0).trans (((dat0 (V0 m ρ) c).arrAt_in 0 rfl _).trans (A_eq0 (V0 m ρ) c 0))
theorem W2_main_arg1 (c : Dev nD) : W2 m ρ c (Proc.devRef .tc main_arg1) = m ((c : Thread nD τ).loc main_arg1) :=
  ((W2_arr m ρ c 0).trans (((dat1 (V1 m ρ) c).arrAt_in 0 rfl _).trans (A_eq1 (V1 m ρ) c 0))).trans (W1_main_arg1 m ρ c)
/-- The features, the weights and the bias are input windows of the first call and bypass the second. -/
theorem W2_main_arg0 (c : Dev nD) : W2 m ρ c (Proc.devRef .tc main_arg0) = m ((c : Thread nD τ).loc main_arg0) :=
  (W2_of_ne m ρ c main_arg0 (by decide)).trans ((W1_arr m ρ c 1).trans (((dat0 (V0 m ρ) c).arrAt_in 1 rfl _).trans (A_eq0 (V0 m ρ) c 1)))
theorem W2_main_arg2 (c : Dev nD) : W2 m ρ c (Proc.devRef .tc main_arg2) = m ((c : Thread nD τ).loc main_arg2) :=
  (W2_of_ne m ρ c main_arg2 (by decide)).trans ((W1_arr m ρ c 2).trans (((dat0 (V0 m ρ) c).arrAt_in 2 rfl _).trans (A_eq0 (V0 m ρ) c 2)))
theorem W2_main_arg3 (c : Dev nD) : W2 m ρ c (Proc.devRef .tc main_arg3) = m ((c : Thread nD τ).loc main_arg3) :=
  (W2_of_ne m ρ c main_arg3 (by decide)).trans ((W1_arr m ρ c 3).trans (((dat0 (V0 m ρ) c).arrAt_in 3 rfl _).trans (A_eq0 (V0 m ρ) c 3)))
/-- The result array is the second call's output window's array. -/
theorem W2_main_v1 (c : Dev nD) : W2 m ρ c (Proc.devRef .tc main_v1) = (dat1 (V1 m ρ) c).arrAt 3 cfg1.N :=
  W2_arr m ρ c 3

/-! ## The proof data family and the thread state -/

abbrev admH : (p : Fin 2) → (pcfgs (F := F) p).Adm := fun p => (cfgs p).toPCfg_adm
/-- Both calls' proof data, each at its entry contents. -/
def pdats : (p : Fin 2) → (c : Dev nD) → Dat τ (Elt F) Unit ℕ (Pipeline.UD sig nD τ) ℕ (Pipeline.pin (pcfgs (F := F)) admH p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the core's generator register at some state and its dues, none. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The two calls as segments -/

set_option backward.isDefEq.respectTransparency.types false in
/-- The first call over the thread state: entered from every unscoped buffer at the contents before it, left at the contents
    after it. Its arrays are split out of the unscoped buffers and put back at their final contents; the generator register
    and the scoped buffers go into the invariant that forgets the accumulator and come back out of it; nothing is owed;
    the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at the contents before it, left at the contents
    after it. Its arrays are split out of the unscoped buffers and put back at their final contents; the generator register
    and the scoped buffers go into the invariant that forgets the accumulator and come back out of it; nothing is owed;
    the kernel has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1 m ρ) c)
    unfold Pipeline.ΦA
    iintro ⟨Hp, -, Hr⟩
    isplitl [Hr]; · iexact Hr
    iexact Hp
  hout c := by
    rw [Pipeline.ownSems0_none]
    refine BIBase.Entails.trans (hout1 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program's run -/

abbrev segs : List (Pipeline.Seg (pcfgs (F := F)) admH (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and the
    final state has the result array at the second call's final output array and the four argument arrays as launched. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) admH (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- The frame claim's statement, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.KIR0Pieces.lean ====
/-
  What each kind of point of the first call leaves, as arithmetic of what it loaded: the accumulator ends at the
  block's row sums added to zero (column step 0) or to what it held (later steps); at the last step the first output
  is the inverse square root of the finished degrees where they are positive, and the second the rectified linear layer
  of the tile's features scaled by it.
-/
import proofs.«177266_j89043261980850_2_alg».proof.Proof.KIR0Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Column step 0: zero plus the block's row sums. -/
theorem sout0_A_eq (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : cond0_0 i) (hc1 : ¬cond0_1 i) (x0 : Vec F S8x128x1024 .f32) (x1 : Vec F S8x128x128 .f32) (x2 : Vec F S128x128 .f32) (x3 : Vec F S128 .f32) :
    sout0_A c i arg2 harg2 arg3 harg3 arg4 harg4 arg5 harg5 arg6 harg6 arg7 harg7 arg8 harg8 hc0 hc1 x0 x1 x2 x3 = k0_pay2 (k0_pay1 (F := F)) x0 := by
  unfold sout0_A
  rw [View.read_writes_eq_canon _ _ _ (scover0_A c i arg2 harg2 arg3 harg3 arg4 harg4 arg5 harg5 arg6 harg6 arg7 harg7 arg8 harg8 hc0 hc1 x0 x1 x2 x3)]
  unfold kernelRun0_A
  dsimp only
  try sl_unfold_words
  rw [View.canon_cons_unit_zero hz2, View.readCov_unit_zero (S := S8x128) _ hz2]
  simp only [View.readAt_eq_ld, harg2.read_unread, View.ld_unit_zero (S := S8x128x1024) hz3]

/-- Column steps 1 and 2: what the accumulator held plus the block's row sums. -/
theorem sout0_B_eq (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : ¬cond0_1 i) (x0 : Vec F S8x128x1024 .f32) (x1 : Vec F S8x128x128 .f32) (x2 : Vec F S128x128 .f32) (x3 : Vec F S128 .f32) (xs0 : Vec F S8x128 .f32) :
    sout0_B c i arg2 harg2 arg3 harg3 arg4 harg4 arg5 harg5 arg6 harg6 arg7 harg7 arg8 harg8 hc0 hc1 x0 x1 x2 x3 xs0 = k0_pay2 xs0 x0 := by
  unfold sout0_B
  rw [View.read_writes_eq_canon _ _ _ (scover0_B c i arg2 harg2 arg3 harg3 arg4 harg4 arg5 harg5 arg6 harg6 arg7 harg7 arg8 harg8 hc0 hc1 x0 x1 x2 x3 xs0)]
  unfold kernelRun0_B
  dsimp only
  try sl_unfold_words
  rw [View.canon_unit_zero hz2]
  simp only [View.readAt_eq_ld, harg2.read_unread, harg8.read_unread, View.ld_unit_zero (S := S8x128x1024) hz3, View.ld_unit_zero (S := S8x128) hz2]

/-- The last column step, the accumulator: the same. -/
theorem sout0_C_eq (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) :
    sout0_C c i arg2 harg2 arg3 harg3 arg4 harg4 arg5 harg5 arg6 harg6 arg7 harg7 arg8 harg8 hc0 hc1 x0 x1 x2 x3 xs0 = k0_pay2 xs0 x0 := by
  unfold sout0_C
  rw [View.read_writes_eq_canon _ _ _ (scover0_C c i arg2 harg2 arg3 harg3 arg4 harg4 arg5 harg5 arg6 harg6 arg7 harg7 arg8 harg8 hc0 hc1 x0 x1 x2 x3 xs0)]
  unfold kernelRun0_C
  dsimp only
  try sl_unfold_words
  rw [View.canon_unit_zero hz2]
  simp only [View.readAt_eq_ld, harg2.read_unread, harg8.read_unread, View.ld_unit_zero (S := S8x128x1024) hz3, View.ld_unit_zero (S := S8x128) hz2]

/-- The last column step, the first output: the inverse square roots of the finished degrees. -/
theorem out0_C_4_eq (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) :
    out0_C_4 c i arg2 harg2 arg3 harg3 arg4 harg4 arg5 harg5 arg6 harg6 arg7 harg7 arg8 harg8 hc0 hc1 x0 x1 x2 x3 xs0 = k0_pay3 (k0_pay2 xs0 x0) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  try sl_unfold_words
  rw [View.canon_unit_zero hz2, View.readCov_unit_zero (S := S8x128) _ hz2]
  simp only [View.readAt_eq_ld, harg2.read_unread, harg8.read_unread, View.ld_unit_zero (S := S8x128x1024) hz3, View.ld_unit_zero (S := S8x128) hz2]

/-- The last column step, the second output: the scaled, rectified linear layer of the tile's features. -/
theorem out0_C_5_eq (c : Dev nD) (i : grid0.Coords) (arg2 : Memref sig .tc .vmem S8x128x1024 .f32) (harg2 : arg2.IsWhole) (arg3 : Memref sig .tc .vmem S8x128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S8x128 .f32) (harg8 : arg8.IsWhole) (hc0 : ¬cond0_0 i) (hc1 : cond0_1 i) (x0 : Vec F S8x128x1024 .f32) (x1 : Vec F S8x128x128 .f32) (x2 : Vec F S128x128 .f32) (x3 : Vec F S128 .f32) (xs0 : Vec F S8x128 .f32) :
    out0_C_5 c i arg2 harg2 arg3 harg3 arg4 harg4 arg5 harg5 arg6 harg6 arg7 harg7 arg8 harg8 hc0 hc1 x0 x1 x2 x3 xs0 = k0_pay4 (k0_pay2 xs0 x0) x1 x2 x3 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  try sl_unfold_words
  rw [View.canon_unit_zero hz3, View.readCov_unit_zero (S := S8x128) _ hz2]
  simp only [View.readAt_eq_ld, harg2.read_unread, harg3.read_unread, harg4.read_unread, harg5.read_unread, harg8.read_unread, View.ld_unit_zero (S := S8x128x1024) hz3, View.ld_unit_zero (S := S8x128x128) hz3, View.ld_unit_zero (S := S128x128) hz2, View.ld_unit_zero (S := S128) hz1, View.ld_unit_zero (S := S8x128) hz2]

end Cert.KernelIdeal.Hand

end
-- ==== Proof.Scalars.lean ====
/-
  The scalar functions of this layer, on the extended reals, named once so that every statement about the kernel's
  blocks, about the reference's stages and about the specification speaks of the same terms.

  * `dinvOf d`   the degree's inverse square root where the degree is positive, zero elsewhere.
  * `leaky y`    the leaky rectifier with slope f32(0.01): `y` where `0 ≤ y`, slope · y elsewhere.
  * `mean128 y`  the mean of a row of 128 entries: the row's sum divided by 128.
  * `lnRow y o`  the affine-free layer normalisation of a row at entry `o`:
                  (y o − mean y) · rsqrt (mean ((y − mean y)²) + f32(1e-5)).
-/
import Idealize.ShloMosaic.PureOps.Ideal
import Idealize.ShloMosaic.PureOps.Ideal.Laws

noncomputable section

namespace Cert.Scalars

open Idealize.ShloMosaic

/-- The zero word of f32 as an extended real (it is `0`: `Ideal.ofBits_zero_f32`). -/
abbrev zero32 : EReal := Ideal.ofBits .f32 0x00000000#32
/-- The leaky rectifier's slope, the binary value of f32(0.01). -/
abbrev slope : EReal := Ideal.ofBits .f32 0x3C23D70A#32
/-- The row length 128 as f32. -/
abbrev c128 : EReal := Ideal.ofBits .f32 0x43000000#32
/-- The normalisation's epsilon, the binary value of f32(1e-5). -/
abbrev eps : EReal := Ideal.ofBits .f32 0x3727C5AC#32

/-- `d ↦ d^(-1/2)` where `d > 0`, else `0`. -/
def dinvOf (d : EReal) : EReal := Scalar.select (Ideal.cmp .ogt d zero32) (Ideal.rsqrt d) zero32

/-- `y ↦ y` where `y ≥ 0`, else `slope · y`. -/
def leaky (y : EReal) : EReal := Scalar.select (Ideal.cmp .oge y zero32) y (slope * y)

/-- The mean of a row of 128 entries. -/
def mean128 (y : Fin 128 → EReal) : EReal := Ideal.div (∑ o : Fin 128, y o) c128

/-- Layer normalisation (no affine part) of a row of 128 entries, at entry `o`. -/
def lnRow (y : Fin 128 → EReal) (o : Fin 128) : EReal :=
  (y o - mean128 y) * Ideal.rsqrt (mean128 (fun o' => (y o' - mean128 y) * (y o' - mean128 y)) + eps)

end Cert.Scalars

end
-- ==== Proof.Payloads0.lean ====
/-
  The first call's block arithmetic, read entry by entry on the extended reals.

  A block of that call holds, for 8 graphs, 128 rows of the adjacency matrix cut to 1024 columns. Its running
  degree starts from zero, gains at every step the sum of the 1024 entries of the row, and at the last step is turned
  into the inverse square root of the degree (zero where the degree is not positive). The same step forms the
  row's features: the 128 inputs of the row against each of the 128 rows of the weight matrix, plus the bias, through
  the leaky rectifier, and scaled by the row's inverse square root of the degree.
-/
import proofs.«177266_j89043261980850_2_alg».proof.Proof.Gen.KernelIdeal.Skeleton
import proofs.«177266_j89043261980850_2_alg».proof.Proof.Scalars
import Idealize.ShloMosaic.Lib.ValueIdx
import Idealize.ShloMosaic.Lib.Pipeline.Value
import Idealize.ShloMosaic.Lib.ValueLayout
import Idealize.ShloMosaic.PureOps.Ideal.Laws

noncomputable section

namespace Cert.Body

open Idealize.ShloMosaic Idealize.ShloMosaic.ValueIdx Cert.KernelIdeal Cert.KernelIdeal.Gen Cert.Scalars

/-- The running degree starts from zero at every entry. -/
theorem pay0_init_apply (j : S8x128.Idx) : k0_pay1 (F := Ideal) j = 0 := by
  unfold k0_pay1
  rw [shapeCast_self]
  exact Ideal.ofBits_zero_f32

/-- The sum along the last axis of an 8 × 128 × 1024 block, at row `r` of graph `b`: the sum of that row's
    1024 entries. -/
theorem lane_sum_1024 (v4 : Vec Ideal S8x128x1024 .f32) (b : Fin 8) (r : Fin 128) :
    multiReduction (F := Ideal) .add [2] S8x128 v4 0x00000000#32 reduces_S8x128x1024_S8x128 (.inl rfl) rfl (ix2 b r)
      = ∑ k : Fin 1024, v4 (ix3 b r k) := by
  refine (Ideal.multiReduction_add_single v4 0x00000000#32 reduces_S8x128x1024_S8x128 (.inl rfl) rfl (ix2 b r)).trans ?_
  refine Finset.sum_congr rfl fun k _ => ?_
  exact congrArg v4 (funext fun a => Fin.ext (by match a with | ⟨0, _⟩ => rfl | ⟨1, _⟩ => rfl | ⟨2, _⟩ => rfl))

/-- One step of the degree: the degree so far plus the sum of the row's 1024 entries of this block. -/
theorem pay0_acc_apply (v3 : Vec Ideal S8x128 .f32) (v4 : Vec Ideal S8x128x1024 .f32) (b : Fin 8) (r : Fin 128) :
    k0_pay2 (F := Ideal) v3 v4 (ix2 b r) = v3 (ix2 b r) + ∑ k : Fin 1024, v4 (ix3 b r k) := by
  unfold k0_pay2
  rw [shapeCast_self]
  exact congrArg (v3 (ix2 b r) + ·) (lane_sum_1024 v4 b r)

/-- The last step's scale: the inverse square root of the degree where the degree is positive, zero elsewhere. -/
theorem pay0_dinv_apply (v13 : Vec Ideal S8x128 .f32) (b : Fin 8) (r : Fin 128) :
    k0_pay3 (F := Ideal) v13 (ix2 b r) = dinvOf (v13 (ix2 b r)) := by
  unfold k0_pay3 dinvOf
  rfl

/-- Row `r` of graph `b` in the flattened 1024-row block: 128·b + r. -/
abbrev rowIdx (b : Fin 8) (r : Fin 128) : Fin 1024 := ⟨128 * b.val + r.val, by have := b.isLt; have := r.isLt; omega⟩

/-- The 8 × 128 × 128 block flattened to 1024 × 128: row 128·b + r is row `r` of graph `b`. -/
theorem flat_of_block {α : Type} (x : S8x128x128.Idx → α) (h : S8x128x128.ShapeCasts S1024x128) (b : Fin 8) (r : Fin 128) (i : Fin 128) :
    shapeCast S1024x128 x h (ix2 (rowIdx b r) i) = x (ix3 b r i) := by
  refine shapeCast_apply x h (ix2 (rowIdx b r) i) (ix3 b r i) ?_
  rw [Shape.rowMajor_val_two, Shape.rowMajor_val_three]
  show (b.val * 128 + r.val) * 128 + i.val = (128 * b.val + r.val) * 128 + i.val
  omega

/-- The 1024 × 128 product cut back into 8 × 128 × 128: row `r` of graph `b` is row 128·b + r. -/
theorem block_of_flat {α : Type} (y : S1024x128.Idx → α) (h : S1024x128.ShapeCasts S8x128x128) (b : Fin 8) (r : Fin 128) (o : Fin 128) :
    shapeCast S8x128x128 y h (ix3 b r o) = y (ix2 (rowIdx b r) o) := by
  refine shapeCast_apply y h (ix3 b r o) (ix2 (rowIdx b r) o) ?_
  rw [Shape.rowMajor_val_two, Shape.rowMajor_val_three]
  show (128 * b.val + r.val) * 128 + o.val = (b.val * 128 + r.val) * 128 + o.val
  omega

/-- The bias laid out as 1 × 1 × 128: entry (0, 0, o) is the bias of output `o`. -/
theorem bias_as_111 {α : Type} (x : S128.Idx → α) (h : S128.ShapeCasts S1x1x128) (z1 z2 : Fin 1) (o : Fin 128) :
    shapeCast S1x1x128 x h (ix3 z1 z2 o) = x (ix1 o) := by
  refine shapeCast_apply x h (ix3 z1 z2 o) (ix1 o) ?_
  rw [Shape.rowMajor_val_one, Shape.rowMajor_val_three]
  show o.val = (z1.val * 1 + z2.val) * 128 + o.val
  have := z1.isLt
  have := z2.isLt
  omega

/-- The bias repeated over graphs and rows, 1 × 1 × 128 → 8 × 128 × 128. -/
theorem bcast_bias {α : Type} (y : S1x1x128.Idx → α) (h : S1x1x128.Broadcasts S8x128x128) (b : Fin 8) (r : Fin 128) (o : Fin 128) :
    broadcastTo S8x128x128 y h (ix3 b r o) = y (ix3 0 0 o) := by
  refine broadcastTo_apply y h (ix3 b r o) (ix3 0 0 o) (fun a => ?_)
  match a with
  | ⟨0, _⟩ => show 0 = if (1 : Nat) = 1 then 0 else b.val; rw [if_pos rfl]
  | ⟨1, _⟩ => show 0 = if (1 : Nat) = 1 then 0 else r.val; rw [if_pos rfl]
  | ⟨2, _⟩ => show o.val = if (128 : Nat) = 1 then 0 else o.val; rw [if_neg (by decide)]

/-- A per-row quantity laid out as a column, 8 × 128 → 8 × 128 × 1. -/
theorem col_of_row_128 {α : Type} (x : S8x128.Idx → α) (h : S8x128.ShapeCasts S8x128x1) (b : Fin 8) (r : Fin 128) (z : Fin 1) :
    shapeCast S8x128x1 x h (ix3 b r z) = x (ix2 b r) := by
  refine shapeCast_apply x h (ix3 b r z) (ix2 b r) ?_
  rw [Shape.rowMajor_val_two, Shape.rowMajor_val_three]
  show b.val * 128 + r.val = (b.val * 128 + r.val) * 1 + z.val
  have := z.isLt
  omega

/-- A column repeated along the last axis, 8 × 128 × 1 → 8 × 128 × 128. -/
theorem bcast_col_128 {α : Type} (y : S8x128x1.Idx → α) (h : S8x128x1.Broadcasts S8x128x128) (b : Fin 8) (r : Fin 128) (o : Fin 128) :
    broadcastTo S8x128x128 y h (ix3 b r o) = y (ix3 b r 0) := by
  refine broadcastTo_apply y h (ix3 b r o) (ix3 b r 0) (fun a => ?_)
  match a with
  | ⟨0, _⟩ => show b.val = if (8 : Nat) = 1 then 0 else b.val; rw [if_neg (by decide)]
  | ⟨1, _⟩ => show r.val = if (128 : Nat) = 1 then 0 else r.val; rw [if_neg (by decide)]
  | ⟨2, _⟩ => show 0 = if (1 : Nat) = 1 then 0 else o.val; rw [if_pos rfl]

/-! The operand entries of the product (the inputs' last axis against the weights' last axis), one coordinate at a
    time. -/

theorem mm_lhs0 (i : S1024x128.Idx) (q : dot_S1024x128_S128x128_S1024x128_1_1_0_0_n_n.contr.Idx) :
    (dot_S1024x128_S128x128_S1024x128_1_1_0_0_n_n.lhsIdx i q 0).val = (i 0).val := by
  unfold DotDims.lhsIdx
  rw [dif_neg (show ¬(0 : Fin S1024x128.rank) ∈ dot_S1024x128_S128x128_S1024x128_1_1_0_0_n_n.lhsBatch by decide),
    dif_pos (show (0 : Fin S1024x128.rank) ∈ dot_S1024x128_S128x128_S1024x128_1_1_0_0_n_n.lhsNonContracting by decide)]
  rfl
theorem mm_lhs1 (i : S1024x128.Idx) (q : dot_S1024x128_S128x128_S1024x128_1_1_0_0_n_n.contr.Idx) :
    (dot_S1024x128_S128x128_S1024x128_1_1_0_0_n_n.lhsIdx i q 1).val = (q ⟨0, by decide⟩).val :=
  dot_S1024x128_S128x128_S1024x128_1_1_0_0_n_n.lhsIdx_val_of_single rfl i q
theorem mm_rhs0 (i : S1024x128.Idx) (q : dot_S1024x128_S128x128_S1024x128_1_1_0_0_n_n.contr.Idx) :
    (dot_S1024x128_S128x128_S1024x128_1_1_0_0_n_n.rhsIdx i q 0).val = (i 1).val := by
  unfold DotDims.rhsIdx
  rw [dif_neg (show ¬(0 : Fin S128x128.rank) ∈ dot_S1024x128_S128x128_S1024x128_1_1_0_0_n_n.rhsBatch by decide),
    dif_pos (show (0 : Fin S128x128.rank) ∈ dot_S1024x128_S128x128_S1024x128_1_1_0_0_n_n.rhsNonContracting by decide)]
  rfl
theorem mm_rhs1 (i : S1024x128.Idx) (q : dot_S1024x128_S128x128_S1024x128_1_1_0_0_n_n.contr.Idx) :
    (dot_S1024x128_S128x128_S1024x128_1_1_0_0_n_n.rhsIdx i q 1).val = (q ⟨0, by decide⟩).val :=
  dot_S1024x128_S128x128_S1024x128_1_1_0_0_n_n.rhsIdx_val_of_single rfl i q

/-- The 1024 × 128 by (128 × 128)ᵀ product into a zero start, at (p, o): the sum over the 128 inputs of row `p`
    against row `o` of the weights. -/
theorem mm_apply (x : FVec Ideal S1024x128 .bf16) (w : FVec Ideal S128x128 .bf16) (p : Fin 1024) (o : Fin 128) :
    matmul dot_S1024x128_S128x128_S1024x128_1_1_0_0_n_n none x w (constant (F := Ideal) S1024x128 .f32 0x00000000#32) (ix2 p o)
      = ∑ i : Fin 128, x (ix2 p i) * w (ix2 o i) := by
  simp only [matmul]
  rw [Ideal.matmul_constant_zero_apply,
    ← Equiv.sum_comp (contrEquiv1 dot_S1024x128_S128x128_S1024x128_1_1_0_0_n_n 128 rfl rfl).symm]
  refine Finset.sum_congr rfl fun k _ => ?_
  have hk := contrEquiv1_symm_val dot_S1024x128_S128x128_S1024x128_1_1_0_0_n_n 128 rfl rfl k
  have el : dot_S1024x128_S128x128_S1024x128_1_1_0_0_n_n.lhsIdx (ix2 p o)
      ((contrEquiv1 dot_S1024x128_S128x128_S1024x128_1_1_0_0_n_n 128 rfl rfl).symm k) = ix2 p k :=
    funext fun a => Fin.ext (by
      match a with
      | ⟨0, _⟩ => exact mm_lhs0 _ _
      | ⟨1, _⟩ => exact (mm_lhs1 _ _).trans hk)
  have er : dot_S1024x128_S128x128_S1024x128_1_1_0_0_n_n.rhsIdx (ix2 p o)
      ((contrEquiv1 dot_S1024x128_S128x128_S1024x128_1_1_0_0_n_n 128 rfl rfl).symm k) = ix2 o k :=
    funext fun a => Fin.ext (by
      match a with
      | ⟨0, _⟩ => exact mm_rhs0 _ _
      | ⟨1, _⟩ => exact (mm_rhs1 _ _).trans hk)
  rw [el, er]

/-- The last step's features: the row's 128 inputs against each row of the weights, plus the bias, through the leaky
    rectifier, scaled by the row's inverse square root of the degree. -/
theorem pay0_x_apply (v13 : Vec Ideal S8x128 .f32) (v20 : Vec Ideal S8x128x128 .f32) (v23 : Vec Ideal S128x128 .f32)
    (v27 : Vec Ideal S128 .f32) (b : Fin 8) (r : Fin 128) (o : Fin 128) :
    k0_pay4 (F := Ideal) v13 v20 v23 v27 (ix3 b r o)
      = leaky ((∑ i : Fin 128, v20 (ix3 b r i) * v23 (ix2 o i)) + v27 (ix1 o)) * dinvOf (v13 (ix2 b r)) := by
  unfold k0_pay4 leaky
  simp only [truncf_apply, mulf_apply, select_apply, cmpf_apply, addf_apply, broadcast_apply, bcast_col_128,
    col_of_row_128, pay0_dinv_apply, bcast_bias, bias_as_111, block_of_flat]
  rw [mm_apply]
  simp only [flat_of_block, truncf_apply]
  rfl

end Cert.Body

end
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.KIR0Value.lean ====
/-
  The first call's two outputs after its run, entry by entry on the extended reals.

  The call's points are numbered t = 4·(row tile) + (column step). At point t the adjacency's block is rows
  128·(t/4) … and columns 1024·(t%4) … of the adjacency matrix, the features' block is rows 128·(t/4) … of the
  features, and the weights and the bias are read whole. The accumulator restarts at every column step 0 and gains one
  column block's row sums per step, so after column step q it holds the sum of the row's first q + 1 column blocks, and
  after the last step the whole row's sum: the node's degree. The outputs are written back at the last column step of
  each row tile only; there the first is the inverse square root of the degree (zero where the degree is not
  positive) and the second the rectified linear features of the node scaled by it. The 32 row tiles cover the 4096
  nodes, so both output arrays end at those values everywhere.
-/
import proofs.«177266_j89043261980850_2_alg».proof.Proof.KIR0Pieces
import proofs.«177266_j89043261980850_2_alg».proof.Proof.Payloads0
import proofs.«177266_j89043261980850_2_alg».proof.Proof.LibSumBlocks
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Scalars Cert.Body Idealize.ShloMosaic.ValueIdx

variable (V : (c : Dev nD) → (b : Ref sig .tc) → Buf (Elt Ideal) ((c : Thread nD τ).loc b))

/-! ## The windows' block indices, and the blocks at coordinates -/

/-- The block index of every window at point `t` (row tile `t / 4`, column step `t % 4`): the adjacency tile moves
    along rows with the tile and along columns with the step; the features and the two outputs move with the tile only;
    the weights and the bias are whole. -/
theorem idx_facts0 : ∀ t : Fin cfg0.N,
    win0_0.index t (0 : Fin 3) = 0 ∧ win0_0.index t (1 : Fin 3) = t.val / 4 ∧ win0_0.index t (2 : Fin 3) = t.val % 4
    ∧ win0_1.index t (0 : Fin 3) = 0 ∧ win0_1.index t (1 : Fin 3) = t.val / 4 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = t.val / 4
    ∧ win0_5.index t (0 : Fin 3) = 0 ∧ win0_5.index t (1 : Fin 3) = t.val / 4 ∧ win0_5.index t (2 : Fin 3) = 0 :=
  (by decide +kernel : ∀ t : Fin grid0.N, _)

/-- The adjacency block at point `t`: rows 128·(t/4) …, columns 1024·(t%4) … of the adjacency matrix. -/
theorem iblk0_0_apply (c : Dev nD) (t : Fin cfg0.N) (x : S8x128x1024.Idx) (k : S8x4096x4096.Idx)
    (hk0 : (k 0).val = (x 0).val) (hk1 : (k 1).val = 128 * (t.val / 4) + (x 1).val)
    (hk2 : (k 2).val = 1024 * (t.val % 4) + (x 2).val) :
    (iblk0 V c 0 t : Vec Ideal S8x128x1024 .f32) x = (V c main_arg1 : S8x4096x4096.Idx → EReal) k := by
  obtain ⟨e0, e1, e2, -⟩ := idx_facts0 t
  unfold iblk0
  rw [View.read_apply]
  show V c main_arg1 _ = V c main_arg1 _
  congr 1
  funext a
  apply Fin.ext
  match a with
  | ⟨0, _⟩ => show win0_0.index t 0 * 8 + 1 * (x 0).val = (k 0).val; rw [e0, hk0]; omega
  | ⟨1, _⟩ => show win0_0.index t 1 * 128 + 1 * (x 1).val = (k 1).val; rw [e1, hk1]; omega
  | ⟨2, _⟩ => show win0_0.index t 2 * 1024 + 1 * (x 2).val = (k 2).val; rw [e2, hk2]; omega

/-- The features block at point `t`: rows 128·(t/4) … of the features. -/
theorem iblk0_1_apply (c : Dev nD) (t : Fin cfg0.N) (x : S8x128x128.Idx) (k : S8x4096x128.Idx)
    (hk0 : (k 0).val = (x 0).val) (hk1 : (k 1).val = 128 * (t.val / 4) + (x 1).val) (hk2 : (k 2).val = (x 2).val) :
    (iblk0 V c 1 t : Vec Ideal S8x128x128 .f32) x = (V c main_arg0 : S8x4096x128.Idx → EReal) k := by
  obtain ⟨-, -, -, e0, e1, e2, -⟩ := idx_facts0 t
  unfold iblk0
  rw [View.read_apply]
  show V c main_arg0 _ = V c main_arg0 _
  congr 1
  funext a
  apply Fin.ext
  match a with
  | ⟨0, _⟩ => show win0_1.index t 0 * 8 + 1 * (x 0).val = (k 0).val; rw [e0, hk0]; omega
  | ⟨1, _⟩ => show win0_1.index t 1 * 128 + 1 * (x 1).val = (k 1).val; rw [e1, hk1]; omega
  | ⟨2, _⟩ => show win0_1.index t 2 * 128 + 1 * (x 2).val = (k 2).val; rw [e2, hk2]; omega

/-- The weights' block at every point is the whole weight matrix. -/
theorem iblk0_2_apply (c : Dev nD) (t : Fin cfg0.N) (x : S128x128.Idx) :
    (iblk0 V c 2 t : Vec Ideal S128x128 .f32) x = (V c main_arg2 : S128x128.Idx → EReal) x := by
  obtain ⟨-, -, -, -, -, -, e0, e1, -⟩ := idx_facts0 t
  unfold iblk0
  rw [View.read_apply]
  show V c main_arg2 _ = V c main_arg2 _
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The bias's block at every point is the whole bias. -/
theorem iblk0_3_apply (c : Dev nD) (t : Fin cfg0.N) (x : S128.Idx) :
    (iblk0 V c 3 t : Vec Ideal S128 .f32) x = (V c main_arg3 : S128.Idx → EReal) x := by
  obtain ⟨-, -, -, -, -, -, -, -, e0, -⟩ := idx_facts0 t
  unfold iblk0
  rw [View.read_apply]
  show V c main_arg3 _ = V c main_arg3 _
  congr 1
  funext a
  apply Fin.ext
  match a with
  | ⟨0, _⟩ => show win0_3.index t 0 * 128 + 1 * (x 0).val = (x 0).val; rw [e0]; omega

/-! ## The accumulator, point by point -/

/-- The 4 blocks of 1024 columns make the 4096 columns. -/
theorem h4 : 4 * 1024 = 4096 := by norm_num

/-- The adjacency matrix as the call finds it, and its block at point `t`, as extended reals. -/
abbrev adjV0 (c : Dev nD) : S8x4096x4096.Idx → EReal := V c main_arg1
/-- The features, the weights and the bias as the call finds them, as extended reals. -/
abbrev featsV (c : Dev nD) : S8x4096x128.Idx → EReal := V c main_arg0
abbrev wV (c : Dev nD) : S128x128.Idx → EReal := V c main_arg2
abbrev biasV (c : Dev nD) : S128.Idx → EReal := V c main_arg3
abbrev adjBlk (c : Dev nD) (t : Fin cfg0.N) : S8x128x1024.Idx → EReal := iblk0 V c 0 t

/-- The sum of row `n` of graph `b` of the adjacency over the 1024 columns of column block `j`. -/
def colBlockSum (c : Dev nD) (b : Fin 8) (n : Fin 4096) (j : Fin 4) : EReal :=
  ∑ k : Fin 1024, adjV0 V c (ix3 b n (SumBlocks.idx h4 j k))

/-- The row sums of the adjacency block at point `s` are the sums over column block `s % 4` of rows 128·(s/4) …. -/
theorem blk_sum (c : Dev nD) (s : ℕ) (hs : s < cfg0.N) (b : Fin 8) (r : Fin 128) (n : Fin 4096)
    (hn : n.val = 128 * (s / 4) + r.val) (j : Fin 4) (hj : j.val = s % 4) :
    ∑ k : Fin 1024, adjBlk V c ⟨s, hs⟩ (ix3 b r k) = colBlockSum V c b n j := by
  unfold colBlockSum
  refine Finset.sum_congr rfl fun k _ => ?_
  refine iblk0_0_apply V c ⟨s, hs⟩ (ix3 b r k) (ix3 b n (SumBlocks.idx h4 j k)) rfl hn ?_
  show j.val * 1024 + k.val = 1024 * (s % 4) + k.val
  rw [hj]; omega

/-- The accumulator after point `s`, at row `r` of graph `b`, as an extended real. -/
abbrev accAt (c : Dev nD) (s : ℕ) (hs : s < cfg0.N) (b : Fin 8) (r : Fin 128) : EReal :=
  ((outsAt0 V c s hs).2.2 : Vec Ideal S8x128 .f32) (ix2 b r)

/-- At column step 0 the accumulator ends at the block's row sums. -/
theorem acc_step_A (c : Dev nD) (s : ℕ) (hs : s < cfg0.N) (h0 : s % 4 = 0) (b : Fin 8) (r : Fin 128) :
    accAt V c s hs b r = ∑ k : Fin 1024, adjBlk V c ⟨s, hs⟩ (ix3 b r k) := by
  unfold accAt
  rw [outsAt0_A V c ⟨s, hs⟩ h0 (by show ¬ s % 4 = 3; omega)]
  dsimp only
  rw [sout0_A_eq]
  refine (pay0_acc_apply _ _ b r).trans ?_
  exact (congrArg (· + _) (pay0_init_apply _)).trans (zero_add _)

/-- At every later column step it ends at what the point before left plus the block's row sums. -/
theorem acc_step_BC (c : Dev nD) (s : ℕ) (hs : s < cfg0.N) (h0 : ¬s % 4 = 0) (b : Fin 8) (r : Fin 128) :
    accAt V c s hs b r
      = accAt V c (s - 1) (Nat.lt_of_le_of_lt (Nat.sub_le _ _) hs) b r + ∑ k : Fin 1024, adjBlk V c ⟨s, hs⟩ (ix3 b r k) := by
  unfold accAt
  by_cases h1 : s % 4 = 3
  · rw [outsAt0_C V c ⟨s, hs⟩ h0 h1]
    dsimp only
    rw [sout0_C_eq]
    exact pay0_acc_apply _ _ b r
  · rw [outsAt0_B V c ⟨s, hs⟩ h0 h1]
    dsimp only
    rw [sout0_B_eq]
    exact pay0_acc_apply _ _ b r

/-- After a point of column step 0: the first column block's sum. -/
theorem acc_q0 (c : Dev nD) (s : ℕ) (hs : s < cfg0.N) (h : s % 4 = 0) (b : Fin 8) (r : Fin 128) (n : Fin 4096)
    (hn : n.val = 128 * (s / 4) + r.val) :
    accAt V c s hs b r = colBlockSum V c b n 0 :=
  (acc_step_A V c s hs h b r).trans (blk_sum V c s hs b r n hn 0 (by rw [h]; rfl))

/-- After a point of column step 1: the first two column blocks' sums. -/
theorem acc_q1 (c : Dev nD) (s : ℕ) (hs : s < cfg0.N) (h : s % 4 = 1) (b : Fin 8) (r : Fin 128) (n : Fin 4096)
    (hn : n.val = 128 * (s / 4) + r.val) :
    accAt V c s hs b r = colBlockSum V c b n 0 + colBlockSum V c b n 1 := by
  rw [acc_step_BC V c s hs (by omega) b r, blk_sum V c s hs b r n hn 1 (by rw [h]; rfl),
    acc_q0 V c (s - 1) _ (by omega) b r n (by omega)]

/-- After a point of column step 2: the first three column blocks' sums. -/
theorem acc_q2 (c : Dev nD) (s : ℕ) (hs : s < cfg0.N) (h : s % 4 = 2) (b : Fin 8) (r : Fin 128) (n : Fin 4096)
    (hn : n.val = 128 * (s / 4) + r.val) :
    accAt V c s hs b r = colBlockSum V c b n 0 + colBlockSum V c b n 1 + colBlockSum V c b n 2 := by
  rw [acc_step_BC V c s hs (by omega) b r, blk_sum V c s hs b r n hn 2 (by rw [h]; rfl),
    acc_q1 V c (s - 1) _ (by omega) b r n (by omega)]

/-- The four column blocks' sums make the whole row's sum. -/
theorem row_sum_eq (c : Dev nD) (b : Fin 8) (n : Fin 4096) :
    colBlockSum V c b n 0 + colBlockSum V c b n 1 + colBlockSum V c b n 2 + colBlockSum V c b n 3
      = ∑ m : Fin 4096, adjV0 V c (ix3 b n m) := by
  rw [SumBlocks.sum_eq h4 (fun m => adjV0 V c (ix3 b n m)), Fin.sum_univ_four]
  rfl

/-- After a point of the last column step: the whole row's sum, the degree of node `n` of graph `b`. -/
theorem acc_q3 (c : Dev nD) (s : ℕ) (hs : s < cfg0.N) (h : s % 4 = 3) (b : Fin 8) (r : Fin 128) (n : Fin 4096)
    (hn : n.val = 128 * (s / 4) + r.val) :
    accAt V c s hs b r = ∑ m : Fin 4096, adjV0 V c (ix3 b n m) := by
  rw [acc_step_BC V c s hs (by omega) b r, blk_sum V c s hs b r n hn 3 (by rw [h]; rfl),
    acc_q2 V c (s - 1) _ (by omega) b r n (by omega)]
  exact row_sum_eq V c b n

/-! ## The two outputs after the run -/

/-- What the first output ends holding: at node `n` of graph `b`, the inverse square root of the node's degree
    where the degree is positive, zero elsewhere. -/
abbrev dinvG (c : Dev nD) : S8x4096.Idx → EReal := fun j =>
  dinvOf (∑ m : Fin 4096, adjV0 V c (ix3 (j 0) (j 1) m))

/-- What the second output ends holding: the node's rectified linear features scaled by that inverse square root. -/
abbrev xsG (c : Dev nD) : S8x4096x128.Idx → EReal := fun j =>
  leaky ((∑ i : Fin 128, featsV V c (ix3 (j 0) (j 1) i) * wV V c (ix2 (j 2) i)) + biasV V c (ix1 (j 2)))
    * dinvOf (∑ m : Fin 4096, adjV0 V c (ix3 (j 0) (j 1) m))

/-- The finished degree at a point of the last column step: what the accumulator held plus the block's row sums is
    the whole row's sum. -/
theorem deg_C (c : Dev nD) (t : Fin cfg0.N) (h3 : t.val % 4 = 3) (b : Fin 8) (r : Fin 128) (n : Fin 4096)
    (hn : n.val = 128 * (t.val / 4) + r.val) :
    (k0_pay2 (F := Ideal) ((outsAt0 V c (t.val - 1) (Nat.lt_of_le_of_lt (Nat.sub_le _ _) t.isLt)).2.2) (iblk0 V c 0 t) (ix2 b r) : EReal)
      = ∑ m : Fin 4096, adjV0 V c (ix3 b n m) := by
  refine (pay0_acc_apply _ _ b r).trans ?_
  have e1 := acc_q2 V c (t.val - 1) (Nat.lt_of_le_of_lt (Nat.sub_le _ _) t.isLt) (by omega) b r n (by omega)
  have e2 := blk_sum V c t.val t.isLt b r n hn 3 (by rw [h3]; rfl)
  exact (congrArg₂ (· + ·) e1 e2).trans (row_sum_eq V c b n)

/-- What a point of the last column step writes back into the first output is its block of `dinvG`. -/
theorem flushed0_4_eq (c : Dev nD) (t : Fin cfg0.N) (hf : (cfg0.win 4).flush t = true) :
    (dat0 V c).flushed 4 t = ((cfg0.win 4).blk t).view.read (Elt Ideal) (dinvG V c) := by
  have h3 : t.val % 4 = 3 := (flush0_4 t).mp hf
  have hN : cfg0.N = 128 := N_0
  have htl := t.isLt
  obtain ⟨-, -, -, -, -, -, -, -, -, e0, e1, -⟩ := idx_facts0 t
  show (cfg0.win 4).cut (grid0.coords t) ((dat0 V c).after 4 t) = _
  rw [after0_4, outsAt0_C V c t (by omega) h3]
  dsimp only
  rw [out0_C_4_eq]
  refine funext fun (y : S8x128.Idx) => ?_
  obtain ⟨b, r, rfl⟩ : ∃ (b : Fin 8) (r : Fin 128), y = ix2 b r := ⟨y 0, y 1, eq_ix2 y⟩
  rw [View.read_apply]
  have hr := r.isLt
  obtain ⟨n, hn⟩ : ∃ n : Fin 4096, n.val = 128 * (t.val / 4) + r.val := ⟨⟨128 * (t.val / 4) + r.val, by omega⟩, rfl⟩
  have hemb : ((cfg0.win 4).blk t).view.emb (ix2 b r) = (ix2 b n : S8x4096.Idx) := funext fun a => Fin.ext (by
    match a with
    | ⟨0, _⟩ => show win0_4.index t 0 * 8 + 1 * b.val = b.val; rw [e0]; omega
    | ⟨1, _⟩ => show win0_4.index t 1 * 128 + 1 * r.val = n.val; rw [e1, hn]; omega)
  rw [hemb]
  refine (pay0_dinv_apply _ b r).trans ?_
  exact congrArg dinvOf (deg_C V c t h3 b r n hn)

/-- What a point of the last column step writes back into the second output is its block of `xsG`. -/
theorem flushed0_5_eq (c : Dev nD) (t : Fin cfg0.N) (hf : (cfg0.win 5).flush t = true) :
    (dat0 V c).flushed 5 t = ((cfg0.win 5).blk t).view.read (Elt Ideal) (xsG V c) := by
  have h3 : t.val % 4 = 3 := (flush0_5 t).mp hf
  have hN : cfg0.N = 128 := N_0
  have htl := t.isLt
  obtain ⟨-, -, -, -, -, -, -, -, -, -, -, e0, e1, e2⟩ := idx_facts0 t
  show (cfg0.win 5).cut (grid0.coords t) ((dat0 V c).after 5 t) = _
  rw [after0_5, outsAt0_C V c t (by omega) h3]
  dsimp only
  rw [out0_C_5_eq]
  refine funext fun (y : S8x128x128.Idx) => ?_
  obtain ⟨b, r, o, rfl⟩ : ∃ (b : Fin 8) (r : Fin 128) (o : Fin 128), y = ix3 b r o := ⟨y 0, y 1, y 2, eq_ix3 y⟩
  rw [View.read_apply]
  have hr := r.isLt
  obtain ⟨n, hn⟩ : ∃ n : Fin 4096, n.val = 128 * (t.val / 4) + r.val := ⟨⟨128 * (t.val / 4) + r.val, by omega⟩, rfl⟩
  have hemb : ((cfg0.win 5).blk t).view.emb (ix3 b r o) = (ix3 b n o : S8x4096x128.Idx) := funext fun a => Fin.ext (by
    match a with
    | ⟨0, _⟩ => show win0_5.index t 0 * 8 + 1 * b.val = b.val; rw [e0]; omega
    | ⟨1, _⟩ => show win0_5.index t 1 * 128 + 1 * r.val = n.val; rw [e1, hn]; omega
    | ⟨2, _⟩ => show win0_5.index t 2 * 128 + 1 * o.val = o.val; rw [e2]; omega)
  rw [hemb]
  refine (pay0_x_apply _ _ _ _ b r o).trans ?_
  have h1 : ∀ i : Fin 128, (iblk0 V c 1 t : Vec Ideal S8x128x128 .f32) (ix3 b r i)
      = (V c main_arg0 : S8x4096x128.Idx → EReal) (ix3 b n i) := fun i => iblk0_1_apply V c t _ _ rfl hn rfl
  rw [deg_C V c t h3 b r n hn]
  simp only [h1, iblk0_2_apply, iblk0_3_apply]
  try rfl

/-- An entry of the first output lies in point `t`'s block iff each coordinate lies in the block's range. -/
theorem mem_blk0_4 (t : Fin cfg0.N) (i : S8x4096.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v0_0).slice (win0_4.rect t)).set ↔ _
  rw [View.set_slice_whole, Rect.mem_set_unit]
  exact Iff.rfl

/-- An entry of the second output lies in point `t`'s block iff each coordinate lies in the block's range. -/
theorem mem_blk0_5 (t : Fin cfg0.N) (i : S8x4096x128.Idx) :
    i ∈ ((cfg0.win 5).blk t).view.set ↔ ∀ a : Fin 3, win0_5.index t a * S8x128x128.size a ≤ (i a).val ∧ (i a).val < win0_5.index t a * S8x128x128.size a + S8x128x128.size a := by
  show i ∈ ((View.whole main_v0_1).slice (win0_5.rect t)).set ↔ _
  rw [View.set_slice_whole, Rect.mem_set_unit]
  exact Iff.rfl

/-- Every entry of the first output is written back by the last column step of its row tile. -/
theorem cover0_4 (i : S8x4096.Idx) : ∃ t : Fin cfg0.N, (cfg0.win 4).flush t = true ∧ i ∈ ((cfg0.win 4).blk t).view.set := by
  have hN : cfg0.N = 128 := N_0
  have h0 : (i 0).val < 8 := (i 0).isLt
  have h1 : (i 1).val < 4096 := (i 1).isLt
  obtain ⟨t, ht⟩ : ∃ t : Fin cfg0.N, t.val = 4 * ((i 1).val / 128) + 3 := ⟨⟨4 * ((i 1).val / 128) + 3, by rw [hN]; omega⟩, rfl⟩
  obtain ⟨-, -, -, -, -, -, -, -, -, e0, e1, -⟩ := idx_facts0 t
  refine ⟨t, (flush0_4 t).mpr (by omega), ?_⟩
  rw [mem_blk0_4]
  intro a
  match a with
  | ⟨0, _⟩ => show win0_4.index t 0 * 8 ≤ (i 0).val ∧ (i 0).val < win0_4.index t 0 * 8 + 8; rw [e0]; omega
  | ⟨1, _⟩ => show win0_4.index t 1 * 128 ≤ (i 1).val ∧ (i 1).val < win0_4.index t 1 * 128 + 128; rw [e1]; omega

/-- Every entry of the second output is written back by the last column step of its row tile. -/
theorem cover0_5 (i : S8x4096x128.Idx) : ∃ t : Fin cfg0.N, (cfg0.win 5).flush t = true ∧ i ∈ ((cfg0.win 5).blk t).view.set := by
  have hN : cfg0.N = 128 := N_0
  have h0 : (i 0).val < 8 := (i 0).isLt
  have h1 : (i 1).val < 4096 := (i 1).isLt
  have h2 : (i 2).val < 128 := (i 2).isLt
  obtain ⟨t, ht⟩ : ∃ t : Fin cfg0.N, t.val = 4 * ((i 1).val / 128) + 3 := ⟨⟨4 * ((i 1).val / 128) + 3, by rw [hN]; omega⟩, rfl⟩
  obtain ⟨-, -, -, -, -, -, -, -, -, -, -, e0, e1, e2⟩ := idx_facts0 t
  refine ⟨t, (flush0_5 t).mpr (by omega), ?_⟩
  rw [mem_blk0_5]
  intro a
  match a with
  | ⟨0, _⟩ => show win0_5.index t 0 * 8 ≤ (i 0).val ∧ (i 0).val < win0_5.index t 0 * 8 + 8; rw [e0]; omega
  | ⟨1, _⟩ => show win0_5.index t 1 * 128 ≤ (i 1).val ∧ (i 1).val < win0_5.index t 1 * 128 + 128; rw [e1]; omega
  | ⟨2, _⟩ => show win0_5.index t 2 * 128 ≤ (i 2).val ∧ (i 2).val < win0_5.index t 2 * 128 + 128; rw [e2]; omega

/-- After the first call its first output holds, at node `n` of graph `b`, the inverse square root of the node's
    degree (the sum of the node's row of the adjacency) where that is positive, zero elsewhere. -/
theorem dinv_final (c : Dev nD) (b : Fin 8) (n : Fin 4096) :
    ((dat0 (F := Ideal) V c).arrAt 4 cfg0.N : S8x4096.Idx → EReal) (ix2 b n)
      = dinvOf (∑ m : Fin 4096, adjV0 V c (ix3 b n m)) :=
  congrFun ((dat0 V c).arrAt_eq_of_cover 4 (dinvG V c) (flushed0_4_eq V c) cover0_4) (ix2 b n)

/-- After the first call its second output holds, at node `n` of graph `b` and output `o`, the node's rectified linear
    feature scaled by that inverse square root. -/
theorem xs_final (c : Dev nD) (b : Fin 8) (n : Fin 4096) (o : Fin 128) :
    ((dat0 (F := Ideal) V c).arrAt 5 cfg0.N : S8x4096x128.Idx → EReal) (ix3 b n o)
      = leaky ((∑ i : Fin 128, featsV V c (ix3 b n i) * wV V c (ix2 o i)) + biasV V c (ix1 o))
        * dinvOf (∑ m : Fin 4096, adjV0 V c (ix3 b n m)) :=
  congrFun ((dat0 V c).arrAt_eq_of_cover 5 (xsG V c) (flushed0_5_eq V c) cover0_5) (ix3 b n o)

end Cert.KernelIdeal.Hand

end
-- ==== Proof.KIR1Pieces.lean ====
/-
  The second call's body, read back as arithmetic of the blocks it loads, and those blocks as parts of the arrays.

  At a point of row tile q and column step s the body loads the adjacency block (rows 256·q …, columns 1024·s …), the
  rows 1024·s … of the whole scaled-feature array, and, at the last step, the row factors 256·q ….
  What it leaves in the accumulator is the previous accumulator (zero at step 0) plus the product of the adjacency
  block with those feature rows; what it leaves in the output at the last step is the finished accumulator scaled by
  the row factors and normalised along the last axis. Each is the payload of ONE store covering the whole buffer.
-/
import proofs.«177266_j89043261980850_2_alg».proof.Proof.KIR1Frame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-- The zero offsets, however they are spelt. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The 1024 rows of the scaled features that column step `i 1` multiplies the adjacency block with: the whole
    array read through the rectangle of rows `1024 · step … 1024 · step + 1023`. -/
def xsl (i : grid1.Coords) (x1 : Vec F S8x4096x128 .bf16) : Vec F S8x1024x128 .bf16 :=
  View.ld x1 (Rect.unit (s := S8x4096x128) (k1_off1 i) S8x1024x128.size (k1_off1_inb i))

/-- Column step 0: the accumulator is zeroed and gains the block's product. -/
theorem sout1_A_eq (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : cond1_0 i) (hc1 : ¬cond1_1 i) (x0 : Vec F S8x256x1024 .f32) (x1 : Vec F S8x4096x128 .bf16) (x2 : Vec F S8x256 .f32) :
    sout1_A c i arg2 harg2 arg3 harg3 arg4 harg4 arg5 harg5 arg6 harg6 hc0 hc1 x0 x1 x2 = k1_pay2 x0 (xsl i x1) (k1_pay1 (F := F)) := by
  unfold sout1_A
  rw [View.read_writes_eq_canon _ _ _ (scover1_A c i arg2 harg2 arg3 harg3 arg4 harg4 arg5 harg5 arg6 harg6 hc0 hc1 x0 x1 x2)]
  unfold kernelRun1_A
  dsimp only
  try sl_unfold_words
  rw [View.canon_cons_unit_zero (S := S8x256x128) hz3, View.readCov_unit_zero (S := S8x256x128) _ hz3]
  simp only [View.readAt_eq_ld, harg2.read_unread, harg3.read_unread, View.ld_unit_zero (S := S8x256x1024) hz3]
  rfl

/-- Column steps 1 and 2: the accumulator gains the block's product. -/
theorem sout1_B_eq (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : ¬cond1_1 i) (x0 : Vec F S8x256x1024 .f32) (x1 : Vec F S8x4096x128 .bf16) (x2 : Vec F S8x256 .f32) (xs0 : Vec F S8x256x128 .f32) :
    sout1_B c i arg2 harg2 arg3 harg3 arg4 harg4 arg5 harg5 arg6 harg6 hc0 hc1 x0 x1 x2 xs0 = k1_pay2 x0 (xsl i x1) xs0 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  try sl_unfold_words
  rw [View.canon_unit_zero hz3]
  simp only [View.readAt_eq_ld, harg2.read_unread, harg3.read_unread, harg6.read_unread, View.ld_unit_zero (S := S8x256x1024) hz3, View.ld_unit_zero (S := S8x256x128) hz3]
  rfl

/-- The last column step: the accumulator gains the block's product once more. -/
theorem sout1_C_eq (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : cond1_1 i) (x0 : Vec F S8x256x1024 .f32) (x1 : Vec F S8x4096x128 .bf16) (x2 : Vec F S8x256 .f32) (xs0 : Vec F S8x256x128 .f32) :
    sout1_C c i arg2 harg2 arg3 harg3 arg4 harg4 arg5 harg5 arg6 harg6 hc0 hc1 x0 x1 x2 xs0 = k1_pay2 x0 (xsl i x1) xs0 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  try sl_unfold_words
  rw [View.canon_unit_zero hz3]
  simp only [View.readAt_eq_ld, harg2.read_unread, harg3.read_unread, harg6.read_unread, View.ld_unit_zero (S := S8x256x1024) hz3, View.ld_unit_zero (S := S8x256x128) hz3]
  rfl

/-- The last column step's output: the finished accumulator, scaled by the rows' factors and normalised. -/
theorem out1_C_3_eq (c : Dev nD) (i : grid1.Coords) (arg2 : Memref sig .tc .vmem S8x256x1024 .f32) (harg2 : arg2.IsWhole) (arg3 : Memref sig .tc .vmem S8x4096x128 .bf16) (harg3 : arg3.IsWhole) (arg4 : Memref sig .tc .vmem S8x256 .f32) (harg4 : arg4.IsWhole) (arg5 : Memref sig .tc .vmem S8x256x128 .f32) (harg5 : arg5.IsWhole) (arg6 : Memref sig .tc .vmem S8x256x128 .f32) (harg6 : arg6.IsWhole) (hc0 : ¬cond1_0 i) (hc1 : cond1_1 i) (x0 : Vec F S8x256x1024 .f32) (x1 : Vec F S8x4096x128 .bf16) (x2 : Vec F S8x256 .f32) (xs0 : Vec F S8x256x128 .f32) :
    out1_C_3 c i arg2 harg2 arg3 harg3 arg4 harg4 arg5 harg5 arg6 harg6 hc0 hc1 x0 x1 x2 xs0 = k1_pay3 x2 (k1_pay2 x0 (xsl i x1) xs0) := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  try sl_unfold_words
  rw [View.canon_unit_zero hz3, View.readCov_unit_zero (S := S8x256x128) _ hz3]
  simp only [View.readAt_eq_ld, harg2.read_unread, harg3.read_unread, harg4.read_unread, harg6.read_unread, View.ld_unit_zero (S := S8x256x1024) hz3, View.ld_unit_zero (S := S8x256x128) hz3, View.ld_unit_zero (S := S8x256) hz2]
  rfl

/-! ## The loaded rows and the windows' blocks, at coordinates -/

/-- The row offset of the features' rows a column step reads: 1024 times the step. -/
theorem off1_val : ∀ s : Fin 4, (Scalar.indexCast (Scalar.muli (BitVec.ofNat 32 s.val) 1024#32)).toNat = 1024 * s.val := by decide

/-- The rows read at column step `i 1`, entry by entry: row `k` of the 1024 is row `1024 · step + k` of the whole. -/
theorem xsl_apply (i : grid1.Coords) (x1 : Vec F S8x4096x128 .bf16) (b : Fin 8) (k : Fin 1024) (o : Fin 128) :
    xsl i x1 (ix3 b k o) = x1 (ix3 b ⟨1024 * (i 1).val + k.val, by have h4 : (i 1).val < 4 := (i 1).isLt; have := k.isLt; omega⟩ o) := by
  have h4 : (i 1).val < 4 := (i 1).isLt
  have e1 : k1_off1 i 1 = 1024 * (i 1).val := off1_val ⟨(i 1).val, h4⟩
  unfold xsl
  show x1 _ = x1 _
  congr 1
  funext a; apply Fin.ext
  match a with
  | ⟨0, _⟩ => show k1_off1 i 0 + 1 * b.val = b.val; show 0 + 1 * b.val = b.val; omega
  | ⟨1, _⟩ => show k1_off1 i 1 + 1 * k.val = 1024 * (i 1).val + k.val; rw [e1]; omega
  | ⟨2, _⟩ => show k1_off1 i 2 + 1 * o.val = o.val; show 0 + 1 * o.val = o.val; omega

/-- A point's number splits into its row tile and its column step. -/
theorem coords1_val : ∀ t : Fin cfg1.N, ((grid1.coords t) 0).val = t.val / 4 ∧ ((grid1.coords t) 1).val = t.val % 4 :=
  (by decide +kernel : ∀ t : Fin grid1.N, ((grid1.coords t) 0).val = t.val / 4 ∧ ((grid1.coords t) 1).val = t.val % 4)

/-- The windows' block indices at a point, decided over the grid. -/
theorem idx1_facts : ∀ t : Fin cfg1.N,
    (win1_0.index t (0 : Fin 3) = 0 ∧ win1_0.index t (1 : Fin 3) = t.val / 4 ∧ win1_0.index t (2 : Fin 3) = t.val % 4)
    ∧ (win1_1.index t (0 : Fin 3) = 0 ∧ win1_1.index t (1 : Fin 3) = 0 ∧ win1_1.index t (2 : Fin 3) = 0)
    ∧ (win1_2.index t (0 : Fin 2) = 0 ∧ win1_2.index t (1 : Fin 2) = t.val / 4)
    ∧ (win1_3.index t (0 : Fin 3) = 0 ∧ win1_3.index t (1 : Fin 3) = t.val / 4 ∧ win1_3.index t (2 : Fin 3) = 0) :=
  (by decide +kernel : ∀ t : Fin grid1.N, _)

variable (V : (c : Dev nD) → (b : Ref sig .tc) → Buf (Elt F) ((c : Thread nD τ).loc b))

/-- The adjacency's block at point `t`: rows `256 · (t / 4) …`, columns `1024 · (t % 4) …` of the array. -/
theorem iblk1_0_apply (c : Dev nD) (t : Fin cfg1.N) (b : Fin 8) (r : Fin 256) (k : Fin 1024) :
    (iblk1 V c 0 t : Vec F S8x256x1024 .f32) (ix3 b r k)
      = (V c main_arg1 : S8x4096x4096.Idx → Elt F .f32) (ix3 b ⟨256 * (t.val / 4) + r.val, by have := t.isLt; have : cfg1.N = 64 := N_1; have := r.isLt; omega⟩ ⟨1024 * (t.val % 4) + k.val, by have := k.isLt; omega⟩) := by
  obtain ⟨⟨e0, e1, e2⟩, -, -, -⟩ := idx1_facts t
  unfold iblk1
  rw [View.read_apply]
  show V c main_arg1 _ = V c main_arg1 _
  congr 1
  funext a; apply Fin.ext
  match a with
  | ⟨0, _⟩ => show win1_0.index t (0 : Fin 3) * 8 + 1 * b.val = b.val; rw [e0]; omega
  | ⟨1, _⟩ => show win1_0.index t (1 : Fin 3) * 256 + 1 * r.val = 256 * (t.val / 4) + r.val; rw [e1]; omega
  | ⟨2, _⟩ => show win1_0.index t (2 : Fin 3) * 1024 + 1 * k.val = 1024 * (t.val % 4) + k.val; rw [e2]; omega

/-- The scaled features' block at every point is the whole array. -/
theorem iblk1_1_eq (c : Dev nD) (t : Fin cfg1.N) :
    (iblk1 V c 1 t : Vec F S8x4096x128 .bf16) = (V c main_v0_1 : S8x4096x128.Idx → Elt F .bf16) := by
  obtain ⟨-, ⟨e0, e1, e2⟩, -, -⟩ := idx1_facts t
  funext x
  unfold iblk1
  rw [View.read_apply]
  show V c main_v0_1 _ = V c main_v0_1 _
  congr 1
  funext a; apply Fin.ext
  match a with
  | ⟨0, _⟩ => show win1_1.index t (0 : Fin 3) * 8 + 1 * (x 0).val = (x 0).val; rw [e0]; omega
  | ⟨1, _⟩ => show win1_1.index t (1 : Fin 3) * 4096 + 1 * (x 1).val = (x 1).val; rw [e1]; omega
  | ⟨2, _⟩ => show win1_1.index t (2 : Fin 3) * 128 + 1 * (x 2).val = (x 2).val; rw [e2]; omega

/-- The row factors' block at point `t`: rows `256 · (t / 4) …` of the array. -/
theorem iblk1_2_apply (c : Dev nD) (t : Fin cfg1.N) (b : Fin 8) (r : Fin 256) :
    (iblk1 V c 2 t : Vec F S8x256 .f32) (ix2 b r)
      = (V c main_v0_0 : S8x4096.Idx → Elt F .f32) (ix2 b ⟨256 * (t.val / 4) + r.val, by have := t.isLt; have : cfg1.N = 64 := N_1; have := r.isLt; omega⟩) := by
  obtain ⟨-, -, ⟨e0, e1⟩, -⟩ := idx1_facts t
  unfold iblk1
  rw [View.read_apply]
  show V c main_v0_0 _ = V c main_v0_0 _
  congr 1
  funext a; apply Fin.ext
  match a with
  | ⟨0, _⟩ => show win1_2.index t (0 : Fin 2) * 8 + 1 * b.val = b.val; rw [e0]; omega
  | ⟨1, _⟩ => show win1_2.index t (1 : Fin 2) * 256 + 1 * r.val = 256 * (t.val / 4) + r.val; rw [e1]; omega

end Cert.KernelIdeal.Hand

end
-- ==== Proof.Payloads1.lean ====
/-
  The second call's block arithmetic, read entry by entry on the extended reals.

  A block of that call holds, for 8 graphs, 256 rows of the adjacency matrix cut to 1024 columns, against the 1024
  matching rows of the scaled features. Its accumulator starts from zero and gains at every step, at row `r` and
  output `o`, the sum over the 1024 columns of the adjacency entry times the feature entry. At the last step the
  accumulated row is scaled by the row's inverse square root of the degree and normalised along its 128 entries:
  the mean is taken off and the result is divided by the square root of the variance plus a small constant.
-/
import proofs.«177266_j89043261980850_2_alg».proof.Proof.Gen.KernelIdeal.Skeleton
import proofs.«177266_j89043261980850_2_alg».proof.Proof.Scalars
import Idealize.ShloMosaic.Lib.ValueIdx
import Idealize.ShloMosaic.Lib.Pipeline.Value
import Idealize.ShloMosaic.Lib.ValueLayout
import Idealize.ShloMosaic.PureOps.Ideal.Laws

noncomputable section

namespace Cert.Body

open Idealize.ShloMosaic Idealize.ShloMosaic.ValueIdx Cert.KernelIdeal Cert.KernelIdeal.Gen Cert.Scalars

/-- The accumulator starts from zero at every entry. -/
theorem pay1_init_apply (j : S8x256x128.Idx) : k1_pay1 (F := Ideal) j = 0 := by
  unfold k1_pay1
  rw [shapeCast_self]
  exact Ideal.ofBits_zero_f32

/-! The operand entries of the batched product (graph axis shared, the adjacency's column axis against the features'
    row axis), one coordinate at a time. -/

theorem bmm_lhs0 (i : S8x256x128.Idx) (q : dot_S8x256x1024_S8x1024x128_S8x256x128_2_1_1_2_0_0.contr.Idx) :
    (dot_S8x256x1024_S8x1024x128_S8x256x128_2_1_1_2_0_0.lhsIdx i q 0).val = (i 0).val := by
  unfold DotDims.lhsIdx
  rw [dif_pos (show (0 : Fin S8x256x1024.rank) ∈ dot_S8x256x1024_S8x1024x128_S8x256x128_2_1_1_2_0_0.lhsBatch by decide)]
  rfl
theorem bmm_lhs1 (i : S8x256x128.Idx) (q : dot_S8x256x1024_S8x1024x128_S8x256x128_2_1_1_2_0_0.contr.Idx) :
    (dot_S8x256x1024_S8x1024x128_S8x256x128_2_1_1_2_0_0.lhsIdx i q 1).val = (i 1).val := by
  unfold DotDims.lhsIdx
  rw [dif_neg (show ¬(1 : Fin S8x256x1024.rank) ∈ dot_S8x256x1024_S8x1024x128_S8x256x128_2_1_1_2_0_0.lhsBatch by decide),
    dif_pos (show (1 : Fin S8x256x1024.rank) ∈ dot_S8x256x1024_S8x1024x128_S8x256x128_2_1_1_2_0_0.lhsNonContracting by decide)]
  rfl
theorem bmm_lhs2 (i : S8x256x128.Idx) (q : dot_S8x256x1024_S8x1024x128_S8x256x128_2_1_1_2_0_0.contr.Idx) :
    (dot_S8x256x1024_S8x1024x128_S8x256x128_2_1_1_2_0_0.lhsIdx i q 2).val = (q ⟨0, by decide⟩).val :=
  dot_S8x256x1024_S8x1024x128_S8x256x128_2_1_1_2_0_0.lhsIdx_val_of_single rfl i q
theorem bmm_rhs0 (i : S8x256x128.Idx) (q : dot_S8x256x1024_S8x1024x128_S8x256x128_2_1_1_2_0_0.contr.Idx) :
    (dot_S8x256x1024_S8x1024x128_S8x256x128_2_1_1_2_0_0.rhsIdx i q 0).val = (i 0).val := by
  unfold DotDims.rhsIdx
  rw [dif_pos (show (0 : Fin S8x1024x128.rank) ∈ dot_S8x256x1024_S8x1024x128_S8x256x128_2_1_1_2_0_0.rhsBatch by decide)]
  rfl
theorem bmm_rhs1 (i : S8x256x128.Idx) (q : dot_S8x256x1024_S8x1024x128_S8x256x128_2_1_1_2_0_0.contr.Idx) :
    (dot_S8x256x1024_S8x1024x128_S8x256x128_2_1_1_2_0_0.rhsIdx i q 1).val = (q ⟨0, by decide⟩).val :=
  dot_S8x256x1024_S8x1024x128_S8x256x128_2_1_1_2_0_0.rhsIdx_val_of_single rfl i q
theorem bmm_rhs2 (i : S8x256x128.Idx) (q : dot_S8x256x1024_S8x1024x128_S8x256x128_2_1_1_2_0_0.contr.Idx) :
    (dot_S8x256x1024_S8x1024x128_S8x256x128_2_1_1_2_0_0.rhsIdx i q 2).val = (i 2).val := by
  unfold DotDims.rhsIdx
  rw [dif_neg (show ¬(2 : Fin S8x1024x128.rank) ∈ dot_S8x256x1024_S8x1024x128_S8x256x128_2_1_1_2_0_0.rhsBatch by decide),
    dif_pos (show (2 : Fin S8x1024x128.rank) ∈ dot_S8x256x1024_S8x1024x128_S8x256x128_2_1_1_2_0_0.rhsNonContracting by decide)]
  rfl

/-- The batched product into a zero start, at graph `b`, row `r`, output `o`: the sum over the 1024 columns `k` of
    the left entry (b, r, k) times the right entry (b, k, o). -/
theorem bmm_apply (x : FVec Ideal S8x256x1024 .bf16) (y : FVec Ideal S8x1024x128 .bf16) (b : Fin 8) (r : Fin 256) (o : Fin 128) :
    matmul dot_S8x256x1024_S8x1024x128_S8x256x128_2_1_1_2_0_0 none x y (constant (F := Ideal) S8x256x128 .f32 0x00000000#32) (ix3 b r o)
      = ∑ k : Fin 1024, x (ix3 b r k) * y (ix3 b k o) := by
  simp only [matmul]
  rw [Ideal.matmul_constant_zero_apply,
    ← Equiv.sum_comp (contrEquiv1 dot_S8x256x1024_S8x1024x128_S8x256x128_2_1_1_2_0_0 1024 rfl rfl).symm]
  refine Finset.sum_congr rfl fun k _ => ?_
  have hk := contrEquiv1_symm_val dot_S8x256x1024_S8x1024x128_S8x256x128_2_1_1_2_0_0 1024 rfl rfl k
  have el : dot_S8x256x1024_S8x1024x128_S8x256x128_2_1_1_2_0_0.lhsIdx (ix3 b r o)
      ((contrEquiv1 dot_S8x256x1024_S8x1024x128_S8x256x128_2_1_1_2_0_0 1024 rfl rfl).symm k) = ix3 b r k :=
    funext fun a => Fin.ext (by
      match a with
      | ⟨0, _⟩ => exact bmm_lhs0 _ _
      | ⟨1, _⟩ => exact bmm_lhs1 _ _
      | ⟨2, _⟩ => exact (bmm_lhs2 _ _).trans hk)
  have er : dot_S8x256x1024_S8x1024x128_S8x256x128_2_1_1_2_0_0.rhsIdx (ix3 b r o)
      ((contrEquiv1 dot_S8x256x1024_S8x1024x128_S8x256x128_2_1_1_2_0_0 1024 rfl rfl).symm k) = ix3 b k o :=
    funext fun a => Fin.ext (by
      match a with
      | ⟨0, _⟩ => exact bmm_rhs0 _ _
      | ⟨1, _⟩ => exact (bmm_rhs1 _ _).trans hk
      | ⟨2, _⟩ => exact bmm_rhs2 _ _)
  rw [el, er]

/-- One step of the accumulator: its value so far plus the sum over this block's 1024 columns of adjacency entry times
    feature entry. -/
theorem pay1_acc_apply (v3 : Vec Ideal S8x256x1024 .f32) (v8 : Vec Ideal S8x1024x128 .bf16) (v11 : Vec Ideal S8x256x128 .f32)
    (b : Fin 8) (r : Fin 256) (o : Fin 128) :
    k1_pay2 (F := Ideal) v3 v8 v11 (ix3 b r o) = v11 (ix3 b r o) + ∑ k : Fin 1024, v3 (ix3 b r k) * v8 (ix3 b k o) := by
  unfold k1_pay2
  rw [shapeCast_self, shapeCast_self]
  exact congrArg (v11 (ix3 b r o) + ·) (bmm_apply (truncf .bf16 v3 bitsLt_bf16_f32) v8 b r o)

/-- The sum along the last axis of an 8 × 256 × 128 block, at row `r` of graph `b`: the sum of the row's 128 entries. -/
theorem lane_sum_128 (w : FVec Ideal S8x256x128 .f32) (b : Fin 8) (r : Fin 256) :
    multiReduction (F := Ideal) .add [2] S8x256 w 0x00000000#32 reduces_S8x256x128_S8x256 (.inl rfl) rfl (ix2 b r)
      = ∑ o : Fin 128, w (ix3 b r o) := by
  refine (Ideal.multiReduction_add_single w 0x00000000#32 reduces_S8x256x128_S8x256 (.inl rfl) rfl (ix2 b r)).trans ?_
  refine Finset.sum_congr rfl fun k _ => ?_
  exact congrArg w (funext fun a => Fin.ext (by match a with | ⟨0, _⟩ => rfl | ⟨1, _⟩ => rfl | ⟨2, _⟩ => rfl))

/-- A per-row quantity laid out as a column, 8 × 256 → 8 × 256 × 1: entry (b, r, 0) is the row's value. -/
theorem col_of_row_256 {α : Type} (x : S8x256.Idx → α) (h : S8x256.ShapeCasts S8x256x1) (b : Fin 8) (r : Fin 256) (z : Fin 1) :
    shapeCast S8x256x1 x h (ix3 b r z) = x (ix2 b r) := by
  refine shapeCast_apply x h (ix3 b r z) (ix2 b r) ?_
  rw [Shape.rowMajor_val_two, Shape.rowMajor_val_three]
  show b.val * 256 + r.val = (b.val * 256 + r.val) * 1 + z.val
  have := z.isLt
  omega

/-- A column repeated along the last axis, 8 × 256 × 1 → 8 × 256 × 128: entry (b, r, o) is the column's (b, r, 0). -/
theorem bcast_col_256 {α : Type} (y : S8x256x1.Idx → α) (h : S8x256x1.Broadcasts S8x256x128) (b : Fin 8) (r : Fin 256) (o : Fin 128) :
    broadcastTo S8x256x128 y h (ix3 b r o) = y (ix3 b r 0) := by
  refine broadcastTo_apply y h (ix3 b r o) (ix3 b r 0) (fun a => ?_)
  match a with
  | ⟨0, _⟩ => show b.val = if (8 : Nat) = 1 then 0 else b.val; rw [if_neg (by decide)]
  | ⟨1, _⟩ => show r.val = if (256 : Nat) = 1 then 0 else r.val; rw [if_neg (by decide)]
  | ⟨2, _⟩ => show 0 = if (1 : Nat) = 1 then 0 else o.val; rw [if_pos rfl]

/-- The inverse square root of a vector, entry by entry. -/
theorem rsqrt_apply {s : Shape} {φ : FTy} (x : FVec Ideal s φ) (i : s.Idx) : rsqrt x i = Ideal.rsqrt (x i) := rfl

/-- The mean of a row, formed as a column: the row's sum, laid out as a column, divided by 128. -/
theorem mean_col_apply (w : FVec Ideal S8x256x128 .f32) (h : S8x256.ShapeCasts S8x256x1) (b : Fin 8) (r : Fin 256) (z : Fin 1) :
    divf (shapeCast S8x256x1 (multiReduction (F := Ideal) .add [2] S8x256 w 0x00000000#32 reduces_S8x256x128_S8x256 (.inl rfl) rfl) h)
        (broadcast S8x256x1 (Scalar.ofBits (F := Ideal) .f32 0x43000000#32)) (ix3 b r z)
      = mean128 (fun o => w (ix3 b r o)) := by
  rw [divf_apply, col_of_row_256, lane_sum_128]
  rfl

/-- The last step's output: the accumulated row scaled by the row's inverse square root of the degree, then
    normalised along its 128 entries. -/
theorem pay1_ln_apply (v19 : Vec Ideal S8x256 .f32) (v21 : Vec Ideal S8x256x128 .f32) (b : Fin 8) (r : Fin 256) (o : Fin 128) :
    k1_pay3 (F := Ideal) v19 v21 (ix3 b r o) = lnRow (fun o' => v21 (ix3 b r o') * v19 (ix2 b r)) o := by
  unfold k1_pay3 lnRow
  rw [shapeCast_self]
  simp only [mulf_apply, subf_apply, addf_apply, rsqrt_apply, bcast_col_256, col_of_row_256, broadcast_apply]
  rw [mean_col_apply, mean_col_apply]
  simp only [mulf_apply, subf_apply, bcast_col_256, col_of_row_256]
  rw [mean_col_apply]
  simp only [mulf_apply, bcast_col_256, col_of_row_256]
  rfl

end Cert.Body

end
-- ==== Proof.KIR1Value.lean ====
/-
  The second call's result array, entry by entry, on the extended reals.

  Write A for the adjacency, X' for the scaled features and d for the row factors as the call finds them. At a point of
  row tile q and column step s the accumulator gains, at row r and output o, the 1024 terms
      A[b, 256·q + r, m] · X'[b, m, o]      for 1024·s ≤ m < 1024·(s + 1),
  starting from zero at s = 0; so after the point it holds the sum of the terms of the first 1024·(s + 1) columns
  (induction on the point, the partial sums taken over initial segments of the natural numbers). At s = 3 all 4096
  terms are there, and the block written back is, at (b, r, o), the normalised row
      lnRow (o' ↦ (Σ_m A[b, 256·q + r, m] · X'[b, m, o']) · d[b, 256·q + r]) o.
  Row n of the result lies in the block written back at the last column step of row tile n / 256, so the whole array
  ends as that one function of A, X' and d.
-/
import proofs.«177266_j89043261980850_2_alg».proof.Proof.KIR1Pieces
import proofs.«177266_j89043261980850_2_alg».proof.Proof.Payloads1
import proofs.«177266_j89043261980850_2_alg».proof.Proof.Scalars
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Scalars
open scoped BigOperators

variable (V : (c : Dev nD) → (b : Ref sig .tc) → Buf (Elt Ideal) ((c : Thread nD τ).loc b))

/-! ## The three arrays the call reads, as functions of literal-shape indices into the extended reals -/

/-- The adjacency as the call finds it. -/
abbrev adjV (c : Dev nD) : S8x4096x4096.Idx → EReal := V c main_arg1
/-- The scaled features as the call finds them. -/
abbrev xsV (c : Dev nD) : S8x4096x128.Idx → EReal := V c main_v0_1
/-- The row factors as the call finds them. -/
abbrev dinvV (c : Dev nD) : S8x4096.Idx → EReal := V c main_v0_0

/-! ## One term of the contraction, and the accumulator point by point -/

/-- The product of adjacency entry (b, R, m) with scaled-feature entry (b, m, o), the row and the column given as
    natural numbers (zero when either is outside the arrays, which never happens below). -/
def term (c : Dev nD) (b : Fin 8) (R : ℕ) (o : Fin 128) (m : ℕ) : EReal :=
  if h : R < 4096 ∧ m < 4096 then
    adjV V c (ix3 b ⟨R, h.1⟩ ⟨m, h.2⟩)
      * xsV V c (ix3 b ⟨m, h.2⟩ o)
  else 0

/-- One step: the accumulator gains the 1024 terms of the point's column block. -/
theorem step_apply (c : Dev nD) (t : Fin cfg1.N) (acc : Vec Ideal S8x256x128 .f32) (b : Fin 8) (r : Fin 256) (o : Fin 128) :
    k1_pay2 (F := Ideal) (iblk1 V c 0 t) (xsl (grid1.coords t) (iblk1 V c 1 t)) acc (ix3 b r o)
      = acc (ix3 b r o) + ∑ k ∈ Finset.range 1024, term V c b (256 * (t.val / 4) + r.val) o (1024 * (t.val % 4) + k) := by
  have hN : cfg1.N = 64 := N_1
  have ht := t.isLt
  have e : ((grid1.coords t) 1).val = t.val % 4 := (coords1_val t).2
  refine (Cert.Body.pay1_acc_apply _ _ _ b r o).trans ?_
  refine congrArg (acc (ix3 b r o) + ·) ?_
  rw [← Fin.sum_univ_eq_sum_range (fun k => term V c b (256 * (t.val / 4) + r.val) o (1024 * (t.val % 4) + k)) 1024]
  refine Finset.sum_congr rfl fun k _ => ?_
  have hk := k.isLt
  have hr := r.isLt
  rw [iblk1_0_apply, xsl_apply, iblk1_1_eq]
  unfold term
  rw [dif_pos ⟨by omega, by omega⟩]
  simp only [e]

/-- At a point of column step 0 the accumulator holds the first 1024 terms. -/
theorem acc_A (c : Dev nD) (t : Fin cfg1.N) (h0 : t.val % 4 = 0) (b : Fin 8) (r : Fin 256) (o : Fin 128) :
    (outsAt1 V c t.val t.isLt).2 (ix3 b r o)
      = ∑ k ∈ Finset.range 1024, term V c b (256 * (t.val / 4) + r.val) o (1024 * (t.val % 4) + k) := by
  rw [outsAt1_A V c t h0 (by omega)]
  dsimp only
  rw [sout1_A_eq]
  refine (step_apply V c t _ b r o).trans ?_
  rw [Cert.Body.pay1_init_apply, zero_add]

/-- At every other point it gains 1024 terms over what the point before left. -/
theorem acc_BC (c : Dev nD) (t : Fin cfg1.N) (h0 : ¬t.val % 4 = 0) (b : Fin 8) (r : Fin 256) (o : Fin 128) :
    (outsAt1 V c t.val t.isLt).2 (ix3 b r o)
      = (outsAt1 V c (t.val - 1) (Nat.lt_of_le_of_lt (Nat.sub_le _ _) t.isLt)).2 (ix3 b r o)
        + ∑ k ∈ Finset.range 1024, term V c b (256 * (t.val / 4) + r.val) o (1024 * (t.val % 4) + k) := by
  by_cases h1 : t.val % 4 = 3
  · rw [outsAt1_C V c t h0 h1]
    dsimp only
    rw [sout1_C_eq]
    exact step_apply V c t _ b r o
  · rw [outsAt1_B V c t h0 h1]
    dsimp only
    rw [sout1_B_eq]
    exact step_apply V c t _ b r o

/-- After point `n` the accumulator holds, at row `r` of the point's row tile, the terms of the first
    `1024 · (n % 4 + 1)` columns. -/
theorem acc_eq (c : Dev nD) : ∀ (n : ℕ) (hn : n < cfg1.N) (b : Fin 8) (r : Fin 256) (o : Fin 128),
    (outsAt1 V c n hn).2 (ix3 b r o)
      = ∑ m ∈ Finset.range (1024 * (n % 4 + 1)), term V c b (256 * (n / 4) + r.val) o m := by
  intro n
  induction n with
  | zero =>
    intro hn b r o
    refine (acc_A V c ⟨0, hn⟩ rfl b r o).trans ?_
    refine Finset.sum_congr rfl fun k _ => ?_
    show term V c b _ o (1024 * (0 % 4) + k) = _
    rw [show 1024 * (0 % 4) + k = k from by omega]
  | succ k ih =>
    intro hn b r o
    by_cases h0 : (k + 1) % 4 = 0
    · refine (acc_A V c ⟨k + 1, hn⟩ h0 b r o).trans ?_
      show ∑ j ∈ Finset.range 1024, term V c b (256 * ((k + 1) / 4) + r.val) o (1024 * ((k + 1) % 4) + j) = _
      rw [h0]
      refine Finset.sum_congr rfl fun j _ => ?_
      rw [show 1024 * 0 + j = j from by omega]
    · refine (acc_BC V c ⟨k + 1, hn⟩ h0 b r o).trans ?_
      show (outsAt1 V c k _).2 (ix3 b r o)
          + ∑ j ∈ Finset.range 1024, term V c b (256 * ((k + 1) / 4) + r.val) o (1024 * ((k + 1) % 4) + j) = _
      rw [ih (Nat.lt_of_succ_lt hn) b r o]
      have e1 : (k + 1) / 4 = k / 4 := by omega
      have e2 : (k + 1) % 4 = k % 4 + 1 := by omega
      rw [e1, e2, show 1024 * (k % 4 + 1 + 1) = 1024 * (k % 4 + 1) + 1024 from by omega, Finset.sum_range_add]

/-- The 4096 terms of a row, as the sum over the adjacency's columns. -/
theorem sum_terms (c : Dev nD) (b : Fin 8) (R : ℕ) (hR : R < 4096) (o : Fin 128) :
    ∑ m ∈ Finset.range 4096, term V c b R o m
      = ∑ m : Fin 4096, adjV V c (ix3 b ⟨R, hR⟩ m)
          * xsV V c (ix3 b m o) := by
  rw [← Fin.sum_univ_eq_sum_range (fun m => term V c b R o m) 4096]
  refine Finset.sum_congr rfl fun m _ => ?_
  unfold term
  rw [dif_pos ⟨hR, m.isLt⟩]

/-! ## The result array -/

/-- The second call's result as ONE function of the arrays it finds: the adjacency's row against the scaled features,
    scaled by the row's factor, normalised along the last axis. -/
def G1 (c : Dev nD) : S8x4096x128.Idx → EReal := fun j =>
  lnRow (fun o' => (∑ m : Fin 4096, adjV V c (ix3 (j 0) (j 1) m)
      * xsV V c (ix3 (j 0) m o'))
    * dinvV V c (ix2 (j 0) (j 1))) (j 2)

theorem G1_apply (c : Dev nD) (b : Fin 8) (n : Fin 4096) (o : Fin 128) :
    G1 V c (ix3 b n o) = lnRow (fun o' => (∑ m : Fin 4096, adjV V c (ix3 b n m)
      * xsV V c (ix3 b m o'))
    * dinvV V c (ix2 b n)) o := rfl

/-- What a point of the last column step writes back is its block of `G1`. -/
theorem flushed1_eq (c : Dev nD) (t : Fin cfg1.N) (hf : (cfg1.win 3).flush t = true) :
    (dat1 V c).flushed 3 t = ((cfg1.win 3).blk t).view.read (Elt Ideal) (G1 V c) := by
  have hN : cfg1.N = 64 := N_1
  have ht := t.isLt
  have h3 : t.val % 4 = 3 := (flush1_3 t).mp hf
  have h0 : ¬t.val % 4 = 0 := by omega
  obtain ⟨-, -, -, ⟨e0, e1, e2⟩⟩ := idx1_facts t
  have hacc : k1_pay2 (F := Ideal) (iblk1 V c 0 t) (xsl (grid1.coords t) (iblk1 V c 1 t))
      (outsAt1 V c (t.val - 1) (Nat.lt_of_le_of_lt (Nat.sub_le _ _) t.isLt)).2 = (outsAt1 V c t.val t.isLt).2 := by
    rw [outsAt1_C V c t h0 h3]
    dsimp only
    rw [sout1_C_eq]
  show (cfg1.win 3).cut (grid1.coords t) ((dat1 V c).after 3 t) = _
  rw [after1_3, outsAt1_C V c t h0 h3]
  dsimp only
  rw [out1_C_3_eq, hacc]
  funext j
  obtain ⟨b, r, o, rfl⟩ : ∃ (b : Fin 8) (r : Fin 256) (o : Fin 128), j = ix3 b r o := ⟨j 0, j 1, j 2, eq_ix3 j⟩
  have hr := r.isLt
  rw [View.read_apply]
  show _ = G1 V c (((cfg1.win 3).blk t).view.emb (ix3 b r o))
  have hemb : ((cfg1.win 3).blk t).view.emb (ix3 b r o) = ix3 b (⟨256 * (t.val / 4) + r.val, by omega⟩ : Fin 4096) o := by
    funext a; apply Fin.ext
    match a with
    | ⟨0, _⟩ => show win1_3.index t (0 : Fin 3) * 8 + 1 * b.val = b.val; rw [e0]; omega
    | ⟨1, _⟩ => show win1_3.index t (1 : Fin 3) * 256 + 1 * r.val = 256 * (t.val / 4) + r.val; rw [e1]; omega
    | ⟨2, _⟩ => show win1_3.index t (2 : Fin 3) * 128 + 1 * o.val = o.val; rw [e2]; omega
  rw [hemb, G1_apply]
  refine (Cert.Body.pay1_ln_apply _ _ b r o).trans ?_
  refine congrArg (fun y => lnRow y o) (funext fun o' => ?_)
  rw [iblk1_2_apply, acc_eq V c t.val t.isLt b r o', h3]
  exact congrArg (· * _) (sum_terms V c b _ (by omega) o')

/-- Every entry of the result array lies in the block of a point of the last column step. -/
theorem cover1 (c : Dev nD) (i : S8x4096x128.Idx) :
    ∃ t : Fin cfg1.N, (cfg1.win 3).flush t = true ∧ i ∈ ((cfg1.win 3).blk t).view.set := by
  have hN : cfg1.N = 64 := N_1
  have h0 : (i 0).val < 8 := (i 0).isLt
  have h1 : (i 1).val < 4096 := (i 1).isLt
  have h2 : (i 2).val < 128 := (i 2).isLt
  obtain ⟨t, ht⟩ : ∃ t : Fin cfg1.N, t.val = 4 * ((i 1).val / 256) + 3 := ⟨⟨4 * ((i 1).val / 256) + 3, by omega⟩, rfl⟩
  obtain ⟨-, -, -, ⟨e0, e1, e2⟩⟩ := idx1_facts t
  refine ⟨t, (flush1_3 t).mpr (by omega), ?_⟩
  show i ∈ ((View.whole main_v1).slice (win1_3.rect t)).set
  rw [View.set_slice_whole, Rect.mem_set_unit]
  intro a
  match a with
  | ⟨0, _⟩ => show win1_3.index t (0 : Fin 3) * 8 ≤ (i 0).val ∧ (i 0).val < win1_3.index t (0 : Fin 3) * 8 + 8; rw [e0]; omega
  | ⟨1, _⟩ => show win1_3.index t (1 : Fin 3) * 256 ≤ (i 1).val ∧ (i 1).val < win1_3.index t (1 : Fin 3) * 256 + 256; rw [e1]; omega
  | ⟨2, _⟩ => show win1_3.index t (2 : Fin 3) * 128 ≤ (i 2).val ∧ (i 2).val < win1_3.index t (2 : Fin 3) * 128 + 128; rw [e2]; omega

/-- The result array after the second call, entry by entry. -/
theorem out1_final (c : Dev nD) (b : Fin 8) (n : Fin 4096) (o : Fin 128) :
    ((dat1 (F := Ideal) V c).arrAt 3 cfg1.N : S8x4096x128.Idx → EReal) (ix3 b n o)
      = lnRow (fun o' => (∑ m : Fin 4096, adjV V c (ix3 b n m)
          * xsV V c (ix3 b m o'))
        * dinvV V c (ix2 b n)) o :=
  (congrFun ((dat1 V c).arrAt_eq_of_cover 3 (G1 V c) (flushed1_eq V c) (cover1 c)) (ix3 b n o)).trans
    (G1_apply V c b n o)

end Cert.KernelIdeal.Hand

end
-- ==== Proof.Spec.lean ====
/-
  The layer as ONE function of its four argument arrays, entry by entry, in the two arrangements that have to be
  compared.

  With  deg[b,n] = Σ_m adj[b,n,m],  dinv[b,n] = deg^(-1/2) where deg > 0 and 0 elsewhere,  and
  lin[b,n,o] = leaky (Σ_i feats[b,n,i] · W[o,i] + bias[o]):

  * `preK`  scales the rows of `lin` by `dinv` FIRST (`xs`), sums against the raw adjacency, and scales the result's
             row by `dinv` afterwards:   (Σ_m adj[b,n,m] · (lin[b,m,o] · dinv[b,m])) · dinv[b,n];
  * `preR`  normalises the adjacency first and sums against `lin`:
             Σ_m (dinv[b,n] · adj[b,n,m] · dinv[b,m]) · lin[b,m,o].

  `outK` / `outR` are the affine-free layer normalisation of the rows of `preK` / `preR`.
-/
import proofs.«177266_j89043261980850_2_alg».proof.Proof.Scalars
import Idealize.ShloMosaic.Lib.ValueIdx

noncomputable section

open scoped BigOperators

namespace Cert.Spec

open Idealize.ShloMosaic Idealize.ShloMosaic.ValueIdx Cert.Scalars

/-- The adjacency's shape: batch × node × node. -/
abbrev SA : Shape := ⟨3, ![8, 4096, 4096]⟩
/-- The features' and the result's shape: batch × node × channel. -/
abbrev SX : Shape := ⟨3, ![8, 4096, 128]⟩
/-- The weight's shape: output channel × input channel. -/
abbrev SW : Shape := ⟨2, ![128, 128]⟩
/-- The bias's shape. -/
abbrev SB : Shape := ⟨1, ![128]⟩

/-- The degree of node `n` in batch `b`: the row sum of the adjacency. -/
def deg (adj : SA.Idx → EReal) (b : Fin 8) (n : Fin 4096) : EReal :=
  ∑ m : Fin 4096, adj (ix3 b n m)

/-- The degree's inverse square root (zero where the degree is not positive). -/
def dinv (adj : SA.Idx → EReal) (b : Fin 8) (n : Fin 4096) : EReal :=
  dinvOf (deg adj b n)

/-- The linear layer followed by the leaky rectifier. -/
def lin (feats : SX.Idx → EReal) (W : SW.Idx → EReal) (bias : SB.Idx → EReal)
    (b : Fin 8) (n : Fin 4096) (o : Fin 128) : EReal :=
  leaky ((∑ i : Fin 128, feats (ix3 b n i) * W (ix2 o i)) + bias (ix1 o))

/-- The rectified features with row `m` scaled by `dinv[b,m]`. -/
def xs (feats : SX.Idx → EReal) (adj : SA.Idx → EReal) (W : SW.Idx → EReal) (bias : SB.Idx → EReal)
    (b : Fin 8) (m : Fin 4096) (o : Fin 128) : EReal :=
  lin feats W bias b m o * dinv adj b m

/-- Scale, sum against the raw adjacency, scale again. -/
def preK (feats : SX.Idx → EReal) (adj : SA.Idx → EReal) (W : SW.Idx → EReal) (bias : SB.Idx → EReal)
    (b : Fin 8) (n : Fin 4096) (o : Fin 128) : EReal :=
  (∑ m : Fin 4096, adj (ix3 b n m) * xs feats adj W bias b m o) * dinv adj b n

/-- Sum against the normalised adjacency. -/
def preR (feats : SX.Idx → EReal) (adj : SA.Idx → EReal) (W : SW.Idx → EReal) (bias : SB.Idx → EReal)
    (b : Fin 8) (n : Fin 4096) (o : Fin 128) : EReal :=
  ∑ m : Fin 4096, (dinv adj b n * adj (ix3 b n m) * dinv adj b m) * lin feats W bias b m o

/-- The layer, first arrangement: the normalised rows of `preK`. -/
def outK (feats : SX.Idx → EReal) (adj : SA.Idx → EReal) (W : SW.Idx → EReal) (bias : SB.Idx → EReal) :
    SX.Idx → EReal :=
  fun j => lnRow (fun o' => preK feats adj W bias (j 0) (j 1) o') (j 2)

/-- The layer, second arrangement: the normalised rows of `preR`. -/
def outR (feats : SX.Idx → EReal) (adj : SA.Idx → EReal) (W : SW.Idx → EReal) (bias : SB.Idx → EReal) :
    SX.Idx → EReal :=
  fun j => lnRow (fun o' => preR feats adj W bias (j 0) (j 1) o') (j 2)

theorem outK_apply (feats : SX.Idx → EReal) (adj : SA.Idx → EReal) (W : SW.Idx → EReal) (bias : SB.Idx → EReal)
    (b : Fin 8) (n : Fin 4096) (o : Fin 128) :
    outK feats adj W bias (ix3 b n o) = lnRow (fun o' => preK feats adj W bias b n o') o := rfl

theorem outR_apply (feats : SX.Idx → EReal) (adj : SA.Idx → EReal) (W : SW.Idx → EReal) (bias : SB.Idx → EReal)
    (b : Fin 8) (n : Fin 4096) (o : Fin 128) :
    outR feats adj W bias (ix3 b n o) = lnRow (fun o' => preR feats adj W bias b n o') o := rfl

end Cert.Spec

end
-- ==== Proof.KIValue.lean ====
/-
  The idealized kernel's result array, as the specification's first arrangement.

  After the first call the inverse-square-root array holds, at (b, n), the guarded inverse square root of row n's degree,
  and the scaled-features array holds, at (b, n, o), the rectified linear layer of row n scaled by it. The second call
  reads the adjacency as launched and those two arrays, and leaves at (b, n, o) the layer normalisation of the row
  o' ↦ (Σ_m adj[b,n,m] · X'[b,m,o']) · dinv[b,n]: with the first call's values substituted this is the specification's
  `outK` of the four argument arrays.
-/
import proofs.«177266_j89043261980850_2_alg».proof.Proof.KIMain
import proofs.«177266_j89043261980850_2_alg».proof.Proof.KIR0Value
import proofs.«177266_j89043261980850_2_alg».proof.Proof.KIR1Value
import proofs.«177266_j89043261980850_2_alg».proof.Proof.Spec

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Scalars

variable (m : (ℓ : Loc nD τ sig) → Buf (Elt Ideal) ℓ) (ρ : Dev nD → PrngReg)

/-- The four argument arrays as launched, on core `c`, as arrays of extended reals. -/
abbrev featsL (c : Dev nD) : S8x4096x128.Idx → EReal := m ((c : Thread nD τ).loc main_arg0)
abbrev adjL (c : Dev nD) : S8x4096x4096.Idx → EReal := m ((c : Thread nD τ).loc main_arg1)
abbrev wL (c : Dev nD) : S128x128.Idx → EReal := m ((c : Thread nD τ).loc main_arg2)
abbrev bL (c : Dev nD) : S128.Idx → EReal := m ((c : Thread nD τ).loc main_arg3)

/-- The second call's final output array is `outK` of the four arguments as launched. -/
theorem result_eq (c : Dev nD) :
    ((dat1 (F := Ideal) (V1 m ρ) c).arrAt 3 cfg1.N : S8x4096x128.Idx → EReal)
      = Cert.Spec.outK (featsL m c) (adjL m c) (wL m c) (bL m c) := by
  funext j
  obtain ⟨b, n, o, rfl⟩ : ∃ (b : Fin 8) (n : Fin 4096) (o : Fin 128), j = ix3 b n o := ⟨j 0, j 1, j 2, eq_ix3 j⟩
  rw [out1_final (V1 m ρ) c b n o, Cert.Spec.outK_apply]
  refine congrArg (fun y => lnRow y o) (funext fun o' => ?_)
  have e1 : adjV (V1 m ρ) c = adjL m c := W1_main_arg1 m ρ c
  have e5 : xsV (V1 m ρ) c = (dat0 (F := Ideal) (V0 m ρ) c).arrAt 5 cfg0.N := W1_arr m ρ c 5
  have e4 : dinvV (V1 m ρ) c = (dat0 (F := Ideal) (V0 m ρ) c).arrAt 4 cfg0.N := W1_arr m ρ c 4
  have hd : ∀ (b : Fin 8) (n : Fin 4096), ((dat0 (F := Ideal) (V0 m ρ) c).arrAt 4 cfg0.N : S8x4096.Idx → EReal) (ix2 b n) = dinvOf (∑ k : Fin 4096, adjL m c (ix3 b n k)) :=
    fun b n => dinv_final (V0 m ρ) c b n
  have hx : ∀ (b : Fin 8) (n : Fin 4096) (o : Fin 128), ((dat0 (F := Ideal) (V0 m ρ) c).arrAt 5 cfg0.N : S8x4096x128.Idx → EReal) (ix3 b n o) = leaky ((∑ i : Fin 128, featsL m c (ix3 b n i) * wL m c (ix2 o i)) + bL m c (ix1 o)) * dinvOf (∑ k : Fin 4096, adjL m c (ix3 b n k)) :=
    fun b n o => xs_final (V0 m ρ) c b n o
  rw [e1, e5, e4, hd b n]
  refine congrArg₂ (· * ·) (Finset.sum_congr rfl fun m' _ => ?_) rfl
  rw [hx b m' o']
  rfl

/-- The idealized kernel's run: the result array ends at `outK` of the arguments, the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v1) = Cert.Spec.outK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_main (F := Ideal) m ρ)

end Cert.KernelIdeal.Hand

end
-- ==== Proof.RefValue.lean ====
/-
  The reference program computes the specification's second arrangement `outR`.

  Its stages are read one at a time at an entry given by literal coordinates:
    the adjacency's row sums are the degrees; the guarded inverse square root of a degree is `dinv`;
    the normalised adjacency at (b, n, m) is  dinv[b,n] · adj[b,n,m] · dinv[b,m];
    the linear layer plus bias under the leaky rectifier is `lin`;
    their contraction over m is `preR`;
    the row's mean, the centred row, the mean of its squares plus epsilon under the inverse square root, and the
    product of the centred entry with that factor are the layer normalisation `lnRow` of the row of `preR`.
  Every sum starts from the zero word, which is 0.  The run then ends with the result at `outR` of the four argument
  arrays and the arguments unchanged; dropping the result gives the reference's frame.
-/
import proofs.«177266_j89043261980850_2_alg».proof.Defs
import proofs.«177266_j89043261980850_2_alg».proof.Proof.Gen.ReferenceIdeal
import proofs.«177266_j89043261980850_2_alg».proof.Proof.Gen.Pre_finite_inputs
import proofs.«177266_j89043261980850_2_alg».proof.Proof.Gen.ReferenceIdeal.Run
import proofs.«177266_j89043261980850_2_alg».proof.Proof.Gen.ReferenceIdeal.Read
import proofs.«177266_j89043261980850_2_alg».proof.Proof.Spec

noncomputable section

open scoped BigOperators

namespace Cert.RefValue

open Idealize.ShloMosaic Idealize.ShloMosaic.ValueIdx Idealize.SL.Sem Cert.Scalars Cert.Spec
open Cert.ReferenceIdeal Cert.ReferenceIdeal.Read

variable (feats : SX.Idx → EReal) (adj : SA.Idx → EReal) (W : SW.Idx → EReal) (bias : SB.Idx → EReal)

/-- The adjacency's row sum is the degree. -/
theorem deg_stage (b : Fin 8) (n : Fin 4096) :
    val_main_v0 (F := Ideal) adj (ix2 b n) = deg adj b n := by
  rw [val_main_v0_apply, val_main_cst_apply, Ideal.ofBits_def, Ideal.ofBits_zero_f32, zero_add]
  unfold deg
  refine Finset.sum_congr rfl fun k _ => congrArg adj ?_
  exact funext fun a => Fin.ext (by match a with | ⟨0, _⟩ => rfl | ⟨1, _⟩ => rfl | ⟨2, _⟩ => rfl)

/-- The guarded inverse square root of the degree. -/
theorem dinv_stage (b : Fin 8) (n : Fin 4096) :
    val_main_v4 (F := Ideal) adj (ix2 b n) = dinv adj b n := by
  rw [val_main_v4_apply, val_main_v2_apply, val_main_v3_apply, val_main_v1_apply, val_main_cst_0_apply,
    val_main_call0_v1_apply, val_main_call0_v0_apply, val_main_cst_1_apply, deg_stage]
  rfl

/-- The normalised adjacency: row factor, raw entry, column factor. -/
theorem adjn_stage (b : Fin 8) (n m : Fin 4096) :
    val_main_v10 (F := Ideal) adj (ix3 b n m) = dinv adj b n * adj (ix3 b n m) * dinv adj b m := by
  have e1 : idx_main_v5 (idx_main_v6 (ix3 b n m)) = ix2 b n :=
    funext fun a => Fin.ext (by match a with | ⟨0, _⟩ => rfl | ⟨1, _⟩ => rfl)
  have e2 : idx_main_v8 (idx_main_v9 (ix3 b n m)) = ix2 b m :=
    funext fun a => Fin.ext (by match a with | ⟨0, _⟩ => rfl | ⟨1, _⟩ => rfl)
  rw [val_main_v10_apply, val_main_v7_apply, val_main_v6_apply, val_main_v5_apply, val_main_v9_apply,
    val_main_v8_apply, e1, e2, dinv_stage, dinv_stage]
  rfl

/-- The linear layer with its bias, then the leaky rectifier. -/
theorem lin_stage (b : Fin 8) (n : Fin 4096) (o : Fin 128) :
    val_main_v19 (F := Ideal) feats W bias (ix3 b n o) = lin feats W bias b n o := by
  have el : ∀ k : Fin 128, lidx_main_v11 (ix3 b n o) k = ix3 b n k := fun k =>
    funext fun a => Fin.ext (by match a with | ⟨0, _⟩ => rfl | ⟨1, _⟩ => rfl | ⟨2, _⟩ => rfl)
  have er : ∀ k : Fin 128, ridx_main_v11 (ix3 b n o) k = ix2 o k := fun k =>
    funext fun a => Fin.ext (by match a with | ⟨0, _⟩ => rfl | ⟨1, _⟩ => rfl)
  have eb : idx_main_v12 (idx_main_v13 (ix3 b n o)) = ix1 o :=
    funext fun a => Fin.ext (by match a with | ⟨0, _⟩ => rfl)
  have h14 : val_main_v14 (F := Ideal) feats W bias (ix3 b n o)
      = (∑ i : Fin 128, feats (ix3 b n i) * W (ix2 o i)) + bias (ix1 o) := by
    rw [val_main_v14_apply, val_main_v11_apply, val_main_v13_apply, val_main_v12_apply, eb]
    simp only [el, er]
    rfl
  rw [val_main_v19_apply, val_main_v16_apply, val_main_v18_apply, val_main_v15_apply, val_main_cst_2_apply,
    val_main_v17_apply, val_main_cst_3_apply, h14]
  rfl

/-- The message passing: the normalised adjacency against the rectified features. -/
theorem preR_stage (b : Fin 8) (n : Fin 4096) (o : Fin 128) :
    val_main_v20 (F := Ideal) feats adj W bias (ix3 b n o) = preR feats adj W bias b n o := by
  have el : ∀ k : Fin 4096, lidx_main_v20 (ix3 b n o) k = ix3 b n k := fun k =>
    funext fun a => Fin.ext (by match a with | ⟨0, _⟩ => rfl | ⟨1, _⟩ => rfl | ⟨2, _⟩ => rfl)
  have er : ∀ k : Fin 4096, ridx_main_v20 (ix3 b n o) k = ix3 b k o := fun k =>
    funext fun a => Fin.ext (by match a with | ⟨0, _⟩ => rfl | ⟨1, _⟩ => rfl | ⟨2, _⟩ => rfl)
  rw [val_main_v20_apply]
  unfold preR
  refine Finset.sum_congr rfl fun k _ => ?_
  rw [el, er, adjn_stage, lin_stage]

/-- The row's mean, read at any index of the keep-dims column that lies in row `(b, n)`. -/
theorem mean_stage (i : S8x4096x1.Idx) (b : Fin 8) (n : Fin 4096) (h : idx_main_v22 i = ix2 b n) :
    val_main_v24 (F := Ideal) feats adj W bias i = mean128 (fun o => preR feats adj W bias b n o) := by
  have e : ∀ k : Fin 128, idx_main_v21 (ix2 b n) k = ix3 b n k := fun k =>
    funext fun a => Fin.ext (by match a with | ⟨0, _⟩ => rfl | ⟨1, _⟩ => rfl | ⟨2, _⟩ => rfl)
  rw [val_main_v24_apply, val_main_v22_apply, h, val_main_v21_apply, val_main_cst_4_apply, val_main_v23_apply,
    val_main_cst_5_apply]
  simp only [Ideal.ofBits_def, Ideal.ofBits_zero_f32, zero_add, e, preR_stage]
  rfl

/-- The centred row (the copy that is squared). -/
theorem centred_sq_stage (b : Fin 8) (n : Fin 4096) (o : Fin 128) :
    val_main_v26 (F := Ideal) feats adj W bias (ix3 b n o)
      = preR feats adj W bias b n o - mean128 (fun o' => preR feats adj W bias b n o') := by
  have e : idx_main_v22 (idx_main_v25 (ix3 b n o)) = ix2 b n :=
    funext fun a => Fin.ext (by match a with | ⟨0, _⟩ => rfl | ⟨1, _⟩ => rfl)
  rw [val_main_v26_apply, val_main_v25_apply, mean_stage feats adj W bias _ b n e, preR_stage]
  rfl

/-- The reciprocal standard deviation of the row, read at any index of the keep-dims column in row `(b, n)`. -/
theorem rstd_stage (i : S8x4096x1.Idx) (b : Fin 8) (n : Fin 4096) (h : idx_main_v29 i = ix2 b n) :
    val_main_v36 (F := Ideal) feats adj W bias i
      = Ideal.rsqrt (mean128 (fun o => (preR feats adj W bias b n o - mean128 (fun o' => preR feats adj W bias b n o'))
          * (preR feats adj W bias b n o - mean128 (fun o' => preR feats adj W bias b n o'))) + eps) := by
  have e : ∀ k : Fin 128, idx_main_v28 (ix2 b n) k = ix3 b n k := fun k =>
    funext fun a => Fin.ext (by match a with | ⟨0, _⟩ => rfl | ⟨1, _⟩ => rfl | ⟨2, _⟩ => rfl)
  rw [val_main_v36_apply, val_main_v35_apply, val_main_v31_apply, val_main_v29_apply, h, val_main_v28_apply,
    val_main_cst_6_apply, val_main_v30_apply, val_main_cst_7_apply, val_main_v34_apply, val_main_cst_8_apply]
  simp only [Ideal.ofBits_def, Ideal.ofBits_zero_f32, zero_add, e, val_main_v27_apply, centred_sq_stage]
  rfl

/-- The reference's result at an entry is the normalised row of `preR`. -/
theorem out_stage (b : Fin 8) (n : Fin 4096) (o : Fin 128) :
    val_main_v38 (F := Ideal) feats adj W bias (ix3 b n o) = outR feats adj W bias (ix3 b n o) := by
  have e1 : idx_main_v22 (idx_main_v32 (ix3 b n o)) = ix2 b n :=
    funext fun a => Fin.ext (by match a with | ⟨0, _⟩ => rfl | ⟨1, _⟩ => rfl)
  have e2 : idx_main_v29 (idx_main_v37 (ix3 b n o)) = ix2 b n :=
    funext fun a => Fin.ext (by match a with | ⟨0, _⟩ => rfl | ⟨1, _⟩ => rfl)
  rw [outR_apply, val_main_v38_apply, val_main_v33_apply, val_main_v32_apply, mean_stage feats adj W bias _ b n e1,
    val_main_v37_apply, rstd_stage feats adj W bias _ b n e2, preR_stage]
  rfl

/-- The reference's last stage IS the specification's second arrangement. -/
theorem ref_term : val_main_v38 (F := Ideal) feats adj W bias = outR feats adj W bias := by
  funext j
  obtain ⟨b, n, o, rfl⟩ : ∃ (b : Fin 8) (n : Fin 4096) (o : Fin 128), j = ix3 b n o := ⟨j 0, j 1, j 2, eq_ix3 j⟩
  exact out_stage feats adj W bias b n o

/-- The reference's run: it ends, without a fault, with its result at `outR` of the launch contents of the four
    arguments, and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v38)
          = outR (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans ((val_main_v38_eq m' c).trans (ref_term _ _ _ _)), (h c).2⟩)
    (Cert.ReferenceIdeal.Value.run (F := Ideal) m' ρ')

/-- The reference's frame: its run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

end Cert.RefValue

end
-- ==== Proof.Law.lean ====
/-
  The two arrangements of the layer agree when every input entry is a real number.

  With every adjacency entry real the degree is a real, so its guarded inverse square root is a real (the inverse
  square root of a positive real, or zero); with features, weight and bias real the rectified linear layer is a real.
  For reals  a_m, l_m, d_m, d  one has
      (Σ_m a_m · (l_m · d_m)) · d  =  Σ_m (d · a_m · d_m) · l_m ,
  the sum pulled through the product (distributivity, which is what needs finiteness on the extended reals) and each
  term rearranged.  The rows fed to the layer normalisation are therefore equal, and so are the results.
-/
import proofs.«177266_j89043261980850_2_alg».proof.Proof.Spec

noncomputable section

open scoped BigOperators

namespace Cert.Law

open Idealize.ShloMosaic Idealize.ShloMosaic.ValueIdx Cert.Scalars Cert.Spec

/-- An extended real that is neither infinity is a real. -/
theorem real_of_ne {x : EReal} (h : x ≠ ⊤ ∧ x ≠ ⊥) : ∃ r : ℝ, x = (r : EReal) :=
  ⟨x.toReal, (EReal.coe_toReal h.1 h.2).symm⟩

/-- The inclusion of the reals commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The law itself, over the reals inside the extended reals. -/
theorem sum_law {ι : Type*} [Fintype ι] (a l d : ι → ℝ) (dn : ℝ) :
    (∑ m, (a m : EReal) * ((l m : EReal) * (d m : EReal))) * (dn : EReal)
      = ∑ m, ((dn : EReal) * (a m : EReal) * (d m : EReal)) * (l m : EReal) := by
  simp only [← EReal.coe_mul, coe_sum]
  refine congrArg _ ?_
  rw [Finset.sum_mul]
  exact Finset.sum_congr rfl fun m _ => by ring

/-- The inverse square root at a real: no value below zero, the infinity at zero, the real inverse root elsewhere. -/
theorem rsqrt_coe (r : ℝ) :
    Ideal.rsqrt (r : EReal) = if r < 0 then ⊥ else if r = 0 then ⊤ else (((Real.sqrt r)⁻¹ : ℝ) : EReal) := rfl

/-- The guarded inverse square root of a real is a real. -/
theorem dinvOf_real (r : ℝ) : ∃ s : ℝ, dinvOf (r : EReal) = (s : EReal) := by
  by_cases h : 0 < r
  · refine ⟨(Real.sqrt r)⁻¹, ?_⟩
    have h0 : (0 : EReal) < (r : EReal) := by exact_mod_cast h
    simp only [dinvOf, zero32, Ideal.ofBits_zero_f32, Scalar.select, Ideal.cmp, decide_eq_true h0]
    rw [if_pos (by decide), rsqrt_coe, if_neg (not_lt.mpr h.le), if_neg h.ne']
  · refine ⟨0, ?_⟩
    have h0 : ¬ (0 : EReal) < (r : EReal) := by exact_mod_cast h
    simp only [dinvOf, zero32, Ideal.ofBits_zero_f32, Scalar.select, Ideal.cmp, decide_eq_false h0]
    rw [if_neg (by decide)]
    rfl

/-- The rectifier's slope is a real. -/
theorem slope_real : ∃ s : ℝ, slope = (s : EReal) := by
  show ∃ s : ℝ, Ideal.ieee 8 23 (0x3C23D70A#32) = (s : EReal)
  unfold Ideal.ieee
  simp only []
  rw [if_neg (by decide), if_neg (by decide)]
  exact ⟨_, rfl⟩

/-- The leaky rectifier of a real is a real. -/
theorem leaky_real (r : ℝ) : ∃ s : ℝ, leaky (r : EReal) = (s : EReal) := by
  obtain ⟨s, hs⟩ := slope_real
  unfold leaky Scalar.select
  split_ifs
  · exact ⟨r, rfl⟩
  · exact ⟨s * r, by rw [hs, EReal.coe_mul]⟩

section Inputs

variable (feats : SX.Idx → EReal) (adj : SA.Idx → EReal) (W : SW.Idx → EReal) (bias : SB.Idx → EReal)

/-- A real adjacency has real normalising factors. -/
theorem dinv_real (ha : ∀ i, adj i ≠ ⊤ ∧ adj i ≠ ⊥) (b : Fin 8) (n : Fin 4096) :
    ∃ s : ℝ, dinv adj b n = (s : EReal) := by
  choose a ha' using fun i => real_of_ne (ha i)
  have : deg adj b n = ((∑ m : Fin 4096, a (ix3 b n m) : ℝ) : EReal) := by
    unfold deg
    simp only [ha', coe_sum]
  unfold dinv
  rw [this]
  exact dinvOf_real _

/-- Real features, weight and bias give a real rectified linear layer. -/
theorem lin_real (hf : ∀ i, feats i ≠ ⊤ ∧ feats i ≠ ⊥) (hW : ∀ i, W i ≠ ⊤ ∧ W i ≠ ⊥)
    (hb : ∀ i, bias i ≠ ⊤ ∧ bias i ≠ ⊥) (b : Fin 8) (n : Fin 4096) (o : Fin 128) :
    ∃ s : ℝ, lin feats W bias b n o = (s : EReal) := by
  choose f hf' using fun i => real_of_ne (hf i)
  choose w hW' using fun i => real_of_ne (hW i)
  choose c hb' using fun i => real_of_ne (hb i)
  have : (∑ i : Fin 128, feats (ix3 b n i) * W (ix2 o i)) + bias (ix1 o)
      = (((∑ i : Fin 128, f (ix3 b n i) * w (ix2 o i)) + c (ix1 o) : ℝ) : EReal) := by
    simp only [hf', hW', hb', ← EReal.coe_mul, coe_sum, ← EReal.coe_add]
  unfold lin
  rw [this]
  exact leaky_real _

/-- Before the normalisation the two arrangements agree entry by entry. -/
theorem preK_eq_preR (hf : ∀ i, feats i ≠ ⊤ ∧ feats i ≠ ⊥) (ha : ∀ i, adj i ≠ ⊤ ∧ adj i ≠ ⊥)
    (hW : ∀ i, W i ≠ ⊤ ∧ W i ≠ ⊥) (hb : ∀ i, bias i ≠ ⊤ ∧ bias i ≠ ⊥)
    (b : Fin 8) (n : Fin 4096) (o : Fin 128) :
    preK feats adj W bias b n o = preR feats adj W bias b n o := by
  choose a ha' using fun i => real_of_ne (ha i)
  choose d hd using fun b n => dinv_real adj ha b n
  choose l hl using fun b n o => lin_real feats W bias hf hW hb b n o
  simp only [preK, xs, preR, hl, hd, ha']
  exact sum_law (fun m => a (ix3 b n m)) (fun m => l b m o) (fun m => d b m) (d b n)

/-- The layer's two arrangements are the same function of real inputs. -/
theorem outK_eq_outR (hf : ∀ i, feats i ≠ ⊤ ∧ feats i ≠ ⊥) (ha : ∀ i, adj i ≠ ⊤ ∧ adj i ≠ ⊥)
    (hW : ∀ i, W i ≠ ⊤ ∧ W i ≠ ⊥) (hb : ∀ i, bias i ≠ ⊤ ∧ bias i ≠ ⊥) :
    outK feats adj W bias = outR feats adj W bias := by
  funext j
  obtain ⟨b, n, o, rfl⟩ : ∃ (b : Fin 8) (n : Fin 4096) (o : Fin 128), j = ix3 b n o := ⟨j 0, j 1, j 2, eq_ix3 j⟩
  rw [outK_apply, outR_apply]
  exact congrArg (fun y => lnRow y o) (funext fun o' => preK_eq_preR feats adj W bias hf ha hW hb b n o')

end Inputs

end Cert.Law

end
-- ==== Proof.Finite.lean ====
/-
  Under the precondition every entry of the four argument arrays is a real number.

  The precondition is the conjunction, over the four arrays, of "every entry's absolute value is below the word
  0x7F800000", which is +infinity.  An extended real x with  max x (−x) < +infinity  is neither infinity:
  at x = +infinity the maximum is x itself, at x = −infinity it is −x = +infinity.
-/
import proofs.«177266_j89043261980850_2_alg».proof.Defs
import proofs.«177266_j89043261980850_2_alg».proof.Proof.Gen.Pre_finite_inputs
import proofs.«177266_j89043261980850_2_alg».proof.Proof.Spec
import Idealize.ShloMosaic.Lib.ReduceAll

noncomputable section

namespace Cert.Finite

open Idealize.ShloMosaic Idealize.ShloMosaic.ValueIdx Idealize.SL.Sem Cert.Spec

/-- The scalar shape has one index. -/
instance : Subsingleton Cert.Pre_finite_inputs.S_.Idx := ⟨fun a b => funext fun d => d.elim0⟩

/-- The word 0x7F800000 is +infinity. -/
theorem top_word : Ideal.ofBits .f32 0x7F800000#32 = ⊤ := by simp [Ideal.ofBits, Ideal.ieee]

/-- An extended real whose absolute value is below +infinity is neither infinity. -/
theorem finite_of_abs_lt (x : EReal)
    (h : Ideal.cmp .olt (max x (-x)) (Ideal.ofBits .f32 0x7F800000#32) = 1#1) : x ≠ ⊤ ∧ x ≠ ⊥ := by
  rw [top_word] at h
  change BitVec.ofBool (decide (max x (-x) < ⊤)) = 1#1 at h
  have h' : max x (-x) < ⊤ := by
    by_contra hc
    rw [decide_eq_false hc] at h
    exact absurd h (by decide)
  constructor
  · rintro rfl; simp at h'
  · rintro rfl; simp at h'

section Arguments

variable (m : (ℓ : Loc Cert.KernelIdeal.nD Cert.KernelIdeal.τ Cert.KernelIdeal.sig) → Buf (Elt Ideal) ℓ)
  (c : Dev Cert.KernelIdeal.nD)

/-- The features on device `c`, as a function of a literal-shape index. -/
abbrev featsOf : SX.Idx → EReal := m ((c.tc : Thread Cert.KernelIdeal.nD Cert.KernelIdeal.τ).loc Cert.KernelIdeal.main_arg0)
/-- The adjacency on device `c`. -/
abbrev adjOf : SA.Idx → EReal := m ((c.tc : Thread Cert.KernelIdeal.nD Cert.KernelIdeal.τ).loc Cert.KernelIdeal.main_arg1)
/-- The weight on device `c`. -/
abbrev weightOf : SW.Idx → EReal := m ((c.tc : Thread Cert.KernelIdeal.nD Cert.KernelIdeal.τ).loc Cert.KernelIdeal.main_arg2)
/-- The bias on device `c`. -/
abbrev biasOf : SB.Idx → EReal := m ((c.tc : Thread Cert.KernelIdeal.nD Cert.KernelIdeal.τ).loc Cert.KernelIdeal.main_arg3)

/-- The precondition, decoded: on every device each of the four argument arrays has only real entries. -/
theorem inputs_finite (h : Cert.Pre_KernelIdeal m) :
    (∀ i, featsOf m c i ≠ ⊤ ∧ featsOf m c i ≠ ⊥) ∧ (∀ i, adjOf m c i ≠ ⊤ ∧ adjOf m c i ≠ ⊥)
    ∧ (∀ i, weightOf m c i ≠ ⊤ ∧ weightOf m c i ≠ ⊥) ∧ (∀ i, biasOf m c i ≠ ⊤ ∧ biasOf m c i ≠ ⊥) := by
  have e := congrFun (h c) ix0
  unfold Cert.Pre_finite_inputs.fn Cert.Pre_finite_inputs.fn_part1 at e
  simp only [andi, IntOp.andi_eq_one] at e
  obtain ⟨⟨⟨h0, h1⟩, h2⟩, h3⟩ := e
  exact ⟨fun i => finite_of_abs_lt _ (Host.reduce_andi_all _ _ _ _ _ h0 i),
    fun i => finite_of_abs_lt _ (Host.reduce_andi_all _ _ _ _ _ h1 i),
    fun i => finite_of_abs_lt _ (Host.reduce_andi_all _ _ _ _ _ h2 i),
    fun i => finite_of_abs_lt _ (Host.reduce_andi_all _ _ _ _ _ h3 i)⟩

end Arguments

end Cert.Finite

end
-- ==== Proof.lean ====
/-
  The certificate of a graph-convolution layer: a kernel of two calls against its array-level reference.

  The layer normalises the adjacency by the degrees' inverse square roots on both sides, applies a linear layer with a
  leaky rectifier to the features, multiplies, and normalises each row of the result. The kernel's first call sums the
  adjacency's rows (the degrees, accumulated over four column steps in a buffer it carries from one grid point to the
  next), and at each row tile's last step stores the guarded inverse square roots and the rectified linear layer already
  scaled by them; its second call accumulates, again over four column steps, the product of the adjacency with those
  scaled features, then scales each finished row by its own inverse square root and normalises it. The reference
  scales the adjacency on both sides first. On the extended reals the two agree where every input is a real number: a
  finite factor comes out of a finite sum (distributivity), which is the one place the precondition is used.

  The three frames: each of the kernel's two programs is its two calls run one after the other, each call's body run
  once per kind of grid point (first, middle, last column step) under an invariant that holds the carried buffer at what
  the point before left; the reference's frame is its run with the result dropped. The idealization rewrote nothing.
  The values: the kernel's result array is the specification's first arrangement of the four arguments, the
  reference's its second, and the two arrangements are equal under finiteness.
-/
import proofs.«177266_j89043261980850_2_alg».proof.Defs
import proofs.«177266_j89043261980850_2_alg».proof.Proof.Gen.Kernel
import proofs.«177266_j89043261980850_2_alg».proof.Proof.Gen.KernelIdeal
import proofs.«177266_j89043261980850_2_alg».proof.Proof.Gen.ReferenceIdeal
import proofs.«177266_j89043261980850_2_alg».proof.Proof.Gen.Pre_finite_inputs
import proofs.«177266_j89043261980850_2_alg».proof.Proof.Gen.ReferenceIdeal.Run
import proofs.«177266_j89043261980850_2_alg».proof.Proof.Gen.ReferenceIdeal.Read
import proofs.«177266_j89043261980850_2_alg».proof.Proof.KMain
import proofs.«177266_j89043261980850_2_alg».proof.Proof.KIValue
import proofs.«177266_j89043261980850_2_alg».proof.Proof.RefValue
import proofs.«177266_j89043261980850_2_alg».proof.Proof.Law
import proofs.«177266_j89043261980850_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := Cert.RefValue.frame_ri

/-- The idealization rewrote no operation. -/
theorem preserves : Cert.preserves_Kernel_KernelIdeal := trivial

/-- Both idealized programs end at the layer of the arguments: the kernel's at the arrangement that scales the features
    first, the reference's at the one that scales the adjacency first; equal where the inputs are real numbers. -/
theorem algebraic : Cert.algebraic_KernelIdeal_ReferenceIdeal := by
  intro m ρ m' ρ' hpre hagree
  refine ⟨_, Cert.KernelIdeal.Hand.kernel_run m ρ, ?_⟩
  refine (θ_run Cert.ReferenceIdeal.defs _ _).mono (fun _ h c => ⟨(h c).1.trans ?_, (h c).2⟩) (Cert.RefValue.ref_run m' ρ')
  rw [(hagree c).1, (hagree c).2.1, (hagree c).2.2.1, (hagree c).2.2.2]
  have hfin := Cert.Finite.inputs_finite m c hpre
  exact (Cert.Law.outK_eq_outR _ _ _ _ hfin.1 hfin.2.1 hfin.2.2.1 hfin.2.2.2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
